-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.named_const.Statement Cert.KernelIdeal.κ "inv_49" .f32 0x3CA72F05#32 ((1 / 49 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v2_1)) (v1 : (c : Dev Cert.KernelIdeal.nD) → Buf (Elt Ideal) ((c.tc : Thread Cert.KernelIdeal.nD Cert.KernelIdeal.τ).loc Cert.KernelIdeal.main_v2_2)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_1) = v0 c
          ∧ r.2.mem ((c.tc : Thread Cert.KernelIdeal.nD Cert.KernelIdeal.τ).loc Cert.KernelIdeal.main_v2_2) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S160x512x7x7 : Shape := ⟨4, ![160, 512, 7, 7]⟩
abbrev S512x1024 : Shape := ⟨2, ![512, 1024]⟩
abbrev S1x1024 : Shape := ⟨2, ![1, 1024]⟩
abbrev S1024x128 : Shape := ⟨2, ![1024, 128]⟩
abbrev S1x128 : Shape := ⟨2, ![1, 128]⟩
abbrev S128x128 : Shape := ⟨2, ![128, 128]⟩
abbrev S_ : Shape := ⟨0, ![]⟩

class Facts : Prop where
  bcast_S_S160x512x7x7 : S_.BroadcastsInDim S160x512x7x7 (![] : Fin 0 → Fin S160x512x7x7.rank)
  reducesTo_S160x512x7x7_S_d0_1_2_3 : S160x512x7x7.ReducesTo [0, 1, 2, 3] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x128 : S_.BroadcastsInDim S1024x128 (![] : Fin 0 → Fin S1024x128.rank)
  reducesTo_S1024x128_S_d0_1 : S1024x128.ReducesTo [0, 1] S_
  bcast_S_S1x128 : S_.BroadcastsInDim S1x128 (![] : Fin 0 → Fin S1x128.rank)
  reducesTo_S1x128_S_d0_1 : S1x128.ReducesTo [0, 1] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg8 : FVec F S1x128 .f32) (main_v48 : IVec S_ 1) (main_v49 : FVec F S1x128 .f32) (main_v50 : FVec F S1x128 .f32) : IVec S_ 1 :=
  let main_v51 : IVec S1x128 1 := cmpf .olt main_v49 main_v50
  let main_c_19 : IVec S_ 1 := constantI S_ 1 1#1
  let main_v52 : IVec S_ 1 := (fun x v => Host.reduce IntOp.andi x v reducesTo_S1x128_S_d0_1 h_S_) main_v51 main_c_19
  let main_v53 : IVec S_ 1 := andi main_v48 main_v52
  let main_cst_20 : FVec F S_ .f32 := constant S_ .f32 0x00000000#32
  let main_v54 : FVec F S1x128 .f32 := broadcastInDim S1x128 ![] bcast_S_S1x128 main_cst_20
  let main_v55 : IVec S1x128 1 := cmpf .oge main_arg8 main_v54
  let main_c_21 : IVec S_ 1 := constantI S_ 1 1#1
  let main_v56 : IVec S_ 1 := (fun x v => Host.reduce IntOp.andi x v reducesTo_S1x128_S_d0_1 h_S_) main_v55 main_c_21
  let main_v57 : IVec S_ 1 := andi main_v53 main_v56
  main_v57

def fn_part2 {F : FTy → Type} [FloatOps F] (main_arg7 : FVec F S1x128 .f32) (main_arg8 : FVec F S1x128 .f32) (main_arg9 : FVec F S128x128 .f32) (main_arg10 : FVec F S1x128 .f32) (main_v33 : IVec S_ 1) : IVec S_ 1 :=
  let main_v34 : FVec F S1x128 .f32 := Host.absf main_arg7
  let main_cst_12 : FVec F S_ .f32 := constant S_ .f32 0x7F800000#32
  let main_v35 : FVec F S1x128 .f32 := broadcastInDim S1x128 ![] bcast_S_S1x128 main_cst_12
  let main_v36 : IVec S1x128 1 := cmpf .olt main_v34 main_v35
  let main_c_13 : IVec S_ 1 := constantI S_ 1 1#1
  let main_v37 : IVec S_ 1 := (fun x v => Host.reduce IntOp.andi x v reducesTo_S1x128_S_d0_1 h_S_) main_v36 main_c_13
  let main_v38 : IVec S_ 1 := andi main_v33 main_v37
  let main_v39 : FVec F S1x128 .f32 := Host.absf main_arg8
  let main_cst_14 : FVec F S_ .f32 := constant S_ .f32 0x7F800000#32
  let main_v40 : FVec F S1x128 .f32 := broadcastInDim S1x128 ![] bcast_S_S1x128 main_cst_14
  let main_v41 : IVec S1x128 1 := cmpf .olt main_v39 main_v40
  let main_c_15 : IVec S_ 1 := constantI S_ 1 1#1
  let main_v42 : IVec S_ 1 := (fun x v => Host.reduce IntOp.andi x v reducesTo_S1x128_S_d0_1 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S1x128 .f32 := Host.absf main_arg10
  let main_cst_18 : FVec F S_ .f32 := constant S_ .f32 0x7F800000#32
  let main_v50 : FVec F S1x128 .f32 := broadcastInDim S1x128 ![] bcast_S_S1x128 main_cst_18
  fn_part3 (F := F) main_arg8 main_v48 main_v49 main_v50

def fn_part1 {F : FTy → Type} [FloatOps F] (main_arg4 : FVec F S1x128 .f32) (main_arg5 : FVec F S1x128 .f32) (main_arg6 : FVec F S1x128 .f32) (main_arg7 : FVec F S1x128 .f32) (main_arg8 : FVec F S1x128 .f32) (main_arg9 : FVec F S128x128 .f32) (main_arg10 : FVec F S1x128 .f32) (main_v13 : IVec S_ 1) (main_v16 : IVec S1024x128 1) : IVec S_ 1 :=
  let main_c_5 : IVec S_ 1 := constantI S_ 1 1#1
  let main_v17 : IVec S_ 1 := (fun x v => Host.reduce IntOp.andi x v reducesTo_S1024x128_S_d0_1 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S1x128 .f32 := Host.absf main_arg5
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  let main_v29 : FVec F S1x128 .f32 := Host.absf main_arg6
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S160x512x7x7 .f32) (main_arg1 : FVec F S512x1024 .f32) (main_arg2 : FVec F S1x1024 .f32) (main_arg3 : FVec F S1024x128 .f32) (main_arg4 : FVec F S1x128 .f32) (main_arg5 : FVec F S1x128 .f32) (main_arg6 : FVec F S1x128 .f32) (main_arg7 : FVec F S1x128 .f32) (main_arg8 : FVec F S1x128 .f32) (main_arg9 : FVec F S128x128 .f32) (main_arg10 : FVec F S1x128 .f32) : IVec S_ 1 :=
  let main_v0 : FVec F S160x512x7x7 .f32 := Host.absf main_arg0
  let main_cst : FVec F S_ .f32 := constant S_ .f32 0x7F800000#32
  let main_v1 : FVec F S160x512x7x7 .f32 := broadcastInDim S160x512x7x7 ![] bcast_S_S160x512x7x7 main_cst
  let main_v2 : IVec S160x512x7x7 1 := cmpf .olt main_v0 main_v1
  let main_c : IVec S_ 1 := constantI S_ 1 1#1
  let main_v3 : IVec S_ 1 := (fun x v => Host.reduce IntOp.andi x v reducesTo_S160x512x7x7_S_d0_1_2_3 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x128 .f32 := Host.absf main_arg3
  let main_cst_4 : FVec F S_ .f32 := constant S_ .f32 0x7F800000#32
  let main_v15 : FVec F S1024x128 .f32 := broadcastInDim S1024x128 ![] bcast_S_S1024x128 main_cst_4
  let main_v16 : IVec S1024x128 1 := cmpf .olt main_v14 main_v15
  fn_part1 (F := F) main_arg4 main_arg5 main_arg6 main_arg7 main_arg8 main_arg9 main_arg10 main_v13 main_v16
-- ==== Kernel.lean ====
abbrev S160x512x7x7 : Shape := ⟨4, ![160, 512, 7, 7]⟩
abbrev S512x1024 : Shape := ⟨2, ![512, 1024]⟩
abbrev S1x1024 : Shape := ⟨2, ![1, 1024]⟩
abbrev S1024x128 : Shape := ⟨2, ![1024, 128]⟩
abbrev S1x128 : Shape := ⟨2, ![1, 128]⟩
abbrev S128x128 : Shape := ⟨2, ![128, 128]⟩
abbrev S160x512x49 : Shape := ⟨3, ![160, 512, 49]⟩
abbrev S49x160x512 : Shape := ⟨3, ![49, 160, 512]⟩
abbrev S49x160x1024 : Shape := ⟨3, ![49, 160, 1024]⟩
abbrev S160x128 : Shape := ⟨2, ![160, 128]⟩
abbrev S49x16x512 : Shape := ⟨3, ![49, 16, 512]⟩
abbrev S49x16x1024 : Shape := ⟨3, ![49, 16, 1024]⟩
abbrev S16x128 : Shape := ⟨2, ![16, 128]⟩
abbrev S784x512 : Shape := ⟨2, ![784, 512]⟩
abbrev S784x1024 : Shape := ⟨2, ![784, 1024]⟩
abbrev S16x512 : Shape := ⟨2, ![16, 512]⟩
abbrev S16x1024 : Shape := ⟨2, ![16, 1024]⟩
abbrev S16 : Shape := ⟨1, ![16]⟩
abbrev S16x1 : Shape := ⟨2, ![16, 1]⟩
abbrev S160x1024x49 : Shape := ⟨3, ![160, 1024, 49]⟩
abbrev S160x1024x7x7 : Shape := ⟨4, ![160, 1024, 7, 7]⟩

abbrev nBuf : Space → Nat
  | .hbm => 18
  | .vmem => 18
  | .smem => 0
  | _ => 0

abbrev bufTy : (tb : Table) → Fin (tcTables nBuf tb) → BufTy
  | .hbm, ⟨0, _⟩ => ⟨S160x512x7x7, .f32⟩
  | .hbm, ⟨1, _⟩ => ⟨S512x1024, .f32⟩
  | .hbm, ⟨2, _⟩ => ⟨S1x1024, .f32⟩
  | .hbm, ⟨3, _⟩ => ⟨S1024x128, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x128, .f32⟩
  | .hbm, ⟨8, _⟩ => ⟨S1x128, .f32⟩
  | .hbm, ⟨9, _⟩ => ⟨S128x128, .f32⟩
  | .hbm, ⟨10, _⟩ => ⟨S1x128, .f32⟩
  | .hbm, ⟨11, _⟩ => ⟨S160x512x49, .f32⟩
  | .hbm, ⟨12, _⟩ => ⟨S49x160x512, .f32⟩
  | .hbm, ⟨13, _⟩ => ⟨S49x160x1024, .f32⟩
  | .hbm, ⟨14, _⟩ => ⟨S160x128, .f32⟩
  | .hbm, ⟨15, _⟩ => ⟨S160x128, .f32⟩
  | .hbm, ⟨16, _⟩ => ⟨S160x1024x49, .f32⟩
  | .hbm, ⟨17, _⟩ => ⟨S160x1024x7x7, .f32⟩
  | .local _ .vmem, ⟨0, _⟩ => ⟨S49x16x512, .f32⟩
  | .local _ .vmem, ⟨1, _⟩ => ⟨S49x16x512, .f32⟩
  | .local _ .vmem, ⟨2, _⟩ => ⟨S512x1024, .f32⟩
  | .local _ .vmem, ⟨3, _⟩ => ⟨S1x1024, .f32⟩
  | .local _ .vmem, ⟨4, _⟩ => ⟨S1024x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S49x16x1024, .f32⟩
  | .local _ .vmem, ⟨13, _⟩ => ⟨S49x16x1024, .f32⟩
  | .local _ .vmem, ⟨14, _⟩ => ⟨S16x128, .f32⟩
  | .local _ .vmem, ⟨15, _⟩ => ⟨S16x128, .f32⟩
  | .local _ .vmem, ⟨16, _⟩ => ⟨S16x128, .f32⟩
  | .local _ .vmem, ⟨17, _⟩ => ⟨S16x128, .f32⟩
  | _, _ => ⟨S160x512x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v2_2 : Ref sig .tc := ⟨.hbm, 15, rfl⟩
abbrev main_v3 : Ref sig .tc := ⟨.hbm, 16, rfl⟩
abbrev main_v4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S49x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S49x16x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  shapeCasts_S160x512x7x7_S160x512x49 : S160x512x7x7.ShapeCasts S160x512x49
  transposes_S160x512x49_S49x160x512_2_0_1 : S160x512x49.Transposes [2, 0, 1] S49x160x512
  inb_S49x16x512_S49x16x512_0_0_0 : ∀ a, (![0, 0, 0] : Fin 3 → Nat) a + S49x16x512.size a ≤ S49x16x512.size a
  h_S49x16x512 : 0 < S49x16x512.numel
  shapeCasts_S49x16x512_S49x16x512 : S49x16x512.ShapeCasts S49x16x512
  shapeCasts_S49x16x512_S784x512 : S49x16x512.ShapeCasts S784x512
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  broadcasts_S1x1024_S784x1024 : S1x1024.Broadcasts S784x1024
  shapeCasts_S784x1024_S49x16x1024 : S784x1024.ShapeCasts S49x16x1024
  inb_S49x16x1024_S49x16x1024_0_0_0 : ∀ a, (![0, 0, 0] : Fin 3 → Nat) a + S49x16x1024.size a ≤ S49x16x1024.size a
  h_S49x16x1024 : 0 < S49x16x1024.numel
  reduces_S49x16x512_S16x512 : S49x16x512.Reduces [0] S16x512
  broadcasts_S1x1024_S16x1024 : S1x1024.Broadcasts S16x1024
  inb_S1024x128_S1024x128_0_0 : ∀ a, (![0, 0] : Fin 2 → Nat) a + S1024x128.size a ≤ S1024x128.size a
  h_S1024x128 : 0 < S1024x128.numel
  inb_S1x128_S1x128_0_0 : ∀ a, (![0, 0] : Fin 2 → Nat) a + S1x128.size a ≤ S1x128.size a
  h_S1x128 : 0 < S1x128.numel
  broadcasts_S1x128_S16x128 : S1x128.Broadcasts S16x128
  reduces_S16x128_S16 : S16x128.Reduces [1] S16
  shapeCasts_S16_S16x1 : S16.ShapeCasts S16x1
  broadcasts_S16x1_S16x128 : S16x1.Broadcasts S16x128
  inb_S128x128_S128x128_0_0 : ∀ a, (![0, 0] : Fin 2 → Nat) a + S128x128.size a ≤ S128x128.size a
  h_S128x128 : 0 < S128x128.numel
  inb_S16x128_S16x128_0_0 : ∀ a, (![0, 0] : Fin 2 → Nat) a + S16x128.size a ≤ S16x128.size a
  h_S16x128 : 0 < S16x128.numel
  transposes_S49x160x1024_S160x1024x49_1_2_0 : S49x160x1024.Transposes [1, 2, 0] S160x1024x49
  shapeCasts_S160x1024x49_S160x1024x7x7 : S160x1024x49.ShapeCasts S160x1024x7x7
  dot_S784x512_S512x1024_S784x1024_1_0_0_1_n_n_wf : DotDims.WF S784x512 S512x1024 S784x1024 [1] [0] [0] [1] [] []
  dot_S16x512_S512x1024_S16x1024_1_0_0_1_n_n_wf : DotDims.WF S16x512 S512x1024 S16x1024 [1] [0] [0] [1] [] []
  dot_S16x1024_S1024x128_S16x128_1_0_0_1_n_n_wf : DotDims.WF S16x1024 S1024x128 S16x128 [1] [0] [0] [1] [] []
  dot_S16x128_S128x128_S16x128_1_0_0_1_n_n_wf : DotDims.WF S16x128 S128x128 S16x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S49x16x512.size a ≤ S49x160x512.size a
  hwx0_0 : ∀ i : grid0.Coords, EltTy.bits .f32 = 32 ∨ (Rect.block (s := S49x160x512) S49x16x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S1024x128.size a
  hwx0_3 : ∀ i : grid0.Coords, EltTy.bits .f32 = 32 ∨ (Rect.block (s := S1024x128) S1024x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S49x16x1024.size a ≤ S49x160x1024.size a
  hwx0_11 : ∀ i : grid0.Coords, EltTy.bits .f32 = 32 ∨ (Rect.block (s := S49x160x1024) S49x16x1024.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S16x128.size a ≤ S160x128.size a
  hwx0_12 : ∀ i : grid0.Coords, EltTy.bits .f32 = 32 ∨ (Rect.block (s := S160x128) S16x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S16x128.size a ≤ S160x128.size a
  hwx0_13 : ∀ i : grid0.Coords, EltTy.bits .f32 = 32 ∨ (Rect.block (s := S160x128) S16x128.size (cc0_transform_13 i) (hinb0_13 i)).WholeWords (EltTy.packing .f32)

variable [Facts₀]

def dot_S784x512_S512x1024_S784x1024_1_0_0_1_n_n : DotDims S784x512 S512x1024 S784x1024 where
  lhsContracting := [1]
  rhsContracting := [0]
  lhsNonContracting := [0]
  rhsNonContracting := [1]
  lhsBatch := []
  rhsBatch := []
  wf := dot_S784x512_S512x1024_S784x1024_1_0_0_1_n_n_wf
def dot_S16x512_S512x1024_S16x1024_1_0_0_1_n_n : DotDims S16x512 S512x1024 S16x1024 where
  lhsContracting := [1]
  rhsContracting := [0]
  lhsNonContracting := [0]
  rhsNonContracting := [1]
  lhsBatch := []
  rhsBatch := []
  wf := dot_S16x512_S512x1024_S16x1024_1_0_0_1_n_n_wf
def dot_S16x1024_S1024x128_S16x128_1_0_0_1_n_n : DotDims S16x1024 S1024x128 S16x128 where
  lhsContracting := [1]
  rhsContracting := [0]
  lhsNonContracting := [0]
  rhsNonContracting := [1]
  lhsBatch := []
  rhsBatch := []
  wf := dot_S16x1024_S1024x128_S16x128_1_0_0_1_n_n_wf
def dot_S16x128_S128x128_S16x128_1_0_0_1_n_n : DotDims S16x128 S128x128 S16x128 where
  lhsContracting := [1]
  rhsContracting := [0]
  lhsNonContracting := [0]
  rhsNonContracting := [1]
  lhsBatch := []
  rhsBatch := []
  wf := dot_S16x128_S128x128_S16x128_1_0_0_1_n_n_wf

abbrev win0_0 : Pipeline.Window sig grid0 :=
  Pipeline.Window.ofSpec (Memref.whole main_v1) S49x16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v2_0) S49x16x1024.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v2_1) S16x128.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v2_2) S16x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S160x512x7x7 : Shape := ⟨4, ![160, 512, 7, 7]⟩
abbrev S512x1024 : Shape := ⟨2, ![512, 1024]⟩
abbrev S1x1024 : Shape := ⟨2, ![1, 1024]⟩
abbrev S1024x128 : Shape := ⟨2, ![1024, 128]⟩
abbrev S1x128 : Shape := ⟨2, ![1, 128]⟩
abbrev S128x128 : Shape := ⟨2, ![128, 128]⟩
abbrev S160x512x49 : Shape := ⟨3, ![160, 512, 49]⟩
abbrev S160x49x512 : Shape := ⟨3, ![160, 49, 512]⟩
abbrev S512x128 : Shape := ⟨2, ![512, 128]⟩
abbrev S_ : Shape := ⟨0, ![]⟩
abbrev S128x1 : Shape := ⟨2, ![128, 1]⟩
abbrev S160x49x1024 : Shape := ⟨3, ![160, 49, 1024]⟩
abbrev S4x160x256 : Shape := ⟨3, ![4, 160, 256]⟩
abbrev S512x256 : Shape := ⟨2, ![512, 256]⟩
abbrev S1x256 : Shape := ⟨2, ![1, 256]⟩
abbrev S160x49x256 : Shape := ⟨3, ![160, 49, 256]⟩
abbrev S1x160x256 : Shape := ⟨3, ![1, 160, 256]⟩
abbrev S1x49x512 : Shape := ⟨3, ![1, 49, 512]⟩
abbrev S49x512 : Shape := ⟨2, ![49, 512]⟩
abbrev S49x256 : Shape := ⟨2, ![49, 256]⟩
abbrev S1x49x256 : Shape := ⟨3, ![1, 49, 256]⟩
abbrev S160x512 : Shape := ⟨2, ![160, 512]⟩
abbrev S160x128 : Shape := ⟨2, ![160, 128]⟩
abbrev S160 : Shape := ⟨1, ![160]⟩
abbrev S160x1 : Shape := ⟨2, ![160, 1]⟩
abbrev S1x160x128 : Shape := ⟨3, ![1, 160, 128]⟩
abbrev S160x1024x49 : Shape := ⟨3, ![160, 1024, 49]⟩
abbrev S160x1024x7x7 : Shape := ⟨4, ![160, 1024, 7, 7]⟩

abbrev nBuf : Space → Nat
  | .hbm => 36
  | .vmem => 13
  | .smem => 0
  | _ => 0

abbrev bufTy : (tb : Table) → Fin (tcTables nBuf tb) → BufTy
  | .hbm, ⟨0, _⟩ => ⟨S160x512x7x7, .f32⟩
  | .hbm, ⟨1, _⟩ => ⟨S512x1024, .f32⟩
  | .hbm, ⟨2, _⟩ => ⟨S1x1024, .f32⟩
  | .hbm, ⟨3, _⟩ => ⟨S1024x128, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x128, .f32⟩
  | .hbm, ⟨8, _⟩ => ⟨S1x128, .f32⟩
  | .hbm, ⟨9, _⟩ => ⟨S128x128, .f32⟩
  | .hbm, ⟨10, _⟩ => ⟨S1x128, .f32⟩
  | .hbm, ⟨11, _⟩ => ⟨S160x512x49, .f32⟩
  | .hbm, ⟨12, _⟩ => ⟨S160x49x512, .f32⟩
  | .hbm, ⟨13, _⟩ => ⟨S512x128, .f32⟩
  | .hbm, ⟨14, _⟩ => ⟨S1x128, .f32⟩
  | .hbm, ⟨15, _⟩ => ⟨S1x128, .f32⟩
  | .hbm, ⟨16, _⟩ => ⟨S_, .f32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S128x1, .f32⟩
  | .hbm, ⟨22, _⟩ => ⟨S128x128, .f32⟩
  | .hbm, ⟨23, _⟩ => ⟨S128x128, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S160x49x1024, .f32⟩
  | .hbm, ⟨29, _⟩ => ⟨S4x160x256, .f32⟩
  | .hbm, ⟨30, _⟩ => ⟨S1x160x128, .f32⟩
  | .hbm, ⟨31, _⟩ => ⟨S160x128, .f32⟩
  | .hbm, ⟨32, _⟩ => ⟨S1x160x128, .f32⟩
  | .hbm, ⟨33, _⟩ => ⟨S160x128, .f32⟩
  | .hbm, ⟨34, _⟩ => ⟨S160x1024x49, .f32⟩
  | .hbm, ⟨35, _⟩ => ⟨S160x1024x7x7, .f32⟩
  | .local _ .vmem, ⟨0, _⟩ => ⟨S160x49x512, .f32⟩
  | .local _ .vmem, ⟨1, _⟩ => ⟨S512x256, .f32⟩
  | .local _ .vmem, ⟨2, _⟩ => ⟨S512x256, .f32⟩
  | .local _ .vmem, ⟨3, _⟩ => ⟨S1x256, .f32⟩
  | .local _ .vmem, ⟨4, _⟩ => ⟨S1x256, .f32⟩
  | .local _ .vmem, ⟨5, _⟩ => ⟨S512x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S160x49x256, .f32⟩
  | .local _ .vmem, ⟨10, _⟩ => ⟨S160x49x256, .f32⟩
  | .local _ .vmem, ⟨11, _⟩ => ⟨S1x160x256, .f32⟩
  | .local _ .vmem, ⟨12, _⟩ => ⟨S1x160x256, .f32⟩
  | _, _ => ⟨S160x512x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16_0 : Ref sig .tc := ⟨.hbm, 28, rfl⟩
abbrev main_v16_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S160x49x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S160x49x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x160x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S160x512x7x7_S160x512x49 : S160x512x7x7.ShapeCasts S160x512x49
  transposes_S160x512x49_S160x49x512_0_2_1 : S160x512x49.Transposes [0, 2, 1] S160x49x512
  bcast_S_S1x128 : S_.BroadcastsInDim S1x128 (![] : Fin 0 → Fin S1x128.rank)
  shapeCasts_S1x128_S128x1 : S1x128.ShapeCasts S128x1
  bcast_S128x1_S128x128_0_1 : S128x1.BroadcastsInDim S128x128 (![0, 1] : Fin 2 → Fin S128x128.rank)
  inb_S160x49x512_S160x49x512_0_0_0 : ∀ a, (![0, 0, 0] : Fin 3 → Nat) a + S160x49x512.size a ≤ S160x49x512.size a
  h_S160x49x512 : 0 < S160x49x512.numel
  shapeCasts_S160x49x512_S160x49x512 : S160x49x512.ShapeCasts S160x49x512
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  slices_S160x49x512_o0_0_0_S1x49x512 : S160x49x512.Slices ![0, 0, 0] S1x49x512
  shapeCasts_S1x49x512_S49x512 : S1x49x512.ShapeCasts S49x512
  broadcasts_S1x256_S49x256 : S1x256.Broadcasts S49x256
  inb_S160x49x256_S1x49x256_0_0_0 : ∀ a, (![0, 0, 0] : Fin 3 → Nat) a + S1x49x256.size a ≤ S160x49x256.size a
  h_S1x49x256 : 0 < S1x49x256.numel
  shapeCasts_S1x49x256_S49x256 : S1x49x256.ShapeCasts S49x256
  shapeCasts_S49x256_S1x49x256 : S49x256.ShapeCasts S1x49x256
  slices_S160x49x512_o1_0_0_S1x49x512 : S160x49x512.Slices ![1, 0, 0] S1x49x512
  inb_S160x49x256_S1x49x256_1_0_0 : ∀ a, (![1, 0, 0] : Fin 3 → Nat) a + S1x49x256.size a ≤ S160x49x256.size a
  slices_S160x49x512_o2_0_0_S1x49x512 : S160x49x512.Slices ![2, 0, 0] S1x49x512
  inb_S160x49x256_S1x49x256_2_0_0 : ∀ a, (![2, 0, 0] : Fin 3 → Nat) a + S1x49x256.size a ≤ S160x49x256.size a
  slices_S160x49x512_o3_0_0_S1x49x512 : S160x49x512.Slices ![3, 0, 0] S1x49x512
  inb_S160x49x256_S1x49x256_3_0_0 : ∀ a, (![3, 0, 0] : Fin 3 → Nat) a + S1x49x256.size a ≤ S160x49x256.size a
  slices_S160x49x512_o4_0_0_S1x49x512 : S160x49x512.Slices ![4, 0, 0] S1x49x512
  inb_S160x49x256_S1x49x256_4_0_0 : ∀ a, (![4, 0, 0] : Fin 3 → Nat) a + S1x49x256.size a ≤ S160x49x256.size a
  slices_S160x49x512_o5_0_0_S1x49x512 : S160x49x512.Slices ![5, 0, 0] S1x49x512
  inb_S160x49x256_S1x49x256_5_0_0 : ∀ a, (![5, 0, 0] : Fin 3 → Nat) a + S1x49x256.size a ≤ S160x49x256.size a
  slices_S160x49x512_o6_0_0_S1x49x512 : S160x49x512.Slices ![6, 0, 0] S1x49x512
  inb_S160x49x256_S1x49x256_6_0_0 : ∀ a, (![6, 0, 0] : Fin 3 → Nat) a + S1x49x256.size a ≤ S160x49x256.size a
  slices_S160x49x512_o7_0_0_S1x49x512 : S160x49x512.Slices ![7, 0, 0] S1x49x512
  inb_S160x49x256_S1x49x256_7_0_0 : ∀ a, (![7, 0, 0] : Fin 3 → Nat) a + S1x49x256.size a ≤ S160x49x256.size a
  slices_S160x49x512_o8_0_0_S1x49x512 : S160x49x512.Slices ![8, 0, 0] S1x49x512
  inb_S160x49x256_S1x49x256_8_0_0 : ∀ a, (![8, 0, 0] : Fin 3 → Nat) a + S1x49x256.size a ≤ S160x49x256.size a
  slices_S160x49x512_o9_0_0_S1x49x512 : S160x49x512.Slices ![9, 0, 0] S1x49x512
  inb_S160x49x256_S1x49x256_9_0_0 : ∀ a, (![9, 0, 0] : Fin 3 → Nat) a + S1x49x256.size a ≤ S160x49x256.size a
  slices_S160x49x512_o10_0_0_S1x49x512 : S160x49x512.Slices ![10, 0, 0] S1x49x512
  inb_S160x49x256_S1x49x256_10_0_0 : ∀ a, (![10, 0, 0] : Fin 3 → Nat) a + S1x49x256.size a ≤ S160x49x256.size a
  slices_S160x49x512_o11_0_0_S1x49x512 : S160x49x512.Slices ![11, 0, 0] S1x49x512
  inb_S160x49x256_S1x49x256_11_0_0 : ∀ a, (![11, 0, 0] : Fin 3 → Nat) a + S1x49x256.size a ≤ S160x49x256.size a
  slices_S160x49x512_o12_0_0_S1x49x512 : S160x49x512.Slices ![12, 0, 0] S1x49x512
  inb_S160x49x256_S1x49x256_12_0_0 : ∀ a, (![12, 0, 0] : Fin 3 → Nat) a + S1x49x256.size a ≤ S160x49x256.size a
  slices_S160x49x512_o13_0_0_S1x49x512 : S160x49x512.Slices ![13, 0, 0] S1x49x512
  inb_S160x49x256_S1x49x256_13_0_0 : ∀ a, (![13, 0, 0] : Fin 3 → Nat) a + S1x49x256.size a ≤ S160x49x256.size a
  slices_S160x49x512_o14_0_0_S1x49x512 : S160x49x512.Slices ![14, 0, 0] S1x49x512
  inb_S160x49x256_S1x49x256_14_0_0 : ∀ a, (![14, 0, 0] : Fin 3 → Nat) a + S1x49x256.size a ≤ S160x49x256.size a
  slices_S160x49x512_o15_0_0_S1x49x512 : S160x49x512.Slices ![15, 0, 0] S1x49x512
  inb_S160x49x256_S1x49x256_15_0_0 : ∀ a, (![15, 0, 0] : Fin 3 → Nat) a + S1x49x256.size a ≤ S160x49x256.size a
  slices_S160x49x512_o16_0_0_S1x49x512 : S160x49x512.Slices ![16, 0, 0] S1x49x512
  inb_S160x49x256_S1x49x256_16_0_0 : ∀ a, (![16, 0, 0] : Fin 3 → Nat) a + S1x49x256.size a ≤ S160x49x256.size a
  slices_S160x49x512_o17_0_0_S1x49x512 : S160x49x512.Slices ![17, 0, 0] S1x49x512
  inb_S160x49x256_S1x49x256_17_0_0 : ∀ a, (![17, 0, 0] : Fin 3 → Nat) a + S1x49x256.size a ≤ S160x49x256.size a
  slices_S160x49x512_o18_0_0_S1x49x512 : S160x49x512.Slices ![18, 0, 0] S1x49x512
  inb_S160x49x256_S1x49x256_18_0_0 : ∀ a, (![18, 0, 0] : Fin 3 → Nat) a + S1x49x256.size a ≤ S160x49x256.size a
  slices_S160x49x512_o19_0_0_S1x49x512 : S160x49x512.Slices ![19, 0, 0] S1x49x512
  inb_S160x49x256_S1x49x256_19_0_0 : ∀ a, (![19, 0, 0] : Fin 3 → Nat) a + S1x49x256.size a ≤ S160x49x256.size a
  slices_S160x49x512_o20_0_0_S1x49x512 : S160x49x512.Slices ![20, 0, 0] S1x49x512
  inb_S160x49x256_S1x49x256_20_0_0 : ∀ a, (![20, 0, 0] : Fin 3 → Nat) a + S1x49x256.size a ≤ S160x49x256.size a
  slices_S160x49x512_o21_0_0_S1x49x512 : S160x49x512.Slices ![21, 0, 0] S1x49x512
  inb_S160x49x256_S1x49x256_21_0_0 : ∀ a, (![21, 0, 0] : Fin 3 → Nat) a + S1x49x256.size a ≤ S160x49x256.size a
  slices_S160x49x512_o22_0_0_S1x49x512 : S160x49x512.Slices ![22, 0, 0] S1x49x512
  inb_S160x49x256_S1x49x256_22_0_0 : ∀ a, (![22, 0, 0] : Fin 3 → Nat) a + S1x49x256.size a ≤ S160x49x256.size a
  slices_S160x49x512_o23_0_0_S1x49x512 : S160x49x512.Slices ![23, 0, 0] S1x49x512
  inb_S160x49x256_S1x49x256_23_0_0 : ∀ a, (![23, 0, 0] : Fin 3 → Nat) a + S1x49x256.size a ≤ S160x49x256.size a
  slices_S160x49x512_o24_0_0_S1x49x512 : S160x49x512.Slices ![24, 0, 0] S1x49x512
  inb_S160x49x256_S1x49x256_24_0_0 : ∀ a, (![24, 0, 0] : Fin 3 → Nat) a + S1x49x256.size a ≤ S160x49x256.size a
  slices_S160x49x512_o25_0_0_S1x49x512 : S160x49x512.Slices ![25, 0, 0] S1x49x512
  inb_S160x49x256_S1x49x256_25_0_0 : ∀ a, (![25, 0, 0] : Fin 3 → Nat) a + S1x49x256.size a ≤ S160x49x256.size a
  slices_S160x49x512_o26_0_0_S1x49x512 : S160x49x512.Slices ![26, 0, 0] S1x49x512
  inb_S160x49x256_S1x49x256_26_0_0 : ∀ a, (![26, 0, 0] : Fin 3 → Nat) a + S1x49x256.size a ≤ S160x49x256.size a
  slices_S160x49x512_o27_0_0_S1x49x512 : S160x49x512.Slices ![27, 0, 0] S1x49x512
  inb_S160x49x256_S1x49x256_27_0_0 : ∀ a, (![27, 0, 0] : Fin 3 → Nat) a + S1x49x256.size a ≤ S160x49x256.size a
  slices_S160x49x512_o28_0_0_S1x49x512 : S160x49x512.Slices ![28, 0, 0] S1x49x512
  inb_S160x49x256_S1x49x256_28_0_0 : ∀ a, (![28, 0, 0] : Fin 3 → Nat) a + S1x49x256.size a ≤ S160x49x256.size a
  slices_S160x49x512_o29_0_0_S1x49x512 : S160x49x512.Slices ![29, 0, 0] S1x49x512
  inb_S160x49x256_S1x49x256_29_0_0 : ∀ a, (![29, 0, 0] : Fin 3 → Nat) a + S1x49x256.size a ≤ S160x49x256.size a
  slices_S160x49x512_o30_0_0_S1x49x512 : S160x49x512.Slices ![30, 0, 0] S1x49x512
  inb_S160x49x256_S1x49x256_30_0_0 : ∀ a, (![30, 0, 0] : Fin 3 → Nat) a + S1x49x256.size a ≤ S160x49x256.size a
  slices_S160x49x512_o31_0_0_S1x49x512 : S160x49x512.Slices ![31, 0, 0] S1x49x512
  inb_S160x49x256_S1x49x256_31_0_0 : ∀ a, (![31, 0, 0] : Fin 3 → Nat) a + S1x49x256.size a ≤ S160x49x256.size a
  slices_S160x49x512_o32_0_0_S1x49x512 : S160x49x512.Slices ![32, 0, 0] S1x49x512
  inb_S160x49x256_S1x49x256_32_0_0 : ∀ a, (![32, 0, 0] : Fin 3 → Nat) a + S1x49x256.size a ≤ S160x49x256.size a
  slices_S160x49x512_o33_0_0_S1x49x512 : S160x49x512.Slices ![33, 0, 0] S1x49x512
  inb_S160x49x256_S1x49x256_33_0_0 : ∀ a, (![33, 0, 0] : Fin 3 → Nat) a + S1x49x256.size a ≤ S160x49x256.size a
  slices_S160x49x512_o34_0_0_S1x49x512 : S160x49x512.Slices ![34, 0, 0] S1x49x512
  inb_S160x49x256_S1x49x256_34_0_0 : ∀ a, (![34, 0, 0] : Fin 3 → Nat) a + S1x49x256.size a ≤ S160x49x256.size a
  slices_S160x49x512_o35_0_0_S1x49x512 : S160x49x512.Slices ![35, 0, 0] S1x49x512
  inb_S160x49x256_S1x49x256_35_0_0 : ∀ a, (![35, 0, 0] : Fin 3 → Nat) a + S1x49x256.size a ≤ S160x49x256.size a
  slices_S160x49x512_o36_0_0_S1x49x512 : S160x49x512.Slices ![36, 0, 0] S1x49x512
  inb_S160x49x256_S1x49x256_36_0_0 : ∀ a, (![36, 0, 0] : Fin 3 → Nat) a + S1x49x256.size a ≤ S160x49x256.size a
  slices_S160x49x512_o37_0_0_S1x49x512 : S160x49x512.Slices ![37, 0, 0] S1x49x512
  inb_S160x49x256_S1x49x256_37_0_0 : ∀ a, (![37, 0, 0] : Fin 3 → Nat) a + S1x49x256.size a ≤ S160x49x256.size a
  slices_S160x49x512_o38_0_0_S1x49x512 : S160x49x512.Slices ![38, 0, 0] S1x49x512
  inb_S160x49x256_S1x49x256_38_0_0 : ∀ a, (![38, 0, 0] : Fin 3 → Nat) a + S1x49x256.size a ≤ S160x49x256.size a
  slices_S160x49x512_o39_0_0_S1x49x512 : S160x49x512.Slices ![39, 0, 0] S1x49x512
  inb_S160x49x256_S1x49x256_39_0_0 : ∀ a, (![39, 0, 0] : Fin 3 → Nat) a + S1x49x256.size a ≤ S160x49x256.size a
  slices_S160x49x512_o40_0_0_S1x49x512 : S160x49x512.Slices ![40, 0, 0] S1x49x512
  inb_S160x49x256_S1x49x256_40_0_0 : ∀ a, (![40, 0, 0] : Fin 3 → Nat) a + S1x49x256.size a ≤ S160x49x256.size a
  slices_S160x49x512_o41_0_0_S1x49x512 : S160x49x512.Slices ![41, 0, 0] S1x49x512
  inb_S160x49x256_S1x49x256_41_0_0 : ∀ a, (![41, 0, 0] : Fin 3 → Nat) a + S1x49x256.size a ≤ S160x49x256.size a
  slices_S160x49x512_o42_0_0_S1x49x512 : S160x49x512.Slices ![42, 0, 0] S1x49x512
  inb_S160x49x256_S1x49x256_42_0_0 : ∀ a, (![42, 0, 0] : Fin 3 → Nat) a + S1x49x256.size a ≤ S160x49x256.size a
  slices_S160x49x512_o43_0_0_S1x49x512 : S160x49x512.Slices ![43, 0, 0] S1x49x512
  inb_S160x49x256_S1x49x256_43_0_0 : ∀ a, (![43, 0, 0] : Fin 3 → Nat) a + S1x49x256.size a ≤ S160x49x256.size a
  slices_S160x49x512_o44_0_0_S1x49x512 : S160x49x512.Slices ![44, 0, 0] S1x49x512
  inb_S160x49x256_S1x49x256_44_0_0 : ∀ a, (![44, 0, 0] : Fin 3 → Nat) a + S1x49x256.size a ≤ S160x49x256.size a
  slices_S160x49x512_o45_0_0_S1x49x512 : S160x49x512.Slices ![45, 0, 0] S1x49x512
  inb_S160x49x256_S1x49x256_45_0_0 : ∀ a, (![45, 0, 0] : Fin 3 → Nat) a + S1x49x256.size a ≤ S160x49x256.size a
  slices_S160x49x512_o46_0_0_S1x49x512 : S160x49x512.Slices ![46, 0, 0] S1x49x512
  inb_S160x49x256_S1x49x256_46_0_0 : ∀ a, (![46, 0, 0] : Fin 3 → Nat) a + S1x49x256.size a ≤ S160x49x256.size a
  slices_S160x49x512_o47_0_0_S1x49x512 : S160x49x512.Slices ![47, 0, 0] S1x49x512
  inb_S160x49x256_S1x49x256_47_0_0 : ∀ a, (![47, 0, 0] : Fin 3 → Nat) a + S1x49x256.size a ≤ S160x49x256.size a
  slices_S160x49x512_o48_0_0_S1x49x512 : S160x49x512.Slices ![48, 0, 0] S1x49x512
  inb_S160x49x256_S1x49x256_48_0_0 : ∀ a, (![48, 0, 0] : Fin 3 → Nat) a + S1x49x256.size a ≤ S160x49x256.size a
  slices_S160x49x512_o49_0_0_S1x49x512 : S160x49x512.Slices ![49, 0, 0] S1x49x512
  inb_S160x49x256_S1x49x256_49_0_0 : ∀ a, (![49, 0, 0] : Fin 3 → Nat) a + S1x49x256.size a ≤ S160x49x256.size a
  slices_S160x49x512_o50_0_0_S1x49x512 : S160x49x512.Slices ![50, 0, 0] S1x49x512
  inb_S160x49x256_S1x49x256_50_0_0 : ∀ a, (![50, 0, 0] : Fin 3 → Nat) a + S1x49x256.size a ≤ S160x49x256.size a
  slices_S160x49x512_o51_0_0_S1x49x512 : S160x49x512.Slices ![51, 0, 0] S1x49x512
  inb_S160x49x256_S1x49x256_51_0_0 : ∀ a, (![51, 0, 0] : Fin 3 → Nat) a + S1x49x256.size a ≤ S160x49x256.size a
  slices_S160x49x512_o52_0_0_S1x49x512 : S160x49x512.Slices ![52, 0, 0] S1x49x512
  inb_S160x49x256_S1x49x256_52_0_0 : ∀ a, (![52, 0, 0] : Fin 3 → Nat) a + S1x49x256.size a ≤ S160x49x256.size a
  slices_S160x49x512_o53_0_0_S1x49x512 : S160x49x512.Slices ![53, 0, 0] S1x49x512
  inb_S160x49x256_S1x49x256_53_0_0 : ∀ a, (![53, 0, 0] : Fin 3 → Nat) a + S1x49x256.size a ≤ S160x49x256.size a
  slices_S160x49x512_o54_0_0_S1x49x512 : S160x49x512.Slices ![54, 0, 0] S1x49x512
  inb_S160x49x256_S1x49x256_54_0_0 : ∀ a, (![54, 0, 0] : Fin 3 → Nat) a + S1x49x256.size a ≤ S160x49x256.size a
  slices_S160x49x512_o55_0_0_S1x49x512 : S160x49x512.Slices ![55, 0, 0] S1x49x512
  inb_S160x49x256_S1x49x256_55_0_0 : ∀ a, (![55, 0, 0] : Fin 3 → Nat) a + S1x49x256.size a ≤ S160x49x256.size a
  slices_S160x49x512_o56_0_0_S1x49x512 : S160x49x512.Slices ![56, 0, 0] S1x49x512
  inb_S160x49x256_S1x49x256_56_0_0 : ∀ a, (![56, 0, 0] : Fin 3 → Nat) a + S1x49x256.size a ≤ S160x49x256.size a
  slices_S160x49x512_o57_0_0_S1x49x512 : S160x49x512.Slices ![57, 0, 0] S1x49x512
  inb_S160x49x256_S1x49x256_57_0_0 : ∀ a, (![57, 0, 0] : Fin 3 → Nat) a + S1x49x256.size a ≤ S160x49x256.size a
  slices_S160x49x512_o58_0_0_S1x49x512 : S160x49x512.Slices ![58, 0, 0] S1x49x512
  inb_S160x49x256_S1x49x256_58_0_0 : ∀ a, (![58, 0, 0] : Fin 3 → Nat) a + S1x49x256.size a ≤ S160x49x256.size a
  slices_S160x49x512_o59_0_0_S1x49x512 : S160x49x512.Slices ![59, 0, 0] S1x49x512
  inb_S160x49x256_S1x49x256_59_0_0 : ∀ a, (![59, 0, 0] : Fin 3 → Nat) a + S1x49x256.size a ≤ S160x49x256.size a
  slices_S160x49x512_o60_0_0_S1x49x512 : S160x49x512.Slices ![60, 0, 0] S1x49x512
  inb_S160x49x256_S1x49x256_60_0_0 : ∀ a, (![60, 0, 0] : Fin 3 → Nat) a + S1x49x256.size a ≤ S160x49x256.size a
  slices_S160x49x512_o61_0_0_S1x49x512 : S160x49x512.Slices ![61, 0, 0] S1x49x512
  inb_S160x49x256_S1x49x256_61_0_0 : ∀ a, (![61, 0, 0] : Fin 3 → Nat) a + S1x49x256.size a ≤ S160x49x256.size a
  slices_S160x49x512_o62_0_0_S1x49x512 : S160x49x512.Slices ![62, 0, 0] S1x49x512
  inb_S160x49x256_S1x49x256_62_0_0 : ∀ a, (![62, 0, 0] : Fin 3 → Nat) a + S1x49x256.size a ≤ S160x49x256.size a
  slices_S160x49x512_o63_0_0_S1x49x512 : S160x49x512.Slices ![63, 0, 0] S1x49x512
  inb_S160x49x256_S1x49x256_63_0_0 : ∀ a, (![63, 0, 0] : Fin 3 → Nat) a + S1x49x256.size a ≤ S160x49x256.size a
  slices_S160x49x512_o64_0_0_S1x49x512 : S160x49x512.Slices ![64, 0, 0] S1x49x512
  inb_S160x49x256_S1x49x256_64_0_0 : ∀ a, (![64, 0, 0] : Fin 3 → Nat) a + S1x49x256.size a ≤ S160x49x256.size a
  slices_S160x49x512_o65_0_0_S1x49x512 : S160x49x512.Slices ![65, 0, 0] S1x49x512
  inb_S160x49x256_S1x49x256_65_0_0 : ∀ a, (![65, 0, 0] : Fin 3 → Nat) a + S1x49x256.size a ≤ S160x49x256.size a
  slices_S160x49x512_o66_0_0_S1x49x512 : S160x49x512.Slices ![66, 0, 0] S1x49x512
  inb_S160x49x256_S1x49x256_66_0_0 : ∀ a, (![66, 0, 0] : Fin 3 → Nat) a + S1x49x256.size a ≤ S160x49x256.size a
  slices_S160x49x512_o67_0_0_S1x49x512 : S160x49x512.Slices ![67, 0, 0] S1x49x512
  inb_S160x49x256_S1x49x256_67_0_0 : ∀ a, (![67, 0, 0] : Fin 3 → Nat) a + S1x49x256.size a ≤ S160x49x256.size a
  slices_S160x49x512_o68_0_0_S1x49x512 : S160x49x512.Slices ![68, 0, 0] S1x49x512
  inb_S160x49x256_S1x49x256_68_0_0 : ∀ a, (![68, 0, 0] : Fin 3 → Nat) a + S1x49x256.size a ≤ S160x49x256.size a
  slices_S160x49x512_o69_0_0_S1x49x512 : S160x49x512.Slices ![69, 0, 0] S1x49x512
  inb_S160x49x256_S1x49x256_69_0_0 : ∀ a, (![69, 0, 0] : Fin 3 → Nat) a + S1x49x256.size a ≤ S160x49x256.size a
  slices_S160x49x512_o70_0_0_S1x49x512 : S160x49x512.Slices ![70, 0, 0] S1x49x512
  inb_S160x49x256_S1x49x256_70_0_0 : ∀ a, (![70, 0, 0] : Fin 3 → Nat) a + S1x49x256.size a ≤ S160x49x256.size a
  slices_S160x49x512_o71_0_0_S1x49x512 : S160x49x512.Slices ![71, 0, 0] S1x49x512
  inb_S160x49x256_S1x49x256_71_0_0 : ∀ a, (![71, 0, 0] : Fin 3 → Nat) a + S1x49x256.size a ≤ S160x49x256.size a
  slices_S160x49x512_o72_0_0_S1x49x512 : S160x49x512.Slices ![72, 0, 0] S1x49x512
  inb_S160x49x256_S1x49x256_72_0_0 : ∀ a, (![72, 0, 0] : Fin 3 → Nat) a + S1x49x256.size a ≤ S160x49x256.size a
  slices_S160x49x512_o73_0_0_S1x49x512 : S160x49x512.Slices ![73, 0, 0] S1x49x512
  inb_S160x49x256_S1x49x256_73_0_0 : ∀ a, (![73, 0, 0] : Fin 3 → Nat) a + S1x49x256.size a ≤ S160x49x256.size a
  slices_S160x49x512_o74_0_0_S1x49x512 : S160x49x512.Slices ![74, 0, 0] S1x49x512
  inb_S160x49x256_S1x49x256_74_0_0 : ∀ a, (![74, 0, 0] : Fin 3 → Nat) a + S1x49x256.size a ≤ S160x49x256.size a
  slices_S160x49x512_o75_0_0_S1x49x512 : S160x49x512.Slices ![75, 0, 0] S1x49x512
  inb_S160x49x256_S1x49x256_75_0_0 : ∀ a, (![75, 0, 0] : Fin 3 → Nat) a + S1x49x256.size a ≤ S160x49x256.size a
  slices_S160x49x512_o76_0_0_S1x49x512 : S160x49x512.Slices ![76, 0, 0] S1x49x512
  inb_S160x49x256_S1x49x256_76_0_0 : ∀ a, (![76, 0, 0] : Fin 3 → Nat) a + S1x49x256.size a ≤ S160x49x256.size a
  slices_S160x49x512_o77_0_0_S1x49x512 : S160x49x512.Slices ![77, 0, 0] S1x49x512
  inb_S160x49x256_S1x49x256_77_0_0 : ∀ a, (![77, 0, 0] : Fin 3 → Nat) a + S1x49x256.size a ≤ S160x49x256.size a
  slices_S160x49x512_o78_0_0_S1x49x512 : S160x49x512.Slices ![78, 0, 0] S1x49x512
  inb_S160x49x256_S1x49x256_78_0_0 : ∀ a, (![78, 0, 0] : Fin 3 → Nat) a + S1x49x256.size a ≤ S160x49x256.size a
  slices_S160x49x512_o79_0_0_S1x49x512 : S160x49x512.Slices ![79, 0, 0] S1x49x512
  inb_S160x49x256_S1x49x256_79_0_0 : ∀ a, (![79, 0, 0] : Fin 3 → Nat) a + S1x49x256.size a ≤ S160x49x256.size a
  slices_S160x49x512_o80_0_0_S1x49x512 : S160x49x512.Slices ![80, 0, 0] S1x49x512
  inb_S160x49x256_S1x49x256_80_0_0 : ∀ a, (![80, 0, 0] : Fin 3 → Nat) a + S1x49x256.size a ≤ S160x49x256.size a
  slices_S160x49x512_o81_0_0_S1x49x512 : S160x49x512.Slices ![81, 0, 0] S1x49x512
  inb_S160x49x256_S1x49x256_81_0_0 : ∀ a, (![81, 0, 0] : Fin 3 → Nat) a + S1x49x256.size a ≤ S160x49x256.size a
  slices_S160x49x512_o82_0_0_S1x49x512 : S160x49x512.Slices ![82, 0, 0] S1x49x512
  inb_S160x49x256_S1x49x256_82_0_0 : ∀ a, (![82, 0, 0] : Fin 3 → Nat) a + S1x49x256.size a ≤ S160x49x256.size a
  slices_S160x49x512_o83_0_0_S1x49x512 : S160x49x512.Slices ![83, 0, 0] S1x49x512
  inb_S160x49x256_S1x49x256_83_0_0 : ∀ a, (![83, 0, 0] : Fin 3 → Nat) a + S1x49x256.size a ≤ S160x49x256.size a
  slices_S160x49x512_o84_0_0_S1x49x512 : S160x49x512.Slices ![84, 0, 0] S1x49x512
  inb_S160x49x256_S1x49x256_84_0_0 : ∀ a, (![84, 0, 0] : Fin 3 → Nat) a + S1x49x256.size a ≤ S160x49x256.size a
  slices_S160x49x512_o85_0_0_S1x49x512 : S160x49x512.Slices ![85, 0, 0] S1x49x512
  inb_S160x49x256_S1x49x256_85_0_0 : ∀ a, (![85, 0, 0] : Fin 3 → Nat) a + S1x49x256.size a ≤ S160x49x256.size a
  slices_S160x49x512_o86_0_0_S1x49x512 : S160x49x512.Slices ![86, 0, 0] S1x49x512
  inb_S160x49x256_S1x49x256_86_0_0 : ∀ a, (![86, 0, 0] : Fin 3 → Nat) a + S1x49x256.size a ≤ S160x49x256.size a
  slices_S160x49x512_o87_0_0_S1x49x512 : S160x49x512.Slices ![87, 0, 0] S1x49x512
  inb_S160x49x256_S1x49x256_87_0_0 : ∀ a, (![87, 0, 0] : Fin 3 → Nat) a + S1x49x256.size a ≤ S160x49x256.size a
  slices_S160x49x512_o88_0_0_S1x49x512 : S160x49x512.Slices ![88, 0, 0] S1x49x512
  inb_S160x49x256_S1x49x256_88_0_0 : ∀ a, (![88, 0, 0] : Fin 3 → Nat) a + S1x49x256.size a ≤ S160x49x256.size a
  slices_S160x49x512_o89_0_0_S1x49x512 : S160x49x512.Slices ![89, 0, 0] S1x49x512
  inb_S160x49x256_S1x49x256_89_0_0 : ∀ a, (![89, 0, 0] : Fin 3 → Nat) a + S1x49x256.size a ≤ S160x49x256.size a
  slices_S160x49x512_o90_0_0_S1x49x512 : S160x49x512.Slices ![90, 0, 0] S1x49x512
  inb_S160x49x256_S1x49x256_90_0_0 : ∀ a, (![90, 0, 0] : Fin 3 → Nat) a + S1x49x256.size a ≤ S160x49x256.size a
  slices_S160x49x512_o91_0_0_S1x49x512 : S160x49x512.Slices ![91, 0, 0] S1x49x512
  inb_S160x49x256_S1x49x256_91_0_0 : ∀ a, (![91, 0, 0] : Fin 3 → Nat) a + S1x49x256.size a ≤ S160x49x256.size a
  slices_S160x49x512_o92_0_0_S1x49x512 : S160x49x512.Slices ![92, 0, 0] S1x49x512
  inb_S160x49x256_S1x49x256_92_0_0 : ∀ a, (![92, 0, 0] : Fin 3 → Nat) a + S1x49x256.size a ≤ S160x49x256.size a
  slices_S160x49x512_o93_0_0_S1x49x512 : S160x49x512.Slices ![93, 0, 0] S1x49x512
  inb_S160x49x256_S1x49x256_93_0_0 : ∀ a, (![93, 0, 0] : Fin 3 → Nat) a + S1x49x256.size a ≤ S160x49x256.size a
  slices_S160x49x512_o94_0_0_S1x49x512 : S160x49x512.Slices ![94, 0, 0] S1x49x512
  inb_S160x49x256_S1x49x256_94_0_0 : ∀ a, (![94, 0, 0] : Fin 3 → Nat) a + S1x49x256.size a ≤ S160x49x256.size a
  slices_S160x49x512_o95_0_0_S1x49x512 : S160x49x512.Slices ![95, 0, 0] S1x49x512
  inb_S160x49x256_S1x49x256_95_0_0 : ∀ a, (![95, 0, 0] : Fin 3 → Nat) a + S1x49x256.size a ≤ S160x49x256.size a
  slices_S160x49x512_o96_0_0_S1x49x512 : S160x49x512.Slices ![96, 0, 0] S1x49x512
  inb_S160x49x256_S1x49x256_96_0_0 : ∀ a, (![96, 0, 0] : Fin 3 → Nat) a + S1x49x256.size a ≤ S160x49x256.size a
  slices_S160x49x512_o97_0_0_S1x49x512 : S160x49x512.Slices ![97, 0, 0] S1x49x512
  inb_S160x49x256_S1x49x256_97_0_0 : ∀ a, (![97, 0, 0] : Fin 3 → Nat) a + S1x49x256.size a ≤ S160x49x256.size a
  slices_S160x49x512_o98_0_0_S1x49x512 : S160x49x512.Slices ![98, 0, 0] S1x49x512
  inb_S160x49x256_S1x49x256_98_0_0 : ∀ a, (![98, 0, 0] : Fin 3 → Nat) a + S1x49x256.size a ≤ S160x49x256.size a
  slices_S160x49x512_o99_0_0_S1x49x512 : S160x49x512.Slices ![99, 0, 0] S1x49x512
  inb_S160x49x256_S1x49x256_99_0_0 : ∀ a, (![99, 0, 0] : Fin 3 → Nat) a + S1x49x256.size a ≤ S160x49x256.size a
  slices_S160x49x512_o100_0_0_S1x49x512 : S160x49x512.Slices ![100, 0, 0] S1x49x512
  inb_S160x49x256_S1x49x256_100_0_0 : ∀ a, (![100, 0, 0] : Fin 3 → Nat) a + S1x49x256.size a ≤ S160x49x256.size a
  slices_S160x49x512_o101_0_0_S1x49x512 : S160x49x512.Slices ![101, 0, 0] S1x49x512
  inb_S160x49x256_S1x49x256_101_0_0 : ∀ a, (![101, 0, 0] : Fin 3 → Nat) a + S1x49x256.size a ≤ S160x49x256.size a
  slices_S160x49x512_o102_0_0_S1x49x512 : S160x49x512.Slices ![102, 0, 0] S1x49x512
  inb_S160x49x256_S1x49x256_102_0_0 : ∀ a, (![102, 0, 0] : Fin 3 → Nat) a + S1x49x256.size a ≤ S160x49x256.size a
  slices_S160x49x512_o103_0_0_S1x49x512 : S160x49x512.Slices ![103, 0, 0] S1x49x512
  inb_S160x49x256_S1x49x256_103_0_0 : ∀ a, (![103, 0, 0] : Fin 3 → Nat) a + S1x49x256.size a ≤ S160x49x256.size a
  slices_S160x49x512_o104_0_0_S1x49x512 : S160x49x512.Slices ![104, 0, 0] S1x49x512
  inb_S160x49x256_S1x49x256_104_0_0 : ∀ a, (![104, 0, 0] : Fin 3 → Nat) a + S1x49x256.size a ≤ S160x49x256.size a
  slices_S160x49x512_o105_0_0_S1x49x512 : S160x49x512.Slices ![105, 0, 0] S1x49x512
  inb_S160x49x256_S1x49x256_105_0_0 : ∀ a, (![105, 0, 0] : Fin 3 → Nat) a + S1x49x256.size a ≤ S160x49x256.size a
  slices_S160x49x512_o106_0_0_S1x49x512 : S160x49x512.Slices ![106, 0, 0] S1x49x512
  inb_S160x49x256_S1x49x256_106_0_0 : ∀ a, (![106, 0, 0] : Fin 3 → Nat) a + S1x49x256.size a ≤ S160x49x256.size a
  slices_S160x49x512_o107_0_0_S1x49x512 : S160x49x512.Slices ![107, 0, 0] S1x49x512
  inb_S160x49x256_S1x49x256_107_0_0 : ∀ a, (![107, 0, 0] : Fin 3 → Nat) a + S1x49x256.size a ≤ S160x49x256.size a
  slices_S160x49x512_o108_0_0_S1x49x512 : S160x49x512.Slices ![108, 0, 0] S1x49x512
  inb_S160x49x256_S1x49x256_108_0_0 : ∀ a, (![108, 0, 0] : Fin 3 → Nat) a + S1x49x256.size a ≤ S160x49x256.size a
  slices_S160x49x512_o109_0_0_S1x49x512 : S160x49x512.Slices ![109, 0, 0] S1x49x512
  inb_S160x49x256_S1x49x256_109_0_0 : ∀ a, (![109, 0, 0] : Fin 3 → Nat) a + S1x49x256.size a ≤ S160x49x256.size a
  slices_S160x49x512_o110_0_0_S1x49x512 : S160x49x512.Slices ![110, 0, 0] S1x49x512
  inb_S160x49x256_S1x49x256_110_0_0 : ∀ a, (![110, 0, 0] : Fin 3 → Nat) a + S1x49x256.size a ≤ S160x49x256.size a
  slices_S160x49x512_o111_0_0_S1x49x512 : S160x49x512.Slices ![111, 0, 0] S1x49x512
  inb_S160x49x256_S1x49x256_111_0_0 : ∀ a, (![111, 0, 0] : Fin 3 → Nat) a + S1x49x256.size a ≤ S160x49x256.size a
  slices_S160x49x512_o112_0_0_S1x49x512 : S160x49x512.Slices ![112, 0, 0] S1x49x512
  inb_S160x49x256_S1x49x256_112_0_0 : ∀ a, (![112, 0, 0] : Fin 3 → Nat) a + S1x49x256.size a ≤ S160x49x256.size a
  slices_S160x49x512_o113_0_0_S1x49x512 : S160x49x512.Slices ![113, 0, 0] S1x49x512
  inb_S160x49x256_S1x49x256_113_0_0 : ∀ a, (![113, 0, 0] : Fin 3 → Nat) a + S1x49x256.size a ≤ S160x49x256.size a
  slices_S160x49x512_o114_0_0_S1x49x512 : S160x49x512.Slices ![114, 0, 0] S1x49x512
  inb_S160x49x256_S1x49x256_114_0_0 : ∀ a, (![114, 0, 0] : Fin 3 → Nat) a + S1x49x256.size a ≤ S160x49x256.size a
  slices_S160x49x512_o115_0_0_S1x49x512 : S160x49x512.Slices ![115, 0, 0] S1x49x512
  inb_S160x49x256_S1x49x256_115_0_0 : ∀ a, (![115, 0, 0] : Fin 3 → Nat) a + S1x49x256.size a ≤ S160x49x256.size a
  slices_S160x49x512_o116_0_0_S1x49x512 : S160x49x512.Slices ![116, 0, 0] S1x49x512
  inb_S160x49x256_S1x49x256_116_0_0 : ∀ a, (![116, 0, 0] : Fin 3 → Nat) a + S1x49x256.size a ≤ S160x49x256.size a
  slices_S160x49x512_o117_0_0_S1x49x512 : S160x49x512.Slices ![117, 0, 0] S1x49x512
  inb_S160x49x256_S1x49x256_117_0_0 : ∀ a, (![117, 0, 0] : Fin 3 → Nat) a + S1x49x256.size a ≤ S160x49x256.size a
  slices_S160x49x512_o118_0_0_S1x49x512 : S160x49x512.Slices ![118, 0, 0] S1x49x512
  inb_S160x49x256_S1x49x256_118_0_0 : ∀ a, (![118, 0, 0] : Fin 3 → Nat) a + S1x49x256.size a ≤ S160x49x256.size a
  slices_S160x49x512_o119_0_0_S1x49x512 : S160x49x512.Slices ![119, 0, 0] S1x49x512
  inb_S160x49x256_S1x49x256_119_0_0 : ∀ a, (![119, 0, 0] : Fin 3 → Nat) a + S1x49x256.size a ≤ S160x49x256.size a
  slices_S160x49x512_o120_0_0_S1x49x512 : S160x49x512.Slices ![120, 0, 0] S1x49x512
  inb_S160x49x256_S1x49x256_120_0_0 : ∀ a, (![120, 0, 0] : Fin 3 → Nat) a + S1x49x256.size a ≤ S160x49x256.size a
  slices_S160x49x512_o121_0_0_S1x49x512 : S160x49x512.Slices ![121, 0, 0] S1x49x512
  inb_S160x49x256_S1x49x256_121_0_0 : ∀ a, (![121, 0, 0] : Fin 3 → Nat) a + S1x49x256.size a ≤ S160x49x256.size a
  slices_S160x49x512_o122_0_0_S1x49x512 : S160x49x512.Slices ![122, 0, 0] S1x49x512
  inb_S160x49x256_S1x49x256_122_0_0 : ∀ a, (![122, 0, 0] : Fin 3 → Nat) a + S1x49x256.size a ≤ S160x49x256.size a
  slices_S160x49x512_o123_0_0_S1x49x512 : S160x49x512.Slices ![123, 0, 0] S1x49x512
  inb_S160x49x256_S1x49x256_123_0_0 : ∀ a, (![123, 0, 0] : Fin 3 → Nat) a + S1x49x256.size a ≤ S160x49x256.size a
  slices_S160x49x512_o124_0_0_S1x49x512 : S160x49x512.Slices ![124, 0, 0] S1x49x512
  inb_S160x49x256_S1x49x256_124_0_0 : ∀ a, (![124, 0, 0] : Fin 3 → Nat) a + S1x49x256.size a ≤ S160x49x256.size a
  slices_S160x49x512_o125_0_0_S1x49x512 : S160x49x512.Slices ![125, 0, 0] S1x49x512
  inb_S160x49x256_S1x49x256_125_0_0 : ∀ a, (![125, 0, 0] : Fin 3 → Nat) a + S1x49x256.size a ≤ S160x49x256.size a
  slices_S160x49x512_o126_0_0_S1x49x512 : S160x49x512.Slices ![126, 0, 0] S1x49x512
  inb_S160x49x256_S1x49x256_126_0_0 : ∀ a, (![126, 0, 0] : Fin 3 → Nat) a + S1x49x256.size a ≤ S160x49x256.size a
  slices_S160x49x512_o127_0_0_S1x49x512 : S160x49x512.Slices ![127, 0, 0] S1x49x512
  inb_S160x49x256_S1x49x256_127_0_0 : ∀ a, (![127, 0, 0] : Fin 3 → Nat) a + S1x49x256.size a ≤ S160x49x256.size a
  slices_S160x49x512_o128_0_0_S1x49x512 : S160x49x512.Slices ![128, 0, 0] S1x49x512
  inb_S160x49x256_S1x49x256_128_0_0 : ∀ a, (![128, 0, 0] : Fin 3 → Nat) a + S1x49x256.size a ≤ S160x49x256.size a
  slices_S160x49x512_o129_0_0_S1x49x512 : S160x49x512.Slices ![129, 0, 0] S1x49x512
  inb_S160x49x256_S1x49x256_129_0_0 : ∀ a, (![129, 0, 0] : Fin 3 → Nat) a + S1x49x256.size a ≤ S160x49x256.size a
  slices_S160x49x512_o130_0_0_S1x49x512 : S160x49x512.Slices ![130, 0, 0] S1x49x512
  inb_S160x49x256_S1x49x256_130_0_0 : ∀ a, (![130, 0, 0] : Fin 3 → Nat) a + S1x49x256.size a ≤ S160x49x256.size a
  slices_S160x49x512_o131_0_0_S1x49x512 : S160x49x512.Slices ![131, 0, 0] S1x49x512
  inb_S160x49x256_S1x49x256_131_0_0 : ∀ a, (![131, 0, 0] : Fin 3 → Nat) a + S1x49x256.size a ≤ S160x49x256.size a
  slices_S160x49x512_o132_0_0_S1x49x512 : S160x49x512.Slices ![132, 0, 0] S1x49x512
  inb_S160x49x256_S1x49x256_132_0_0 : ∀ a, (![132, 0, 0] : Fin 3 → Nat) a + S1x49x256.size a ≤ S160x49x256.size a
  slices_S160x49x512_o133_0_0_S1x49x512 : S160x49x512.Slices ![133, 0, 0] S1x49x512
  inb_S160x49x256_S1x49x256_133_0_0 : ∀ a, (![133, 0, 0] : Fin 3 → Nat) a + S1x49x256.size a ≤ S160x49x256.size a
  slices_S160x49x512_o134_0_0_S1x49x512 : S160x49x512.Slices ![134, 0, 0] S1x49x512
  inb_S160x49x256_S1x49x256_134_0_0 : ∀ a, (![134, 0, 0] : Fin 3 → Nat) a + S1x49x256.size a ≤ S160x49x256.size a
  slices_S160x49x512_o135_0_0_S1x49x512 : S160x49x512.Slices ![135, 0, 0] S1x49x512
  inb_S160x49x256_S1x49x256_135_0_0 : ∀ a, (![135, 0, 0] : Fin 3 → Nat) a + S1x49x256.size a ≤ S160x49x256.size a
  slices_S160x49x512_o136_0_0_S1x49x512 : S160x49x512.Slices ![136, 0, 0] S1x49x512
  inb_S160x49x256_S1x49x256_136_0_0 : ∀ a, (![136, 0, 0] : Fin 3 → Nat) a + S1x49x256.size a ≤ S160x49x256.size a
  slices_S160x49x512_o137_0_0_S1x49x512 : S160x49x512.Slices ![137, 0, 0] S1x49x512
  inb_S160x49x256_S1x49x256_137_0_0 : ∀ a, (![137, 0, 0] : Fin 3 → Nat) a + S1x49x256.size a ≤ S160x49x256.size a
  slices_S160x49x512_o138_0_0_S1x49x512 : S160x49x512.Slices ![138, 0, 0] S1x49x512
  inb_S160x49x256_S1x49x256_138_0_0 : ∀ a, (![138, 0, 0] : Fin 3 → Nat) a + S1x49x256.size a ≤ S160x49x256.size a
  slices_S160x49x512_o139_0_0_S1x49x512 : S160x49x512.Slices ![139, 0, 0] S1x49x512
  inb_S160x49x256_S1x49x256_139_0_0 : ∀ a, (![139, 0, 0] : Fin 3 → Nat) a + S1x49x256.size a ≤ S160x49x256.size a
  slices_S160x49x512_o140_0_0_S1x49x512 : S160x49x512.Slices ![140, 0, 0] S1x49x512
  inb_S160x49x256_S1x49x256_140_0_0 : ∀ a, (![140, 0, 0] : Fin 3 → Nat) a + S1x49x256.size a ≤ S160x49x256.size a
  slices_S160x49x512_o141_0_0_S1x49x512 : S160x49x512.Slices ![141, 0, 0] S1x49x512
  inb_S160x49x256_S1x49x256_141_0_0 : ∀ a, (![141, 0, 0] : Fin 3 → Nat) a + S1x49x256.size a ≤ S160x49x256.size a
  slices_S160x49x512_o142_0_0_S1x49x512 : S160x49x512.Slices ![142, 0, 0] S1x49x512
  inb_S160x49x256_S1x49x256_142_0_0 : ∀ a, (![142, 0, 0] : Fin 3 → Nat) a + S1x49x256.size a ≤ S160x49x256.size a
  slices_S160x49x512_o143_0_0_S1x49x512 : S160x49x512.Slices ![143, 0, 0] S1x49x512
  inb_S160x49x256_S1x49x256_143_0_0 : ∀ a, (![143, 0, 0] : Fin 3 → Nat) a + S1x49x256.size a ≤ S160x49x256.size a
  slices_S160x49x512_o144_0_0_S1x49x512 : S160x49x512.Slices ![144, 0, 0] S1x49x512
  inb_S160x49x256_S1x49x256_144_0_0 : ∀ a, (![144, 0, 0] : Fin 3 → Nat) a + S1x49x256.size a ≤ S160x49x256.size a
  slices_S160x49x512_o145_0_0_S1x49x512 : S160x49x512.Slices ![145, 0, 0] S1x49x512
  inb_S160x49x256_S1x49x256_145_0_0 : ∀ a, (![145, 0, 0] : Fin 3 → Nat) a + S1x49x256.size a ≤ S160x49x256.size a
  slices_S160x49x512_o146_0_0_S1x49x512 : S160x49x512.Slices ![146, 0, 0] S1x49x512
  inb_S160x49x256_S1x49x256_146_0_0 : ∀ a, (![146, 0, 0] : Fin 3 → Nat) a + S1x49x256.size a ≤ S160x49x256.size a
  slices_S160x49x512_o147_0_0_S1x49x512 : S160x49x512.Slices ![147, 0, 0] S1x49x512
  inb_S160x49x256_S1x49x256_147_0_0 : ∀ a, (![147, 0, 0] : Fin 3 → Nat) a + S1x49x256.size a ≤ S160x49x256.size a
  slices_S160x49x512_o148_0_0_S1x49x512 : S160x49x512.Slices ![148, 0, 0] S1x49x512
  inb_S160x49x256_S1x49x256_148_0_0 : ∀ a, (![148, 0, 0] : Fin 3 → Nat) a + S1x49x256.size a ≤ S160x49x256.size a
  slices_S160x49x512_o149_0_0_S1x49x512 : S160x49x512.Slices ![149, 0, 0] S1x49x512
  inb_S160x49x256_S1x49x256_149_0_0 : ∀ a, (![149, 0, 0] : Fin 3 → Nat) a + S1x49x256.size a ≤ S160x49x256.size a
  slices_S160x49x512_o150_0_0_S1x49x512 : S160x49x512.Slices ![150, 0, 0] S1x49x512
  inb_S160x49x256_S1x49x256_150_0_0 : ∀ a, (![150, 0, 0] : Fin 3 → Nat) a + S1x49x256.size a ≤ S160x49x256.size a
  slices_S160x49x512_o151_0_0_S1x49x512 : S160x49x512.Slices ![151, 0, 0] S1x49x512
  inb_S160x49x256_S1x49x256_151_0_0 : ∀ a, (![151, 0, 0] : Fin 3 → Nat) a + S1x49x256.size a ≤ S160x49x256.size a
  slices_S160x49x512_o152_0_0_S1x49x512 : S160x49x512.Slices ![152, 0, 0] S1x49x512
  inb_S160x49x256_S1x49x256_152_0_0 : ∀ a, (![152, 0, 0] : Fin 3 → Nat) a + S1x49x256.size a ≤ S160x49x256.size a
  slices_S160x49x512_o153_0_0_S1x49x512 : S160x49x512.Slices ![153, 0, 0] S1x49x512
  inb_S160x49x256_S1x49x256_153_0_0 : ∀ a, (![153, 0, 0] : Fin 3 → Nat) a + S1x49x256.size a ≤ S160x49x256.size a
  slices_S160x49x512_o154_0_0_S1x49x512 : S160x49x512.Slices ![154, 0, 0] S1x49x512
  inb_S160x49x256_S1x49x256_154_0_0 : ∀ a, (![154, 0, 0] : Fin 3 → Nat) a + S1x49x256.size a ≤ S160x49x256.size a
  slices_S160x49x512_o155_0_0_S1x49x512 : S160x49x512.Slices ![155, 0, 0] S1x49x512
  inb_S160x49x256_S1x49x256_155_0_0 : ∀ a, (![155, 0, 0] : Fin 3 → Nat) a + S1x49x256.size a ≤ S160x49x256.size a
  slices_S160x49x512_o156_0_0_S1x49x512 : S160x49x512.Slices ![156, 0, 0] S1x49x512
  inb_S160x49x256_S1x49x256_156_0_0 : ∀ a, (![156, 0, 0] : Fin 3 → Nat) a + S1x49x256.size a ≤ S160x49x256.size a
  slices_S160x49x512_o157_0_0_S1x49x512 : S160x49x512.Slices ![157, 0, 0] S1x49x512
  inb_S160x49x256_S1x49x256_157_0_0 : ∀ a, (![157, 0, 0] : Fin 3 → Nat) a + S1x49x256.size a ≤ S160x49x256.size a
  slices_S160x49x512_o158_0_0_S1x49x512 : S160x49x512.Slices ![158, 0, 0] S1x49x512
  inb_S160x49x256_S1x49x256_158_0_0 : ∀ a, (![158, 0, 0] : Fin 3 → Nat) a + S1x49x256.size a ≤ S160x49x256.size a
  slices_S160x49x512_o159_0_0_S1x49x512 : S160x49x512.Slices ![159, 0, 0] S1x49x512
  inb_S160x49x256_S1x49x256_159_0_0 : ∀ a, (![159, 0, 0] : Fin 3 → Nat) a + S1x49x256.size a ≤ S160x49x256.size a
  reduces_S160x49x512_S160x512 : S160x49x512.Reduces [1] S160x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S160x128 : S1x128.Broadcasts S160x128
  reduces_S160x128_S160 : S160x128.Reduces [1] S160
  shapeCasts_S160_S160x1 : S160.ShapeCasts S160x1
  broadcasts_S160x1_S160x128 : S160x1.Broadcasts S160x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x160x256_S1x160x256_0_0_0 : ∀ a, (![0, 0, 0] : Fin 3 → Nat) a + S1x160x256.size a ≤ S1x160x256.size a
  h_S1x160x256 : 0 < S1x160x256.numel
  inb_S1x160x256_S1x160x128_0_0_0 : ∀ a, (![0, 0, 0] : Fin 3 → Nat) a + S1x160x128.size a ≤ S1x160x256.size a
  h_S1x160x128 : 0 < S1x160x128.numel
  shapeCasts_S1x160x128_S160x128 : S1x160x128.ShapeCasts S160x128
  shapeCasts_S160x128_S1x160x128 : S160x128.ShapeCasts S1x160x128
  inb_S1x160x256_S1x160x128_0_0_128 : ∀ a, (![0, 0, 128] : Fin 3 → Nat) a + S1x160x128.size a ≤ S1x160x256.size a
  slices_S4x160x256_S1x160x128_0_0_0 : S4x160x256.Slices ![0, 0, 0] S1x160x128
  slices_S4x160x256_S1x160x128_0_0_128 : S4x160x256.Slices ![0, 0, 128] S1x160x128
  transposes_S160x49x1024_S160x1024x49_0_2_1 : S160x49x1024.Transposes [0, 2, 1] S160x1024x49
  shapeCasts_S160x1024x49_S160x1024x7x7 : S160x1024x49.ShapeCasts S160x1024x7x7
  dot_S512x1024_S1024x128_S512x128_1_0_0_1_n_n_wf : DotDims.WF S512x1024 S1024x128 S512x128 [1] [0] [0] [1] [] []
  dot_S1x1024_S1024x128_S1x128_1_0_0_1_n_n_wf : DotDims.WF S1x1024 S1024x128 S1x128 [1] [0] [0] [1] [] []
  dot_S1x128_S128x128_S1x128_1_0_0_1_n_n_wf : DotDims.WF S1x128 S128x128 S1x128 [1] [0] [0] [1] [] []
  dot_S49x512_S512x256_S49x256_1_0_0_1_n_n_wf : DotDims.WF S49x512 S512x256 S49x256 [1] [0] [0] [1] [] []
  dot_S160x512_S512x128_S160x128_1_0_0_1_n_n_wf : DotDims.WF S160x512 S512x128 S160x128 [1] [0] [0] [1] [] []
  dot_S160x128_S128x128_S160x128_1_0_0_1_n_n_wf : DotDims.WF S160x128 S128x128 S160x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S160x49x512.size a ≤ S160x49x512.size a
  hwx0_0 : ∀ i : grid0.Coords, EltTy.bits .f32 = 32 ∨ (Rect.block (s := S160x49x512) S160x49x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x1024.size a
  hwx0_1 : ∀ i : grid0.Coords, EltTy.bits .f32 = 32 ∨ (Rect.block (s := S512x1024) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x1024.size a
  hwx0_2 : ∀ i : grid0.Coords, EltTy.bits .f32 = 32 ∨ (Rect.block (s := S1x1024) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .f32 = 32 ∨ (Rect.block (s := S512x128) S512x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S160x49x256.size a ≤ S160x49x1024.size a
  hwx0_7 : ∀ i : grid0.Coords, EltTy.bits .f32 = 32 ∨ (Rect.block (s := S160x49x1024) S160x49x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x160x256.size a ≤ S4x160x256.size a
  hwx0_8 : ∀ i : grid0.Coords, EltTy.bits .f32 = 32 ∨ (Rect.block (s := S4x160x256) S1x160x256.size (cc0_transform_8 i) (hinb0_8 i)).WholeWords (EltTy.packing .f32)

variable [Facts₀]

def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf
def dot_S1x1024_S1024x128_S1x128_1_0_0_1_n_n : DotDims S1x1024 S1024x128 S1x128 where
  lhsContracting := [1]
  rhsContracting := [0]
  lhsNonContracting := [0]
  rhsNonContracting := [1]
  lhsBatch := []
  rhsBatch := []
  wf := dot_S1x1024_S1024x128_S1x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S49x512_S512x256_S49x256_1_0_0_1_n_n : DotDims S49x512 S512x256 S49x256 where
  lhsContracting := [1]
  rhsContracting := [0]
  lhsNonContracting := [0]
  rhsNonContracting := [1]
  lhsBatch := []
  rhsBatch := []
  wf := dot_S49x512_S512x256_S49x256_1_0_0_1_n_n_wf
def dot_S160x512_S512x128_S160x128_1_0_0_1_n_n : DotDims S160x512 S512x128 S160x128 where
  lhsContracting := [1]
  rhsContracting := [0]
  lhsNonContracting := [0]
  rhsNonContracting := [1]
  lhsBatch := []
  rhsBatch := []
  wf := dot_S160x512_S512x128_S160x128_1_0_0_1_n_n_wf
def dot_S160x128_S128x128_S160x128_1_0_0_1_n_n : DotDims S160x128 S128x128 S160x128 where
  lhsContracting := [1]
  rhsContracting := [0]
  lhsNonContracting := [0]
  rhsNonContracting := [1]
  lhsBatch := []
  rhsBatch := []
  wf := dot_S160x128_S128x128_S160x128_1_0_0_1_n_n_wf

abbrev win0_0 : Pipeline.Window sig grid0 :=
  Pipeline.Window.ofSpec (Memref.whole main_v1) S160x49x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16_0) S160x49x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v16_1) S1x160x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== Proof.HeadAlgebra.lean ====
/-
  The real-number algebra behind the two heads, on the extended reals with every entry a real.

  * a bias added before a second matrix product can be folded into the product's weights:
    (a·W + β)·F + φ = a·(W·F) + (β·F + φ)   (associativity of the matrix product and distributivity);
  * a per-column scale and shift before a matrix product can be folded into the product's weights:
    (μ ⊙ s + (b − r ⊙ s))·W + c = μ·(W ⊙ s) + (c + (b − r ⊙ s)·W);
  * the quotient by 49 is the product with 1/49;
  * 1/√x of a positive real is a real, and a row scaled by 1/√max(Σ f², ε), ε > 0, of reals is a row of reals.
  Distributivity fails at the infinities, so each law is stated for entries that are reals.
-/
import Idealize.ShloMosaic.PureOps.Ideal
import Idealize.ShloMosaic.PureOps.Ideal.Laws

noncomputable section

namespace Cert.DualHead

open Idealize.ShloMosaic

/-- The extended real `x` is a real number. -/
def IsReal (x : EReal) : Prop := ∃ r : ℝ, x = (r : EReal)

theorem isReal_coe (r : ℝ) : IsReal (r : EReal) := ⟨r, rfl⟩

/-- A finite sum of reals, read on the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of reals is the image of a real-valued family. -/
theorem exists_real_fun {ι : Type} {a : ι → EReal} (h : ∀ i, IsReal (a i)) : ∃ a' : ι → ℝ, a = fun i => (a' i : EReal) :=
  ⟨fun i => (h i).choose, funext fun i => (h i).choose_spec⟩

theorem exists_real_fun₂ {ι κ : Type} {a : ι → κ → EReal} (h : ∀ i j, IsReal (a i j)) :
    ∃ a' : ι → κ → ℝ, a = fun i j => (a' i j : EReal) :=
  ⟨fun i j => (h i j).choose, funext fun i => funext fun j => (h i j).choose_spec⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type} (s : Finset ι) {f : ι → EReal} (h : ∀ i, IsReal (f i)) : IsReal (∑ i ∈ s, f i) := by
  obtain ⟨f', rfl⟩ := exists_real_fun h
  exact ⟨∑ i ∈ s, f' i, (coe_sum s f').symm⟩

/-! ## The two folding laws -/

section Laws
variable {K C N : Type} [Fintype K] [Fintype C]

/-- (a·W + β)·F + φ = a·(W·F) + (β·F + φ), one output column, all entries reals. -/
theorem affine_affine (a : K → EReal) (W : K → C → EReal) (β : C → EReal) (Fm : C → EReal) (φ : EReal)
    (ha : ∀ k, IsReal (a k)) (hW : ∀ k c, IsReal (W k c)) (hβ : ∀ c, IsReal (β c)) (hF : ∀ c, IsReal (Fm c))
    (hφ : IsReal φ) :
    (∑ c, ((∑ k, a k * W k c) + β c) * Fm c) + φ = (∑ k, a k * (∑ c, W k c * Fm c)) + ((∑ c, β c * Fm c) + φ) := by
  obtain ⟨a', rfl⟩ := exists_real_fun ha
  obtain ⟨W', rfl⟩ := exists_real_fun₂ hW
  obtain ⟨β', rfl⟩ := exists_real_fun hβ
  obtain ⟨F', rfl⟩ := exists_real_fun hF
  obtain ⟨φ', rfl⟩ := hφ
  simp only [← EReal.coe_mul, ← coe_sum, ← EReal.coe_add]
  rw [EReal.coe_eq_coe_iff]
  simp only [add_mul, Finset.sum_add_distrib, Finset.sum_mul, Finset.mul_sum]
  rw [Finset.sum_comm]
  simp only [mul_assoc, add_assoc]

/-- (μ ⊙ s + (b − r ⊙ s))·w + c = μ·(w ⊙ s) + (c + (b − r ⊙ s)·w), one output column, all entries reals. -/
theorem scale_shift_fold (μ s b r w : K → EReal) (c : EReal)
    (hμ : ∀ j, IsReal (μ j)) (hs : ∀ j, IsReal (s j)) (hb : ∀ j, IsReal (b j)) (hr : ∀ j, IsReal (r j))
    (hw : ∀ j, IsReal (w j)) (hc : IsReal c) :
    (∑ j, (μ j * s j + (b j - r j * s j)) * w j) + c
      = (∑ j, μ j * (w j * s j)) + (c + ∑ j, (b j - r j * s j) * w j) := by
  obtain ⟨μ', rfl⟩ := exists_real_fun hμ
  obtain ⟨s', rfl⟩ := exists_real_fun hs
  obtain ⟨b', rfl⟩ := exists_real_fun hb
  obtain ⟨r', rfl⟩ := exists_real_fun hr
  obtain ⟨w', rfl⟩ := exists_real_fun hw
  obtain ⟨c', rfl⟩ := hc
  simp only [← EReal.coe_mul, ← EReal.coe_sub, ← EReal.coe_add, ← coe_sum]
  rw [EReal.coe_eq_coe_iff]
  simp only [add_mul, Finset.sum_add_distrib]
  have e : ∀ j, μ' j * s' j * w' j = μ' j * (w' j * s' j) := fun j => by ring
  simp only [e]
  ring

end Laws

/-! ## Constants and the normalisation -/

/-- The word 0x42440000 is 49. -/
theorem ofBits_49 : Ideal.ofBits .f32 0x42440000#32 = ((49 : ℝ) : EReal) := by
  simp [Ideal.ofBits, Ideal.ieee, -EReal.coe_mul]; norm_num

/-- The quotient by the word 49 is the product with the real 1/49, on every extended real. -/
theorem div_49 (x : EReal) : Ideal.div x (Ideal.ofBits .f32 0x42440000#32) = x * ((1 / 49 : ℝ) : EReal) := by
  rw [ofBits_49]; exact Ideal.div_coe (by norm_num) x

/-- The word 0x179ABE15 (the clamp under the square root, about 1e-24) is a positive real. -/
theorem eps24_pos : ∃ e : ℝ, 0 < e ∧ Ideal.ofBits .f32 0x179ABE15#32 = (e : EReal) := by
  refine ⟨_, ?_, by simp [Ideal.ofBits, Ideal.ieee, -EReal.coe_mul]; rfl⟩
  positivity

/-- The word 0x3727C5AC (the variance's epsilon, about 1e-5) is a positive real. -/
theorem eps5_pos : ∃ e : ℝ, 0 < e ∧ Ideal.ofBits .f32 0x3727C5AC#32 = (e : EReal) := by
  refine ⟨_, ?_, by simp [Ideal.ofBits, Ideal.ieee, -EReal.coe_mul]; rfl⟩
  positivity

/-- 1/√x of a positive real is a real. -/
theorem isReal_rsqrt_pos {r : ℝ} (h : 0 < r) : IsReal (Ideal.rsqrt (r : EReal)) := by
  rw [Ideal.rsqrt_coe, if_neg (not_lt.mpr h.le), if_neg h.ne']
  exact ⟨_, rfl⟩

/-- 1/√(max(x, ε)) of a real x and a positive real ε is a real. -/
theorem isReal_rsqrt_max {x e : EReal} (hx : IsReal x) (he : ∃ e' : ℝ, 0 < e' ∧ e = (e' : EReal)) :
    IsReal (Ideal.rsqrt (max x e)) := by
  obtain ⟨x', rfl⟩ := hx
  obtain ⟨e', he', rfl⟩ := he
  rcases le_total x' e' with h | h
  · rw [max_eq_right (EReal.coe_le_coe_iff.2 h)]; exact isReal_rsqrt_pos he'
  · rw [max_eq_left (EReal.coe_le_coe_iff.2 h)]; exact isReal_rsqrt_pos (lt_of_lt_of_le he' h)

/-- 1/√(v + ε) of a real v ≥ 0 and a positive real ε is a real. -/
theorem isReal_rsqrt_add {v e : EReal} (hv : IsReal v) (h0 : 0 ≤ v) (he : ∃ e' : ℝ, 0 < e' ∧ e = (e' : EReal)) :
    IsReal (Ideal.rsqrt (v + e)) := by
  obtain ⟨v', rfl⟩ := hv
  obtain ⟨e', he', rfl⟩ := he
  rw [← EReal.coe_add]
  have : (0 : ℝ) ≤ v' := by exact_mod_cast h0
  exact isReal_rsqrt_pos (by linarith)

end Cert.DualHead

end
-- ==== Proof.HeadSpec.lean ====
/-
  The two heads of the model, one batch row at a time, as functions of that row's pixels × channels (49 × 512) and the
  weight arrays, written in the two arrangements the two programs use, and the proof that the arrangements agree when
  every entry is a real and every running variance is ≥ 0.

  For one batch row with pixel rows x(p, ·):
    mean     = (Σ_p x(p, ·)) / 49
    feats    = (mean · Wb + bb) · Wf + bf                       -- one arrangement
             = mean · (Wb · Wf) + (bb · Wf + bf)                -- the other (weights folded beforehand)
    metric   = feats / √max(Σ feats², ε)
    s        = γ / √(var + ε')
    cluster₀ = (metric ⊙ s + (β − μ ⊙ s)) · Wc + bc             -- one arrangement
             = metric · (Wc ⊙ s) + (bc + (β − μ ⊙ s) · Wc)      -- the other (the normalisation folded into Wc, bc)
    cluster  = cluster₀ / √max(Σ cluster₀², ε)
  and the per-pixel embedding is x(p, ·) · Wb + bb in both.
-/
import proofs.«141857_g2000002382505771_pallasbulk_556_21_alg».proof.Proof.HeadAlgebra

noncomputable section

namespace Cert.DualHead

open Idealize.ShloMosaic

/-- The clamp under the square roots (the word of 1e-24). -/
abbrev eps24 : EReal := Ideal.ofBits .f32 0x179ABE15#32
/-- The epsilon added to the running variance (the word of 1e-5). -/
abbrev eps5 : EReal := Ideal.ofBits .f32 0x3727C5AC#32

section Defs
variable {K N : Nat}

/-- a · W + b, at output column n. -/
def affine (a : Fin K → EReal) (W : Fin K → Fin N → EReal) (b : Fin N → EReal) (n : Fin N) : EReal :=
  (∑ k, a k * W k n) + b n

/-- A row divided by the clamped root of its sum of squares. -/
def l2n (f : Fin N → EReal) (n : Fin N) : EReal := f n * Ideal.rsqrt (max (∑ j, f j * f j) eps24)

/-- The normalisation's per-column scale γ / √(var + ε'). -/
def bnScale (g rv : Fin N → EReal) (j : Fin N) : EReal := g j * Ideal.rsqrt (rv j + eps5)

end Defs

/-- The mean over the 49 pixels as a product with 1/49. -/
def meanMul (xr : Fin 49 → Fin 512 → EReal) (k : Fin 512) : EReal := (∑ p, xr p k) * ((1 / 49 : ℝ) : EReal)

/-- The mean over the 49 pixels as a quotient by the word 49. -/
def meanDiv (xr : Fin 49 → Fin 512 → EReal) (k : Fin 512) : EReal :=
  Ideal.div (∑ p, xr p k) (Ideal.ofBits .f32 0x42440000#32)

theorem meanDiv_eq (xr : Fin 49 → Fin 512 → EReal) : meanDiv xr = meanMul xr :=
  funext fun k => div_49 _

variable (Wb : Fin 512 → Fin 1024 → EReal) (bb : Fin 1024 → EReal) (Wf : Fin 1024 → Fin 128 → EReal)
  (bf g be rm rv : Fin 128 → EReal) (Wc : Fin 128 → Fin 128 → EReal) (bc : Fin 128 → EReal)

/-- The metric row, layer by layer. -/
def metricLayered (xr : Fin 49 → Fin 512 → EReal) : Fin 128 → EReal :=
  l2n (affine (affine (meanMul xr) Wb bb) Wf bf)

/-- The metric row, with the two layers' weights folded beforehand. -/
def metricFolded (xr : Fin 49 → Fin 512 → EReal) : Fin 128 → EReal :=
  l2n (affine (meanDiv xr) (fun k j => ∑ c, Wb k c * Wf c j) (fun j => (∑ c, bb c * Wf c j) + bf j))

/-- The cluster row from a metric row μ, the normalisation applied to μ first. -/
def clusterLayered (μ : Fin 128 → EReal) : Fin 128 → EReal :=
  l2n (affine (fun j => μ j * bnScale g rv j + (be j - rm j * bnScale g rv j)) Wc bc)

/-- The cluster row from a metric row μ, the normalisation folded into the weights beforehand. -/
def clusterFolded (μ : Fin 128 → EReal) : Fin 128 → EReal :=
  l2n (affine μ (fun j n => Wc j n * bnScale g rv j)
    (fun n => bc n + ∑ j, (be j - rm j * bnScale g rv j) * Wc j n))

/-! ## Entries stay real -/

theorem isReal_affine {K N : Nat} {a : Fin K → EReal} {W : Fin K → Fin N → EReal} {b : Fin N → EReal}
    (ha : ∀ k, IsReal (a k)) (hW : ∀ k n, IsReal (W k n)) (hb : ∀ n, IsReal (b n)) (n : Fin N) :
    IsReal (affine a W b n) :=
  (IsReal.sum _ fun k => (ha k).mul (hW k n)).add (hb n)

theorem isReal_l2n {N : Nat} {f : Fin N → EReal} (hf : ∀ n, IsReal (f n)) (n : Fin N) : IsReal (l2n f n) :=
  (hf n).mul (isReal_rsqrt_max (IsReal.sum _ fun j => (hf j).mul (hf j)) eps24_pos)

theorem isReal_meanMul {xr : Fin 49 → Fin 512 → EReal} (hx : ∀ p k, IsReal (xr p k)) (k : Fin 512) :
    IsReal (meanMul xr k) :=
  (IsReal.sum _ fun p => hx p k).mul (isReal_coe _)

theorem isReal_bnScale {g rv : Fin 128 → EReal} (hg : ∀ j, IsReal (g j)) (hrv : ∀ j, IsReal (rv j))
    (h0 : ∀ j, 0 ≤ rv j) (j : Fin 128) : IsReal (bnScale g rv j) :=
  (hg j).mul (isReal_rsqrt_add (hrv j) (h0 j) eps5_pos)

/-! ## The two arrangements agree -/

variable {Wb bb Wf bf g be rm rv Wc bc}

theorem metricFolded_eq {xr : Fin 49 → Fin 512 → EReal} (hx : ∀ p k, IsReal (xr p k))
    (hWb : ∀ k c, IsReal (Wb k c)) (hbb : ∀ c, IsReal (bb c)) (hWf : ∀ c j, IsReal (Wf c j))
    (hbf : ∀ j, IsReal (bf j)) : metricFolded Wb bb Wf bf xr = metricLayered Wb bb Wf bf xr := by
  unfold metricFolded metricLayered
  rw [meanDiv_eq]
  congr 1
  funext j
  exact (affine_affine (meanMul xr) Wb bb (fun c => Wf c j) (bf j) (isReal_meanMul hx) hWb hbb
    (fun c => hWf c j) (hbf j)).symm

theorem isReal_metricLayered {xr : Fin 49 → Fin 512 → EReal} (hx : ∀ p k, IsReal (xr p k))
    (hWb : ∀ k c, IsReal (Wb k c)) (hbb : ∀ c, IsReal (bb c)) (hWf : ∀ c j, IsReal (Wf c j))
    (hbf : ∀ j, IsReal (bf j)) (j : Fin 128) : IsReal (metricLayered Wb bb Wf bf xr j) :=
  isReal_l2n (isReal_affine (isReal_affine (isReal_meanMul hx) hWb hbb) hWf hbf) j

theorem clusterFolded_eq {μ : Fin 128 → EReal} (hμ : ∀ j, IsReal (μ j)) (hg : ∀ j, IsReal (g j))
    (hrv : ∀ j, IsReal (rv j)) (h0 : ∀ j, 0 ≤ rv j) (hbe : ∀ j, IsReal (be j)) (hrm : ∀ j, IsReal (rm j))
    (hWc : ∀ j n, IsReal (Wc j n)) (hbc : ∀ n, IsReal (bc n)) :
    clusterFolded g be rm rv Wc bc μ = clusterLayered g be rm rv Wc bc μ := by
  unfold clusterFolded clusterLayered
  congr 1
  funext n
  exact (scale_shift_fold μ (bnScale g rv) be rm (fun j => Wc j n) (bc n) hμ (isReal_bnScale hg hrv h0) hbe hrm
    (fun j => hWc j n) (hbc n)).symm

end Cert.DualHead

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibAxisReads.lean ====
/-
  Two more vector operations of a kernel body read at an index, on the extended reals or any values: the sum
  along the MIDDLE axis of a rank-3 block as a sum over that axis's coordinate, and an a×1×c array broadcast
  along its unit middle axis to a×b×c. (Neighbours of the first-axis and last-axis sums and of the trailing-axis
  broadcast.) Nothing here mentions a program.
-/
import Idealize.ShloMosaic.PureOps.Ideal.Laws
import Idealize.ShloMosaic.Lib.ValueIdx
import Idealize.ShloMosaic.Lib.Pipeline.Value

open scoped BigOperators

namespace Cert.Lib.AxisReads

open Idealize.ShloMosaic Idealize.ShloMosaic.ValueIdx

variable {a b c : Nat} {φ : FTy}

/-- The sum along the MIDDLE axis of an a×b×c block is at (p, r) the sum over q of the block at (p, q, r). -/
theorem sum_mid_axis_apply (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (p : Fin a) (r : Fin c) :
    multiReduction .add [1] ⟨2, ![a, c]⟩ src acc h hφ hacc (ix2 p r) = ∑ q : Fin b, src (ix3 p q r) := by
  rw [Ideal.multiReduction_add_single]
  refine Finset.sum_congr rfl fun q _ => congrArg src ?_
  funext ax; apply Fin.ext
  match ax with
  | ⟨0, _⟩ => rfl
  | ⟨1, _⟩ => rfl
  | ⟨2, _⟩ => rfl

/-- An a×1×c array broadcast along its unit middle axis to a×b×c reads its entry (p, 0, r) at (p, q, r). -/
theorem broadcastMid_apply {α : Type} (x : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ x h (ix3 p q r) = x (ix3 p 0 r) :=
  broadcastTo_apply x h _ (ix3 p 0 r) fun ax => by
    match ax with
    | ⟨0, _⟩ =>
      show p.val = if a = 1 then 0 else p.val
      split_ifs with ha
      · have := p.isLt; omega
      · rfl
    | ⟨1, _⟩ => rfl
    | ⟨2, _⟩ =>
      show r.val = if c = 1 then 0 else r.val
      split_ifs with hc
      · have := r.isLt; omega
      · rfl

end Cert.Lib.AxisReads
-- ==== Proof.BodyForms.lean ====
/-
  The spellings both kernel bodies use, read at an index, on the extended reals:
  * a matrix product into a zero accumulator plus a 1×n row broadcast down the rows is `affine` of the row of the
    left operand;
  * a block times [1/√max(Σ over the row of squares, ε), re-shaped to a column and broadcast across] is `l2n` of the row;
  * the host's plain dot_general is the sum over the contracted coordinate.
-/
import proofs.«141857_g2000002382505771_pallasbulk_556_21_alg».proof.Proof.HeadSpec
import proofs.«141857_g2000002382505771_pallasbulk_556_21_alg».proof.Proof.LibBlockReads
import proofs.«141857_g2000002382505771_pallasbulk_556_21_alg».proof.Proof.LibRowReductions
import proofs.«141857_g2000002382505771_pallasbulk_556_21_alg».proof.Proof.LibAxisReads
import Idealize.ShloMosaic.Lib.ValueIdx
import Idealize.ShloMosaic.Lib.Pipeline.Value

noncomputable section

namespace Cert.DualHead

open Idealize.ShloMosaic Idealize.ShloMosaic.ValueIdx Cert.Lib.BlockReads Cert.Lib.RowReductions

/-- An a×b array as a function of its two coordinates. -/
abbrev mat {a b : Nat} (x : (⟨2, ![a, b]⟩ : Shape).Idx → EReal) : Fin a → Fin b → EReal := fun i j => x (ix2 i j)
/-- A 1×b array as a function of its column. -/
abbrev row {b : Nat} (x : (⟨2, ![1, b]⟩ : Shape).Idx → EReal) : Fin b → EReal := fun j => x (ix2 0 j)

/-- `affine` depends on its row only through the row's values. -/
theorem affine_congr {K N : Nat} {a a' : Fin K → EReal} (h : a = a') (W : Fin K → Fin N → EReal) (b : Fin N → EReal)
    (n : Fin N) : affine a W b n = affine a' W b n := by rw [h]

/-- `l2n` depends on its row only through the row's values. -/
theorem l2n_congr {N : Nat} {f f' : Fin N → EReal} (h : f = f') (n : Fin N) : l2n f n = l2n f' n := by rw [h]

section
variable {m k n : Nat} {φ₁ φ₂ : FTy}

/-- A product into zeros plus a broadcast bias row, at (p, q). -/
theorem affine_body (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (r : FVec Ideal ⟨2, ![1, n]⟩ .f32) (h : (⟨2, ![1, n]⟩ : Shape).Broadcasts ⟨2, ![m, n]⟩) (p : Fin m) (q : Fin n) :
    addf (matmul d prec A B (constant ⟨2, ![m, n]⟩ .f32 0x00000000#32)) (broadcastTo ⟨2, ![m, n]⟩ r h) (ix2 p q)
      = affine (fun c => A (ix2 p c)) (mat B) (row r) q := by
  show matmul d prec A B (constant ⟨2, ![m, n]⟩ .f32 0x00000000#32) (ix2 p q) + broadcastTo ⟨2, ![m, n]⟩ r h (ix2 p q) = _
  rw [matmul_zero_rows_apply d hlc hrc hln hrn hlb hrb, broadcast_row_apply]
  rfl

/-- The host's plain product, at (p, q). -/
theorem host_dot_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ .f32) (B : FVec Ideal ⟨2, ![k, n]⟩ .f32)
    (p : Fin m) (q : Fin n) :
    Host.dotGeneral d prec A B (ix2 p q) = ∑ c : Fin k, A (ix2 p c) * B (ix2 c q) := by
  obtain ⟨lc, rc, ln, rn, lb, rb, w⟩ := d
  dsimp only at hlc hrc hln hrn hlb hrb
  subst hlc hrc hln hrn hlb hrb
  show FloatOps.dotGeneral _ prec _ A B (ix2 p q) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 p q)
      ((contrEquiv1 _ k rfl rfl).symm c) = ix2 p c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 p q)
      ((contrEquiv1 _ k rfl rfl).symm c) = ix2 c q := by
    funext ax; apply Fin.ext
    match ax with
    | ⟨0, _⟩ => simp [DotDims.rhsIdx]; exact c2
    | ⟨1, _⟩ => simp [DotDims.rhsIdx]; rfl
  rw [l2, r2]

end

section
variable {a b : Nat}

/-- A block times the broadcast column of 1/√max(row sum of squares, ε), at (p, q). -/
theorem l2n_body (f : FVec Ideal ⟨2, ![a, b]⟩ .f32)
    (hr : (⟨2, ![a, b]⟩ : Shape).Reduces [1] ⟨1, ![a]⟩) (hφ : FKind.Formats FTy.f32)
    (hacc : (0x00000000#32 : BitVec FTy.f32.bits) = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (q : Fin b) :
    mulf f (broadcastTo ⟨2, ![a, b]⟩
      (rsqrt (maximumf (shapeCast ⟨2, ![a, 1]⟩ (multiReduction .add [1] ⟨1, ![a]⟩ (mulf f f) 0x00000000#32 hr hφ hacc) hc)
        (broadcast ⟨2, ![a, 1]⟩ (Scalar.ofBits (F := Ideal) .f32 0x179ABE15#32)))) hb) (ix2 p q)
      = l2n (fun j => f (ix2 p j)) q := by
  show f (ix2 p q) * broadcastTo ⟨2, ![a, b]⟩ _ hb (ix2 p q) = _
  rw [broadcast_col_apply]
  show f (ix2 p q) * Ideal.rsqrt (max (shapeCast ⟨2, ![a, 1]⟩ _ hc (ix2 p 0)) _) = _
  rw [shapeCast_col_apply, rowsum_apply]
  rfl

end

section
variable {a b c : Nat}

/-- The sum over the first axis times a broadcast scalar, at (q, r). -/
theorem mean_mul_body (src : FVec Ideal ⟨3, ![a, b, c]⟩ .f32) (acc : BitVec FTy.f32.bits)
    (h : (⟨3, ![a, b, c]⟩ : Shape).Reduces [0] ⟨2, ![b, c]⟩) (hφ : FKind.Formats FTy.f32)
    (hacc : acc = FKind.add.neutral .f32 hφ) (s : Ideal .f32) (q : Fin b) (r : Fin c) :
    mulf (multiReduction .add [0] ⟨2, ![b, c]⟩ src acc h hφ hacc) (broadcast ⟨2, ![b, c]⟩ s) (ix2 q r)
      = (∑ p : Fin a, src (ix3 p q r)) * s := by
  show multiReduction .add [0] ⟨2, ![b, c]⟩ src acc h hφ hacc (ix2 q r) * s = _
  rw [sum_first_axis_apply]

/-- The sum over the middle axis divided by a broadcast scalar, at (p, r). -/
theorem mean_div_body (src : FVec Ideal ⟨3, ![a, b, c]⟩ .f32) (acc : BitVec FTy.f32.bits)
    (h : (⟨3, ![a, b, c]⟩ : Shape).Reduces [1] ⟨2, ![a, c]⟩) (hφ : FKind.Formats FTy.f32)
    (hacc : acc = FKind.add.neutral .f32 hφ) (s : Ideal .f32) (p : Fin a) (r : Fin c) :
    divf (multiReduction .add [1] ⟨2, ![a, c]⟩ src acc h hφ hacc) (broadcast ⟨2, ![a, c]⟩ s) (ix2 p r)
      = Ideal.div (∑ q : Fin b, src (ix3 p q r)) s := by
  show Ideal.div (multiReduction .add [1] ⟨2, ![a, c]⟩ src acc h hφ hacc (ix2 p r)) s = _
  rw [Cert.Lib.AxisReads.sum_mid_axis_apply]

end

section
variable {a b : Nat}

/-- A block times the broadcast scale γ/√(var + ε') plus the broadcast shift β − μ·scale, at (p, q). -/
theorem bn_body (x : FVec Ideal ⟨2, ![a, b]⟩ .f32) (g rv be rm : FVec Ideal ⟨2, ![1, b]⟩ .f32)
    (h : (⟨2, ![1, b]⟩ : Shape).Broadcasts ⟨2, ![a, b]⟩) (p : Fin a) (q : Fin b) :
    addf (mulf x (broadcastTo ⟨2, ![a, b]⟩
        (mulf g (rsqrt (addf rv (broadcast ⟨2, ![1, b]⟩ (Scalar.ofBits (F := Ideal) .f32 0x3727C5AC#32))))) h))
      (broadcastTo ⟨2, ![a, b]⟩
        (subf be (mulf rm (mulf g (rsqrt (addf rv (broadcast ⟨2, ![1, b]⟩ (Scalar.ofBits (F := Ideal) .f32 0x3727C5AC#32)))))))
        h) (ix2 p q)
      = x (ix2 p q) * bnScale (row g) (row rv) q + (row be q - row rm q * bnScale (row g) (row rv) q) := by
  show x (ix2 p q) * broadcastTo ⟨2, ![a, b]⟩ _ h (ix2 p q) + broadcastTo ⟨2, ![a, b]⟩ _ h (ix2 p q) = _
  rw [broadcast_row_apply, broadcast_row_apply]
  rfl

end

end Cert.DualHead

end
-- ==== Proof.KernelBody.lean ====
/-
  What the tiled kernel's body computes, read at an index, from the blocks it loads: for the batch tile's row bl,
  * the embedding block at (pixel p, row bl, column c) is x(p, bl, ·) · Wb + bb at c;
  * the metric block at (bl, j) is the layered metric row of the pixels × channels of row bl;
  * the cluster block at (bl, n) is the layered cluster row of that metric row.
  The pixel-major block (49, 16, 512) is re-shaped to (784, 512) for the product: row p·16 + bl.
-/
import proofs.«141857_g2000002382505771_pallasbulk_556_21_alg».proof.Proof.Gen.KernelIdeal.Skeleton
import proofs.«141857_g2000002382505771_pallasbulk_556_21_alg».proof.Proof.BodyForms
import Idealize.ShloMosaic.PureOps.IdealRules

noncomputable section

namespace Cert.DualHead.KernelBody

open Idealize.ShloMosaic Idealize.ShloMosaic.ValueIdx Cert.KernelIdeal Cert.KernelIdeal.Gen
open Cert.Lib.BlockReads Cert.Lib.RowReductions Cert.DualHead

/-- The named reciprocal is the rational 1/49. -/
theorem inv_49 : Named.named (F := Ideal) Cert.KernelIdeal.κ "inv_49" (φ := .f32) 0x3CA72F05#32 = ((1 / 49 : ℝ) : EReal) :=
  IdealRules.named_const.ideal_named_scalar _ _ _ _ rfl

set_option maxHeartbeats 400000 in
/-- The embedding block at (p, bl, c). -/
theorem pay3_apply (x0 : Vec Ideal S49x16x512 .f32) (x1 : Vec Ideal S512x1024 .f32) (x2 : Vec Ideal S1x1024 .f32)
    (p : Fin 49) (bl : Fin 16) (c : Fin 1024) :
    k0_pay3 x0 x1 x2 (ix3 p bl c) = affine (fun k => x0 (ix3 p bl k)) (mat x1) (row x2) c := by
  have hr : p.val * 16 + bl.val < 784 := by have := p.isLt; have := bl.isLt; omega
  unfold k0_pay3 k0_pay2
  dsimp only
  refine (shapeCast_apply _ _ (ix3 p bl c) (ix2 (⟨p.val * 16 + bl.val, hr⟩ : Fin 784) c) ?_).trans ?_
  · rw [Shape.rowMajor_val_two, Shape.rowMajor_val_three]
    show (p.val * 16 + bl.val) * 1024 + c.val = (p.val * 16 + bl.val) * 1024 + c.val
    rfl
  refine (affine_body dot_S784x512_S512x1024_S784x1024_1_0_0_1_n_n rfl rfl rfl rfl rfl rfl none _ _ x2 _ _ c).trans ?_
  refine affine_congr (funext fun k => ?_) _ _ c
  show shapeCast S784x512 (shapeCast S49x16x512 x0 _) _ (ix2 _ k) = _
  rw [shapeCast_self]
  refine shapeCast_apply x0 _ _ (ix3 p bl k) ?_
  rw [Shape.rowMajor_val_two, Shape.rowMajor_val_three]
  show (p.val * 16 + bl.val) * 512 + k.val = (p.val * 16 + bl.val) * 512 + k.val
  rfl

set_option maxHeartbeats 400000 in
/-- The metric block at (bl, j). -/
theorem pay4_apply (x0 : Vec Ideal S49x16x512 .f32) (x1 : Vec Ideal S512x1024 .f32) (x2 : Vec Ideal S1x1024 .f32)
    (x3 : Vec Ideal S1024x128 .f32) (x4 : Vec Ideal S1x128 .f32) (bl : Fin 16) (j : Fin 128) :
    k0_pay4 x0 x1 x2 x3 x4 (ix2 bl j)
      = metricLayered (mat x1) (row x2) (mat x3) (row x4) (fun p k => x0 (ix3 p bl k)) j := by
  unfold k0_pay4 k0_pay2
  dsimp only
  refine (l2n_body _ _ _ _ _ _ bl j).trans ?_
  unfold metricLayered
  refine l2n_congr (funext fun j' => ?_) j
  refine (affine_body dot_S16x1024_S1024x128_S16x128_1_0_0_1_n_n rfl rfl rfl rfl rfl rfl none _ _ x4 _ bl j').trans ?_
  refine affine_congr (funext fun c => ?_) _ _ j'
  refine (affine_body dot_S16x512_S512x1024_S16x1024_1_0_0_1_n_n rfl rfl rfl rfl rfl rfl none _ _ x2 _ bl c).trans ?_
  refine affine_congr (funext fun k => ?_) _ _ c
  refine (mean_mul_body _ _ _ _ _ _ bl k).trans ?_
  rw [inv_49, shapeCast_self]
  rfl

set_option maxHeartbeats 400000 in
/-- The cluster block at (bl, n), from the metric block μ. -/
theorem pay1_apply (μ : FVec Ideal S16x128 .f32) (g rv be rm : Vec Ideal S1x128 .f32) (Wc : Vec Ideal S128x128 .f32)
    (bc : Vec Ideal S1x128 .f32) (bl : Fin 16) (n : Fin 128) :
    k0_pay1 μ g rv be rm Wc bc (ix2 bl n)
      = clusterLayered (row g) (row be) (row rm) (row rv) (mat Wc) (row bc) (fun j => μ (ix2 bl j)) n := by
  unfold k0_pay1
  dsimp only
  refine (l2n_body _ _ _ _ _ _ bl n).trans ?_
  unfold clusterLayered
  refine l2n_congr (funext fun n' => ?_) n
  refine (affine_body dot_S16x128_S128x128_S16x128_1_0_0_1_n_n rfl rfl rfl rfl rfl rfl none _ _ bc _ bl n').trans ?_
  refine affine_congr (funext fun j => ?_) _ _ n'
  exact bn_body μ g rv be rm _ bl j

end Cert.DualHead.KernelBody

end
-- ==== Proof.ArraySpec.lean ====
/-
  The three results as whole-array functions of the argument arrays, index by index. X is the input with its two
  spatial axes flattened, (160, 512, 49): batch, channel, pixel. Row b of the heads depends on X(b, ·, ·) only; the
  embedding at (b, c, p) is X(b, ·, p) · Wb + bb at c.
  The heads are given in the layered arrangement and in the folded one, and the two agree when every argument entry
  is a real and the running variance is ≥ 0.
-/
import proofs.«141857_g2000002382505771_pallasbulk_556_21_alg».proof.Proof.BodyForms

noncomputable section

namespace Cert.DualHead

open Idealize.ShloMosaic Idealize.ShloMosaic.ValueIdx

variable (X : (⟨3, ![160, 512, 49]⟩ : Shape).Idx → EReal)
  (Wb : (⟨2, ![512, 1024]⟩ : Shape).Idx → EReal) (bb : (⟨2, ![1, 1024]⟩ : Shape).Idx → EReal)
  (Wf : (⟨2, ![1024, 128]⟩ : Shape).Idx → EReal) (bf g be rm rv : (⟨2, ![1, 128]⟩ : Shape).Idx → EReal)
  (Wc : (⟨2, ![128, 128]⟩ : Shape).Idx → EReal) (bc : (⟨2, ![1, 128]⟩ : Shape).Idx → EReal)

/-- Batch row b as pixels × channels. -/
abbrev pixRow (b : Fin 160) : Fin 49 → Fin 512 → EReal := fun p k => X (ix3 b k p)

/-- The embedding, (160, 1024, 49): batch, embedding channel, pixel. -/
def embArr : (⟨3, ![160, 1024, 49]⟩ : Shape).Idx → EReal :=
  fun i => affine (fun k => X (ix3 (i 0) k (i 2))) (mat Wb) (row bb) (i 1)

/-- The metric head, layered. -/
def metricArr : (⟨2, ![160, 128]⟩ : Shape).Idx → EReal :=
  fun i => metricLayered (mat Wb) (row bb) (mat Wf) (row bf) (pixRow X (i 0)) (i 1)

/-- The cluster head, layered, over the layered metric head. -/
def clusterArr : (⟨2, ![160, 128]⟩ : Shape).Idx → EReal :=
  fun i => clusterLayered (row g) (row be) (row rm) (row rv) (mat Wc) (row bc)
    (fun j => metricArr X Wb bb Wf bf (ix2 (i 0) j)) (i 1)

/-- The metric head, folded. -/
def metricArrF : (⟨2, ![160, 128]⟩ : Shape).Idx → EReal :=
  fun i => metricFolded (mat Wb) (row bb) (mat Wf) (row bf) (pixRow X (i 0)) (i 1)

/-- The cluster head, folded, over the folded metric head. -/
def clusterArrF : (⟨2, ![160, 128]⟩ : Shape).Idx → EReal :=
  fun i => clusterFolded (row g) (row be) (row rm) (row rv) (mat Wc) (row bc)
    (fun j => metricArrF X Wb bb Wf bf (ix2 (i 0) j)) (i 1)

variable {X Wb bb Wf bf g be rm rv Wc bc}

theorem metricArrF_eq (hX : ∀ i, IsReal (X i)) (hWb : ∀ i, IsReal (Wb i)) (hbb : ∀ i, IsReal (bb i))
    (hWf : ∀ i, IsReal (Wf i)) (hbf : ∀ i, IsReal (bf i)) : metricArrF X Wb bb Wf bf = metricArr X Wb bb Wf bf :=
  funext fun i => congrFun (metricFolded_eq (fun p k => hX _) (fun k c => hWb _) (fun c => hbb _) (fun c j => hWf _)
    (fun j => hbf _)) (i 1)

theorem clusterArrF_eq (hX : ∀ i, IsReal (X i)) (hWb : ∀ i, IsReal (Wb i)) (hbb : ∀ i, IsReal (bb i))
    (hWf : ∀ i, IsReal (Wf i)) (hbf : ∀ i, IsReal (bf i)) (hg : ∀ i, IsReal (g i)) (hbe : ∀ i, IsReal (be i))
    (hrm : ∀ i, IsReal (rm i)) (hrv : ∀ i, IsReal (rv i)) (h0 : ∀ i, 0 ≤ rv i) (hWc : ∀ i, IsReal (Wc i))
    (hbc : ∀ i, IsReal (bc i)) :
    clusterArrF X Wb bb Wf bf g be rm rv Wc bc = clusterArr X Wb bb Wf bf g be rm rv Wc bc := by
  funext i
  unfold clusterArrF clusterArr
  rw [metricArrF_eq hX hWb hbb hWf hbf]
  exact congrFun (clusterFolded_eq
    (fun j => isReal_metricLayered (fun p k => hX _) (fun k c => hWb _) (fun c => hbb _) (fun c j => hWf _)
      (fun j => hbf _) j)
    (fun j => hg _) (fun j => hrv _) (fun j => h0 _) (fun j => hbe _) (fun j => hrm _) (fun j n => hWc _)
    (fun n => hbc _)) (i 1)

end Cert.DualHead

end
-- ==== Proof.KernelArrays.lean ====
/-
  The tiled kernel's three output arrays after its run, as whole-array functions of the argument arrays.
  The grid has 10 points; point t handles batch rows 16·t … 16·t + 15. The input window's block at t is rows
  16·t … of the pixel-major view (49, 160, 512) of the input; every weight window's block is its whole array; output
  block t of the embedding is rows 16·t … of (49, 160, 1024), of the two heads rows 16·t … of (160, 128). The blocks
  tile each output array, so each ends holding its function everywhere.
-/
import proofs.«141857_g2000002382505771_pallasbulk_556_21_alg».proof.Proof.Gen.KernelIdeal.Frame
import proofs.«141857_g2000002382505771_pallasbulk_556_21_alg».proof.Proof.KernelBody
import proofs.«141857_g2000002382505771_pallasbulk_556_21_alg».proof.Proof.ArraySpec
import Idealize.ShloMosaic.Lib.Pipeline.Value
import Idealize.ShloMosaic.Lib.StableHlo.Run

set_option maxRecDepth 16384

noncomputable section

namespace Cert.DualHead.KernelArrays

open Idealize.ShloMosaic Idealize.ShloMosaic.TcCoe Idealize.ShloMosaic.Tactic Idealize.SL.Sem Idealize.ShloMosaic.ValueIdx
open Cert.KernelIdeal Cert.KernelIdeal.Gen Cert.DualHead Cert.DualHead.KernelBody

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The input with its spatial axes flattened: (160, 512, 49). -/
def X3 (c : Dev nD) : S160x512x49.Idx → EReal :=
  shapeCast S160x512x49 (m ((c : Thread nD τ).loc main_arg0)) shapeCasts_S160x512x7x7_S160x512x49

/-- The pixel-major view the region stages is the flattened input with its axes permuted. -/
theorem V_v1 (c : Dev nD) : (V m c main_v1 : S49x160x512.Idx → EReal)
    = transpose S49x160x512 [2, 0, 1] (X3 m c) transposes_S160x512x49_S49x160x512_2_0_1 := by
  show StableHlo.after hostOps0 (fun b => m (c, b)) (Proc.devRef .tc main_v1) = _
  after_results
  rfl

theorem V_v1_apply (c : Dev nD) (p : Fin 49) (b : Fin 160) (k : Fin 512) :
    V m c main_v1 (ix3 p b k) = X3 m c (ix3 b k p) := by
  refine (congrFun (V_v1 m c) _).trans ?_
  exact transpose_apply _ _ _ _ (ix3 b k p) (fun a => by
    match a with
    | ⟨0, _⟩ => rfl
    | ⟨1, _⟩ => rfl
    | ⟨2, _⟩ => rfl)

/-! ## Where the blocks sit -/

theorem idx0 : ∀ t : Fin cfg0.N, win0_0.index t (0 : Fin 3) = 0 ∧ win0_0.index t (1 : Fin 3) = t.val
    ∧ win0_0.index t (2 : Fin 3) = 0 :=
  (by decide +kernel : ∀ t : Fin grid0.N, _)

theorem idx11 : ∀ t : Fin cfg0.N, win0_11.index t (0 : Fin 3) = 0 ∧ win0_11.index t (1 : Fin 3) = t.val
    ∧ win0_11.index t (2 : Fin 3) = 0 :=
  (by decide +kernel : ∀ t : Fin grid0.N, _)

theorem idx12 : ∀ t : Fin cfg0.N, win0_12.index t (0 : Fin 2) = t.val ∧ win0_12.index t (1 : Fin 2) = 0 :=
  (by decide +kernel : ∀ t : Fin grid0.N, _)

theorem idx13 : ∀ t : Fin cfg0.N, win0_13.index t (0 : Fin 2) = t.val ∧ win0_13.index t (1 : Fin 2) = 0 :=
  (by decide +kernel : ∀ t : Fin grid0.N, _)

theorem row_lt (t : Fin cfg0.N) (bl : Fin 16) : t.val * 16 + bl.val < 160 := by
  have ht : t.val < 10 := t.isLt
  have := bl.isLt
  omega

/-- Row bl of the input block at point t is batch row 16·t + bl. -/
theorem iblk0_apply (c : Dev nD) (t : Fin cfg0.N) (p : Fin 49) (bl : Fin 16) (k : Fin 512) :
    iblk m c 0 t (ix3 p bl k) = X3 m c (ix3 (⟨t.val * 16 + bl.val, row_lt t bl⟩ : Fin 160) k p) := by
  obtain ⟨e0, e1, e2⟩ := idx0 t
  refine Eq.trans ?_ (V_v1_apply m c p ⟨t.val * 16 + bl.val, row_lt t bl⟩ k)
  show V m c main_v1 (((cfg0.win 0).blk t).view.emb (ix3 p bl k)) = V m c main_v1 _
  refine congrArg _ ?_
  funext a; apply Fin.ext
  match a with
  | ⟨0, _⟩ => show win0_0.index t (0 : Fin 3) * 49 + 1 * p.val = p.val; omega
  | ⟨1, _⟩ => show win0_0.index t (1 : Fin 3) * 16 + 1 * bl.val = t.val * 16 + bl.val; omega
  | ⟨2, _⟩ => show win0_0.index t (2 : Fin 3) * 512 + 1 * k.val = k.val; omega

theorem idx1 : ∀ t : Fin cfg0.N, win0_1.index t (0 : Fin 2) = 0 ∧ win0_1.index t (1 : Fin 2) = 0 :=
  (by decide +kernel : ∀ t : Fin grid0.N, _)

/-- Window 1's block is its whole array at every point. -/
theorem iblk1 (c : Dev nD) (t : Fin cfg0.N) : (iblk m c 1 t : S512x1024.Idx → EReal) = m ((c : Thread nD τ).loc main_arg1) := by
  obtain ⟨e0, e1⟩ := idx1 t
  rw [← V_main_arg1 m c]
  funext y
  show V m c main_arg1 (((cfg0.win 1).blk t).view.emb y) = V m c main_arg1 y
  refine congrArg _ ?_
  funext a; apply Fin.ext
  match a with
  | ⟨0, _⟩ => show win0_1.index t (0 : Fin 2) * 512 + 1 * (y 0).val = (y 0).val; omega
  | ⟨1, _⟩ => show win0_1.index t (1 : Fin 2) * 1024 + 1 * (y 1).val = (y 1).val; omega

theorem idx2 : ∀ t : Fin cfg0.N, win0_2.index t (0 : Fin 2) = 0 ∧ win0_2.index t (1 : Fin 2) = 0 :=
  (by decide +kernel : ∀ t : Fin grid0.N, _)

/-- Window 2's block is its whole array at every point. -/
theorem iblk2 (c : Dev nD) (t : Fin cfg0.N) : (iblk m c 2 t : S1x1024.Idx → EReal) = m ((c : Thread nD τ).loc main_arg2) := by
  obtain ⟨e0, e1⟩ := idx2 t
  rw [← V_main_arg2 m c]
  funext y
  show V m c main_arg2 (((cfg0.win 2).blk t).view.emb y) = V m c main_arg2 y
  refine congrArg _ ?_
  funext a; apply Fin.ext
  match a with
  | ⟨0, _⟩ => show win0_2.index t (0 : Fin 2) * 1 + 1 * (y 0).val = (y 0).val; omega
  | ⟨1, _⟩ => show win0_2.index t (1 : Fin 2) * 1024 + 1 * (y 1).val = (y 1).val; omega

theorem idx3 : ∀ t : Fin cfg0.N, win0_3.index t (0 : Fin 2) = 0 ∧ win0_3.index t (1 : Fin 2) = 0 :=
  (by decide +kernel : ∀ t : Fin grid0.N, _)

/-- Window 3's block is its whole array at every point. -/
theorem iblk3 (c : Dev nD) (t : Fin cfg0.N) : (iblk m c 3 t : S1024x128.Idx → EReal) = m ((c : Thread nD τ).loc main_arg3) := by
  obtain ⟨e0, e1⟩ := idx3 t
  rw [← V_main_arg3 m c]
  funext y
  show V m c main_arg3 (((cfg0.win 3).blk t).view.emb y) = V m c main_arg3 y
  refine congrArg _ ?_
  funext a; apply Fin.ext
  match a with
  | ⟨0, _⟩ => show win0_3.index t (0 : Fin 2) * 1024 + 1 * (y 0).val = (y 0).val; omega
  | ⟨1, _⟩ => show win0_3.index t (1 : Fin 2) * 128 + 1 * (y 1).val = (y 1).val; omega

theorem idx4 : ∀ t : Fin cfg0.N, win0_4.index t (0 : Fin 2) = 0 ∧ win0_4.index t (1 : Fin 2) = 0 :=
  (by decide +kernel : ∀ t : Fin grid0.N, _)

/-- Window 4's block is its whole array at every point. -/
theorem iblk4 (c : Dev nD) (t : Fin cfg0.N) : (iblk m c 4 t : S1x128.Idx → EReal) = m ((c : Thread nD τ).loc main_arg4) := by
  obtain ⟨e0, e1⟩ := idx4 t
  rw [← V_main_arg4 m c]
  funext y
  show V m c main_arg4 (((cfg0.win 4).blk t).view.emb y) = V m c main_arg4 y
  refine congrArg _ ?_
  funext a; apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

theorem idx5 : ∀ t : Fin cfg0.N, win0_5.index t (0 : Fin 2) = 0 ∧ win0_5.index t (1 : Fin 2) = 0 :=
  (by decide +kernel : ∀ t : Fin grid0.N, _)

/-- Window 5's block is its whole array at every point. -/
theorem iblk5 (c : Dev nD) (t : Fin cfg0.N) : (iblk m c 5 t : S1x128.Idx → EReal) = m ((c : Thread nD τ).loc main_arg5) := by
  obtain ⟨e0, e1⟩ := idx5 t
  rw [← V_main_arg5 m c]
  funext y
  show V m c main_arg5 (((cfg0.win 5).blk t).view.emb y) = V m c main_arg5 y
  refine congrArg _ ?_
  funext a; apply Fin.ext
  match a with
  | ⟨0, _⟩ => show win0_5.index t (0 : Fin 2) * 1 + 1 * (y 0).val = (y 0).val; omega
  | ⟨1, _⟩ => show win0_5.index t (1 : Fin 2) * 128 + 1 * (y 1).val = (y 1).val; omega

theorem idx6 : ∀ t : Fin cfg0.N, win0_6.index t (0 : Fin 2) = 0 ∧ win0_6.index t (1 : Fin 2) = 0 :=
  (by decide +kernel : ∀ t : Fin grid0.N, _)

/-- Window 6's block is its whole array at every point. -/
theorem iblk6 (c : Dev nD) (t : Fin cfg0.N) : (iblk m c 6 t : S1x128.Idx → EReal) = m ((c : Thread nD τ).loc main_arg6) := by
  obtain ⟨e0, e1⟩ := idx6 t
  rw [← V_main_arg6 m c]
  funext y
  show V m c main_arg6 (((cfg0.win 6).blk t).view.emb y) = V m c main_arg6 y
  refine congrArg _ ?_
  funext a; apply Fin.ext
  match a with
  | ⟨0, _⟩ => show win0_6.index t (0 : Fin 2) * 1 + 1 * (y 0).val = (y 0).val; omega
  | ⟨1, _⟩ => show win0_6.index t (1 : Fin 2) * 128 + 1 * (y 1).val = (y 1).val; omega

theorem idx7 : ∀ t : Fin cfg0.N, win0_7.index t (0 : Fin 2) = 0 ∧ win0_7.index t (1 : Fin 2) = 0 :=
  (by decide +kernel : ∀ t : Fin grid0.N, _)

/-- Window 7's block is its whole array at every point. -/
theorem iblk7 (c : Dev nD) (t : Fin cfg0.N) : (iblk m c 7 t : S1x128.Idx → EReal) = m ((c : Thread nD τ).loc main_arg7) := by
  obtain ⟨e0, e1⟩ := idx7 t
  rw [← V_main_arg7 m c]
  funext y
  show V m c main_arg7 (((cfg0.win 7).blk t).view.emb y) = V m c main_arg7 y
  refine congrArg _ ?_
  funext a; apply Fin.ext
  match a with
  | ⟨0, _⟩ => show win0_7.index t (0 : Fin 2) * 1 + 1 * (y 0).val = (y 0).val; omega
  | ⟨1, _⟩ => show win0_7.index t (1 : Fin 2) * 128 + 1 * (y 1).val = (y 1).val; omega

theorem idx8 : ∀ t : Fin cfg0.N, win0_8.index t (0 : Fin 2) = 0 ∧ win0_8.index t (1 : Fin 2) = 0 :=
  (by decide +kernel : ∀ t : Fin grid0.N, _)

/-- Window 8's block is its whole array at every point. -/
theorem iblk8 (c : Dev nD) (t : Fin cfg0.N) : (iblk m c 8 t : S1x128.Idx → EReal) = m ((c : Thread nD τ).loc main_arg8) := by
  obtain ⟨e0, e1⟩ := idx8 t
  rw [← V_main_arg8 m c]
  funext y
  show V m c main_arg8 (((cfg0.win 8).blk t).view.emb y) = V m c main_arg8 y
  refine congrArg _ ?_
  funext a; apply Fin.ext
  match a with
  | ⟨0, _⟩ => show win0_8.index t (0 : Fin 2) * 1 + 1 * (y 0).val = (y 0).val; omega
  | ⟨1, _⟩ => show win0_8.index t (1 : Fin 2) * 128 + 1 * (y 1).val = (y 1).val; omega

theorem idx9 : ∀ t : Fin cfg0.N, win0_9.index t (0 : Fin 2) = 0 ∧ win0_9.index t (1 : Fin 2) = 0 :=
  (by decide +kernel : ∀ t : Fin grid0.N, _)

/-- Window 9's block is its whole array at every point. -/
theorem iblk9 (c : Dev nD) (t : Fin cfg0.N) : (iblk m c 9 t : S128x128.Idx → EReal) = m ((c : Thread nD τ).loc main_arg9) := by
  obtain ⟨e0, e1⟩ := idx9 t
  rw [← V_main_arg9 m c]
  funext y
  show V m c main_arg9 (((cfg0.win 9).blk t).view.emb y) = V m c main_arg9 y
  refine congrArg _ ?_
  funext a; apply Fin.ext
  match a with
  | ⟨0, _⟩ => show win0_9.index t (0 : Fin 2) * 128 + 1 * (y 0).val = (y 0).val; omega
  | ⟨1, _⟩ => show win0_9.index t (1 : Fin 2) * 128 + 1 * (y 1).val = (y 1).val; omega

theorem idx10 : ∀ t : Fin cfg0.N, win0_10.index t (0 : Fin 2) = 0 ∧ win0_10.index t (1 : Fin 2) = 0 :=
  (by decide +kernel : ∀ t : Fin grid0.N, _)

/-- Window 10's block is its whole array at every point. -/
theorem iblk10 (c : Dev nD) (t : Fin cfg0.N) : (iblk m c 10 t : S1x128.Idx → EReal) = m ((c : Thread nD τ).loc main_arg10) := by
  obtain ⟨e0, e1⟩ := idx10 t
  rw [← V_main_arg10 m c]
  funext y
  show V m c main_arg10 (((cfg0.win 10).blk t).view.emb y) = V m c main_arg10 y
  refine congrArg _ ?_
  funext a; apply Fin.ext
  match a with
  | ⟨0, _⟩ => show win0_10.index t (0 : Fin 2) * 1 + 1 * (y 0).val = (y 0).val; omega
  | ⟨1, _⟩ => show win0_10.index t (1 : Fin 2) * 128 + 1 * (y 1).val = (y 1).val; omega

/-! ## The three whole-array functions -/

/-- The embedding in the kernel's pixel-major layout (49, 160, 1024). -/
def G11 (c : Dev nD) : S49x160x1024.Idx → EReal := fun i =>
  embArr (X3 m c) (m ((c : Thread nD τ).loc main_arg1)) (m ((c : Thread nD τ).loc main_arg2)) (ix3 (i 1) (i 2) (i 0))

/-- The metric head. -/
def G12 (c : Dev nD) : S160x128.Idx → EReal :=
  metricArr (X3 m c) (m ((c : Thread nD τ).loc main_arg1)) (m ((c : Thread nD τ).loc main_arg2))
    (m ((c : Thread nD τ).loc main_arg3)) (m ((c : Thread nD τ).loc main_arg4))

/-- The cluster head. -/
def G13 (c : Dev nD) : S160x128.Idx → EReal :=
  clusterArr (X3 m c) (m ((c : Thread nD τ).loc main_arg1)) (m ((c : Thread nD τ).loc main_arg2))
    (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))

/-! ## What a point computes, as entries of the whole-array functions -/

/-- The tile's rows of pixels × channels are rows of the flattened input. -/
theorem tileRow (c : Dev nD) (t : Fin cfg0.N) (bl : Fin 16) :
    (fun (p : Fin 49) (k : Fin 512) => iblk m c 0 t (ix3 p bl k))
      = pixRow (X3 m c) (⟨t.val * 16 + bl.val, row_lt t bl⟩ : Fin 160) :=
  funext fun p => funext fun k => iblk0_apply m c t p bl k

theorem tile_metric (c : Dev nD) (t : Fin cfg0.N) (bl : Fin 16) (j : Fin 128) :
    k0_pay4 (iblk m c 0 t) (iblk m c 1 t) (iblk m c 2 t) (iblk m c 3 t) (iblk m c 4 t) (ix2 bl j)
      = G12 m c (ix2 (⟨t.val * 16 + bl.val, row_lt t bl⟩ : Fin 160) j) := by
  refine (pay4_apply _ _ _ _ _ bl j).trans ?_
  rw [tileRow m c t bl, iblk1 m c t, iblk2 m c t, iblk3 m c t, iblk4 m c t]
  rfl

theorem tile_cluster (c : Dev nD) (t : Fin cfg0.N) (bl : Fin 16) (n : Fin 128) :
    k0_pay1 (k0_pay4 (iblk m c 0 t) (iblk m c 1 t) (iblk m c 2 t) (iblk m c 3 t) (iblk m c 4 t)) (iblk m c 5 t)
        (iblk m c 8 t) (iblk m c 6 t) (iblk m c 7 t) (iblk m c 9 t) (iblk m c 10 t) (ix2 bl n)
      = G13 m c (ix2 (⟨t.val * 16 + bl.val, row_lt t bl⟩ : Fin 160) n) := by
  refine (pay1_apply _ _ _ _ _ _ _ bl n).trans ?_
  rw [iblk5 m c t, iblk6 m c t, iblk7 m c t, iblk8 m c t, iblk9 m c t, iblk10 m c t,
    show (fun j => k0_pay4 (iblk m c 0 t) (iblk m c 1 t) (iblk m c 2 t) (iblk m c 3 t) (iblk m c 4 t) (ix2 bl j))
      = fun j => G12 m c (ix2 (⟨t.val * 16 + bl.val, row_lt t bl⟩ : Fin 160) j) from
      funext fun j => tile_metric m c t bl j]
  rfl

theorem tile_emb (c : Dev nD) (t : Fin cfg0.N) (p : Fin 49) (bl : Fin 16) (cc : Fin 1024) :
    k0_pay3 (iblk m c 0 t) (iblk m c 1 t) (iblk m c 2 t) (ix3 p bl cc)
      = G11 m c (ix3 p (⟨t.val * 16 + bl.val, row_lt t bl⟩ : Fin 160) cc) := by
  refine (pay3_apply _ _ _ p bl cc).trans ?_
  rw [iblk1 m c t, iblk2 m c t,
    show (fun k => iblk m c 0 t (ix3 p bl k)) = fun k => X3 m c (ix3 (⟨t.val * 16 + bl.val, row_lt t bl⟩ : Fin 160) k p)
      from funext fun k => iblk0_apply m c t p bl k]
  rfl

/-! ## The write-backs are blocks of the whole-array functions -/

theorem flushed12 (c : Dev nD) (t : Fin cfg0.N) :
    (dats m 0 c).flushed 12 t = ((cfg0.win 12).blk t).view.read (Elt Ideal) (G12 m c) := by
  show (cfg0.win 12).cut (grid0.coords t) ((dats m 0 c).after 12 t) = _
  rw [after0_12]
  unfold out0_12
  rw [View.canon_unit_zero hz2]
  simp only [View.ld_unit_zero (S := S49x16x512) hz3, View.ld_unit_zero (S := S512x1024) hz2,
    View.ld_unit_zero (S := S1x1024) hz2, View.ld_unit_zero (S := S1024x128) hz2, View.ld_unit_zero (S := S1x128) hz2]
  obtain ⟨e0, e1⟩ := idx12 t
  funext y
  obtain ⟨bl, j, rfl⟩ : ∃ (bl : Fin 16) (j : Fin 128), y = ix2 bl j := ⟨y 0, y 1, eq_ix2 y⟩
  refine (tile_metric m c t bl j).trans ?_
  show G12 m c _ = G12 m c (((cfg0.win 12).blk t).view.emb (ix2 bl j))
  refine congrArg _ ?_
  funext a; apply Fin.ext
  match a with
  | ⟨0, _⟩ => show t.val * 16 + bl.val = win0_12.index t (0 : Fin 2) * 16 + 1 * bl.val; omega
  | ⟨1, _⟩ => show j.val = win0_12.index t (1 : Fin 2) * 128 + 1 * j.val; omega

theorem flushed13 (c : Dev nD) (t : Fin cfg0.N) :
    (dats m 0 c).flushed 13 t = ((cfg0.win 13).blk t).view.read (Elt Ideal) (G13 m c) := by
  show (cfg0.win 13).cut (grid0.coords t) ((dats m 0 c).after 13 t) = _
  rw [after0_13]
  unfold out0_13
  rw [View.canon_unit_zero hz2]
  simp only [View.ld_unit_zero (S := S49x16x512) hz3, View.ld_unit_zero (S := S512x1024) hz2,
    View.ld_unit_zero (S := S1x1024) hz2, View.ld_unit_zero (S := S1024x128) hz2, View.ld_unit_zero (S := S1x128) hz2,
    View.ld_unit_zero (S := S128x128) hz2]
  obtain ⟨e0, e1⟩ := idx13 t
  funext y
  obtain ⟨bl, n, rfl⟩ : ∃ (bl : Fin 16) (n : Fin 128), y = ix2 bl n := ⟨y 0, y 1, eq_ix2 y⟩
  refine (tile_cluster m c t bl n).trans ?_
  show G13 m c _ = G13 m c (((cfg0.win 13).blk t).view.emb (ix2 bl n))
  refine congrArg _ ?_
  funext a; apply Fin.ext
  match a with
  | ⟨0, _⟩ => show t.val * 16 + bl.val = win0_13.index t (0 : Fin 2) * 16 + 1 * bl.val; omega
  | ⟨1, _⟩ => show n.val = win0_13.index t (1 : Fin 2) * 128 + 1 * n.val; omega

theorem flushed11 (c : Dev nD) (t : Fin cfg0.N) :
    (dats m 0 c).flushed 11 t = ((cfg0.win 11).blk t).view.read (Elt Ideal) (G11 m c) := by
  show (cfg0.win 11).cut (grid0.coords t) ((dats m 0 c).after 11 t) = _
  rw [after0_11]
  unfold out0_11
  rw [View.canon_unit_zero hz3]
  simp only [View.ld_unit_zero (S := S49x16x512) hz3, View.ld_unit_zero (S := S512x1024) hz2,
    View.ld_unit_zero (S := S1x1024) hz2]
  obtain ⟨e0, e1, e2⟩ := idx11 t
  funext y
  obtain ⟨p, bl, cc, rfl⟩ : ∃ (p : Fin 49) (bl : Fin 16) (cc : Fin 1024), y = ix3 p bl cc := ⟨y 0, y 1, y 2, eq_ix3 y⟩
  refine (tile_emb m c t p bl cc).trans ?_
  show G11 m c _ = G11 m c (((cfg0.win 11).blk t).view.emb (ix3 p bl cc))
  refine congrArg _ ?_
  funext a; apply Fin.ext
  match a with
  | ⟨0, _⟩ => show p.val = win0_11.index t (0 : Fin 3) * 49 + 1 * p.val; omega
  | ⟨1, _⟩ => show t.val * 16 + bl.val = win0_11.index t (1 : Fin 3) * 16 + 1 * bl.val; omega
  | ⟨2, _⟩ => show cc.val = win0_11.index t (2 : Fin 3) * 1024 + 1 * cc.val; omega

/-! ## The blocks cover the arrays -/

theorem mem_blk12 (t : Fin cfg0.N) (i : S160x128.Idx) :
    i ∈ ((cfg0.win 12).blk t).view.set ↔ ∀ a : Fin 2, win0_12.index t a * S16x128.size a ≤ (i a).val
      ∧ (i a).val < win0_12.index t a * S16x128.size a + S16x128.size a := by
  show i ∈ ((View.whole main_v2_1).slice (win0_12.rect t)).set ↔ _
  rw [View.set_slice_whole, Rect.mem_set_unit]
  exact Iff.rfl

theorem mem_blk13 (t : Fin cfg0.N) (i : S160x128.Idx) :
    i ∈ ((cfg0.win 13).blk t).view.set ↔ ∀ a : Fin 2, win0_13.index t a * S16x128.size a ≤ (i a).val
      ∧ (i a).val < win0_13.index t a * S16x128.size a + S16x128.size a := by
  show i ∈ ((View.whole main_v2_2).slice (win0_13.rect t)).set ↔ _
  rw [View.set_slice_whole, Rect.mem_set_unit]
  exact Iff.rfl

theorem mem_blk11 (t : Fin cfg0.N) (i : S49x160x1024.Idx) :
    i ∈ ((cfg0.win 11).blk t).view.set ↔ ∀ a : Fin 3, win0_11.index t a * S49x16x1024.size a ≤ (i a).val
      ∧ (i a).val < win0_11.index t a * S49x16x1024.size a + S49x16x1024.size a := by
  show i ∈ ((View.whole main_v2_0).slice (win0_11.rect t)).set ↔ _
  rw [View.set_slice_whole, Rect.mem_set_unit]
  exact Iff.rfl

theorem cover12 (i : S160x128.Idx) :
    ∃ t : Fin cfg0.N, (cfg0.win 12).flush t = true ∧ i ∈ ((cfg0.win 12).blk t).view.set := by
  have hi0 : (i 0).val < 160 := (i 0).isLt
  have hi1 : (i 1).val < 128 := (i 1).isLt
  have ht : (i 0).val / 16 < 10 := by omega
  obtain ⟨e0, e1⟩ := idx12 ⟨(i 0).val / 16, ht⟩
  refine ⟨⟨(i 0).val / 16, ht⟩, flush0_12 _, ?_⟩
  rw [mem_blk12]
  intro a
  match a with
  | ⟨0, _⟩ =>
    show win0_12.index ⟨(i 0).val / 16, ht⟩ (0 : Fin 2) * 16 ≤ (i 0).val
      ∧ (i 0).val < win0_12.index ⟨(i 0).val / 16, ht⟩ (0 : Fin 2) * 16 + 16
    rw [e0]; show (i 0).val / 16 * 16 ≤ (i 0).val ∧ (i 0).val < (i 0).val / 16 * 16 + 16; omega
  | ⟨1, _⟩ =>
    show win0_12.index ⟨(i 0).val / 16, ht⟩ (1 : Fin 2) * 128 ≤ (i 1).val
      ∧ (i 1).val < win0_12.index ⟨(i 0).val / 16, ht⟩ (1 : Fin 2) * 128 + 128
    rw [e1]; omega

theorem cover13 (i : S160x128.Idx) :
    ∃ t : Fin cfg0.N, (cfg0.win 13).flush t = true ∧ i ∈ ((cfg0.win 13).blk t).view.set := by
  have hi0 : (i 0).val < 160 := (i 0).isLt
  have hi1 : (i 1).val < 128 := (i 1).isLt
  have ht : (i 0).val / 16 < 10 := by omega
  obtain ⟨e0, e1⟩ := idx13 ⟨(i 0).val / 16, ht⟩
  refine ⟨⟨(i 0).val / 16, ht⟩, flush0_13 _, ?_⟩
  rw [mem_blk13]
  intro a
  match a with
  | ⟨0, _⟩ =>
    show win0_13.index ⟨(i 0).val / 16, ht⟩ (0 : Fin 2) * 16 ≤ (i 0).val
      ∧ (i 0).val < win0_13.index ⟨(i 0).val / 16, ht⟩ (0 : Fin 2) * 16 + 16
    rw [e0]; show (i 0).val / 16 * 16 ≤ (i 0).val ∧ (i 0).val < (i 0).val / 16 * 16 + 16; omega
  | ⟨1, _⟩ =>
    show win0_13.index ⟨(i 0).val / 16, ht⟩ (1 : Fin 2) * 128 ≤ (i 1).val
      ∧ (i 1).val < win0_13.index ⟨(i 0).val / 16, ht⟩ (1 : Fin 2) * 128 + 128
    rw [e1]; omega

theorem cover11 (i : S49x160x1024.Idx) :
    ∃ t : Fin cfg0.N, (cfg0.win 11).flush t = true ∧ i ∈ ((cfg0.win 11).blk t).view.set := by
  have hi0 : (i 0).val < 49 := (i 0).isLt
  have hi1 : (i 1).val < 160 := (i 1).isLt
  have hi2 : (i 2).val < 1024 := (i 2).isLt
  have ht : (i 1).val / 16 < 10 := by omega
  obtain ⟨e0, e1, e2⟩ := idx11 ⟨(i 1).val / 16, ht⟩
  refine ⟨⟨(i 1).val / 16, ht⟩, flush0_11 _, ?_⟩
  rw [mem_blk11]
  intro a
  match a with
  | ⟨0, _⟩ =>
    show win0_11.index ⟨(i 1).val / 16, ht⟩ (0 : Fin 3) * 49 ≤ (i 0).val
      ∧ (i 0).val < win0_11.index ⟨(i 1).val / 16, ht⟩ (0 : Fin 3) * 49 + 49
    rw [e0]; omega
  | ⟨1, _⟩ =>
    show win0_11.index ⟨(i 1).val / 16, ht⟩ (1 : Fin 3) * 16 ≤ (i 1).val
      ∧ (i 1).val < win0_11.index ⟨(i 1).val / 16, ht⟩ (1 : Fin 3) * 16 + 16
    rw [e1]; show (i 1).val / 16 * 16 ≤ (i 1).val ∧ (i 1).val < (i 1).val / 16 * 16 + 16; omega
  | ⟨2, _⟩ =>
    show win0_11.index ⟨(i 1).val / 16, ht⟩ (2 : Fin 3) * 1024 ≤ (i 2).val
      ∧ (i 2).val < win0_11.index ⟨(i 1).val / 16, ht⟩ (2 : Fin 3) * 1024 + 1024
    rw [e2]; omega

/-! ## The arrays after the run -/

theorem final11 (c : Dev nD) : (dats m 0 c).arrAt 11 cfg0.N = G11 m c :=
  (dats m 0 c).arrAt_eq_of_cover 11 (G11 m c) (fun t _ => flushed11 m c t) cover11

theorem final12 (c : Dev nD) : (dats m 0 c).arrAt 12 cfg0.N = G12 m c :=
  (dats m 0 c).arrAt_eq_of_cover 12 (G12 m c) (fun t _ => flushed12 m c t) cover12

theorem final13 (c : Dev nD) : (dats m 0 c).arrAt 13 cfg0.N = G13 m c :=
  (dats m 0 c).arrAt_eq_of_cover 13 (G13 m c) (fun t _ => flushed13 m c t) cover13

end Cert.DualHead.KernelArrays

end
-- ==== Proof.KernelRun.lean ====
/-
  The tiled kernel's program, run: its three results as whole-array functions of the arguments, and the arguments
  unchanged. The two heads are the call's second and third results. The embedding is the call's first result in the
  pixel-major layout (49, 160, 1024); the lines after the call permute it to (160, 1024, 49) — entry (b, c, p) is the
  pixel-major entry (p, b, c) — and split the pixel axis into 7 × 7.
-/
import proofs.«141857_g2000002382505771_pallasbulk_556_21_alg».proof.Proof.KernelArrays

set_option maxRecDepth 16384

noncomputable section

namespace Cert.DualHead.KernelRun

open Idealize.ShloMosaic Idealize.ShloMosaic.TcCoe Idealize.ShloMosaic.Tactic Idealize.SL.Sem Idealize.ShloMosaic.ValueIdx
open Cert.KernelIdeal Cert.KernelIdeal.Gen Cert.DualHead Cert.DualHead.KernelArrays

variable (m : (ℓ : Loc nD τ sig) → Buf (Elt Ideal) ℓ) (ρ : Dev nD → PrngReg)

/-- The embedding (160, 1024, 49) of the specification, at this program's arguments. -/
def E3 (c : Dev nD) : S160x1024x49.Idx → EReal :=
  embArr (X3 m c) (m ((c : Thread nD τ).loc main_arg1)) (m ((c : Thread nD τ).loc main_arg2))

/-- The pixel-major embedding with its axes permuted is the specification's embedding. -/
theorem transpose_G11 (c : Dev nD) :
    transpose S160x1024x49 [1, 2, 0] (G11 m c) transposes_S49x160x1024_S160x1024x49_1_2_0 = E3 m c := by
  funext i
  obtain ⟨b, cc, p, rfl⟩ : ∃ (b : Fin 160) (cc : Fin 1024) (p : Fin 49), i = ix3 b cc p := ⟨i 0, i 1, i 2, eq_ix3 i⟩
  refine (transpose_apply _ _ _ _ (ix3 p b cc) (fun a => by
    match a with
    | ⟨0, _⟩ => rfl
    | ⟨1, _⟩ => rfl
    | ⟨2, _⟩ => rfl)).trans ?_
  rfl

/-- The last result after the lines that follow the call. -/
theorem tail_v4 (c : Dev nD) :
    Pipeline.afterTail₀ cfgs (dats m) 0 (V0 m) [hostOps1] c main_v4
      = shapeCast S160x1024x7x7 (E3 m c) shapeCasts_S160x1024x49_S160x1024x7x7 := by
  rw [← transpose_G11 m c]
  have e : Pipeline.withArrays (cfgs 0).spec c (V0 m c) (fun w => (dats m 0 c).arrAt w (cfgs 0).N)
      (Proc.tc.devRef main_v2_0) = G11 m c :=
    (Pipeline.withArrays_arr spec0 launch0.win.arr_inj c _ _ 11).trans (final11 m c)
  unfold Pipeline.afterTail₀
  show StableHlo.after hostOps1 _ (Proc.devRef .tc main_v4) = _
  after_results
  rw [e]
  rfl

/-- The run: the three results and the unchanged arguments. -/
theorem run : θ_run defs (onTc (τ := τ) (main (F := Ideal))) ⟨m, fun _ => 0, ρ⟩ fun r => ∀ c : Dev nD,
      r.2.mem ((c.tc : Thread nD τ).loc main_v2_1) = G12 m c
      ∧ r.2.mem ((c.tc : Thread nD τ).loc main_v2_2) = G13 m c
      ∧ r.2.mem ((c.tc : Thread nD τ).loc main_v4) = shapeCast S160x1024x7x7 (E3 m c) shapeCasts_S160x1024x49_S160x1024x7x7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨((h c).1 12).trans (final12 m c), ((h c).1 13).trans (final13 m c),
      ((h c).2 main_v4 (Pipeline.mem_restRefs_of main_v4 (by decide) (by decide))).trans (tail_v4 m c),
      (((h c).2 main_arg0 (Pipeline.mem_restRefs_of main_arg0 (by decide) (by decide))).trans (W_main_arg0 m (dats m) c)),
      ((h c).1 1).trans ((((dats m) 0 c).arrAt_in 1 rfl _).trans ((A_eq m c 1).trans (V_main_arg1 m c))),
      ((h c).1 2).trans ((((dats m) 0 c).arrAt_in 2 rfl _).trans ((A_eq m c 2).trans (V_main_arg2 m c))),
      ((h c).1 3).trans ((((dats m) 0 c).arrAt_in 3 rfl _).trans ((A_eq m c 3).trans (V_main_arg3 m c))),
      ((h c).1 4).trans ((((dats m) 0 c).arrAt_in 4 rfl _).trans ((A_eq m c 4).trans (V_main_arg4 m c))),
      ((h c).1 5).trans ((((dats m) 0 c).arrAt_in 5 rfl _).trans ((A_eq m c 5).trans (V_main_arg5 m c))),
      ((h c).1 6).trans ((((dats m) 0 c).arrAt_in 6 rfl _).trans ((A_eq m c 6).trans (V_main_arg6 m c))),
      ((h c).1 7).trans ((((dats m) 0 c).arrAt_in 7 rfl _).trans ((A_eq m c 7).trans (V_main_arg7 m c))),
      ((h c).1 8).trans ((((dats m) 0 c).arrAt_in 8 rfl _).trans ((A_eq m c 8).trans (V_main_arg8 m c))),
      ((h c).1 9).trans ((((dats m) 0 c).arrAt_in 9 rfl _).trans ((A_eq m c 9).trans (V_main_arg9 m c))),
      ((h c).1 10).trans ((((dats m) 0 c).arrAt_in 10 rfl _).trans ((A_eq m c 10).trans (V_main_arg10 m c)))⟩)
    (run_main m ρ)

end Cert.DualHead.KernelRun

end
-- ==== Proof.RefBody.lean ====
/-
  What the reference kernel's body computes, read at an index, from the blocks it loads.
  * For each batch row b (a literal 0 … 159 in the body) the slab x[b] (49 × 512) times the weight block plus the bias
    block, stored as the b-th slab of the (160, 49, 256) output block: entry (0, r, q) of the stored piece is
    x(b, r, ·) · W + B at q.
  * The head: the pixel mean as a quotient by 49, the folded metric row, the folded cluster row, each for all 160 rows
    at once; the packed output's two halves are those two arrays with a unit leading axis.
-/
import proofs.«141857_g2000002382505771_pallasbulk_556_21_alg».proof.Proof.Gen.ReferenceIdeal.Skeleton
import proofs.«141857_g2000002382505771_pallasbulk_556_21_alg».proof.Proof.BodyForms
import proofs.«141857_g2000002382505771_pallasbulk_556_21_alg».proof.Proof.LibAxisReads

noncomputable section

namespace Cert.DualHead.RefBody

open Idealize.ShloMosaic Idealize.ShloMosaic.ValueIdx Cert.ReferenceIdeal Cert.ReferenceIdeal.Gen
open Cert.Lib.BlockReads Cert.Lib.RowReductions Cert.Lib.AxisReads Cert.DualHead

set_option maxHeartbeats 1000000 in
/-- One batch slab's product, at (0, r, q) of the stored piece. -/
theorem slab_apply (b : Nat) (hb : b < 160) (X : FVec Ideal S160x49x512 .f32) (W : FVec Ideal S512x256 .f32)
    (B : FVec Ideal S1x256 .f32) (hs : S160x49x512.Slices ![b, 0, 0] S1x49x512) (h2 : S1x49x512.ShapeCasts S49x512)
    (h3 : S1x256.Broadcasts S49x256) (h4 : S49x256.ShapeCasts S1x49x256) (r : Fin 49) (q : Fin 256) :
    shapeCast S1x49x256 (addf (matmul dot_S49x512_S512x256_S49x256_1_0_0_1_n_n none
        (shapeCast S49x512 (extractStridedSlice S1x49x512 ![b, 0, 0] X hs) h2) W (constant S49x256 .f32 0x00000000#32))
      (broadcastTo S49x256 B h3)) h4 (ix3 (0 : Fin 1) r q)
      = affine (fun k => X (ix3 (⟨b, hb⟩ : Fin 160) r k)) (mat W) (row B) q := by
  refine (shapeCast_apply _ _ (ix3 (0 : Fin 1) r q) (ix2 r q) ?_).trans ?_
  · rw [Shape.rowMajor_val_two, Shape.rowMajor_val_three]
    show r.val * 256 + q.val = (0 * 49 + r.val) * 256 + q.val
    rw [Nat.zero_mul, Nat.zero_add]
  refine (affine_body dot_S49x512_S512x256_S49x256_1_0_0_1_n_n rfl rfl rfl rfl rfl rfl none _ _ B _ r q).trans ?_
  refine affine_congr (funext fun k => ?_) _ _ q
  refine (shapeCast_apply _ h2 (ix2 r k) (ix3 (0 : Fin 1) r k) ?_).trans ?_
  · rw [Shape.rowMajor_val_two, Shape.rowMajor_val_three]
    show (0 * 49 + r.val) * 512 + k.val = r.val * 512 + k.val
    rw [Nat.zero_mul, Nat.zero_add]
  refine extractStridedSlice_apply _ X hs (ix3 (0 : Fin 1) r k) (ix3 (⟨b, hb⟩ : Fin 160) r k) (fun a => ?_)
  match a with
  | ⟨0, _⟩ => show b = b + 0; rfl
  | ⟨1, _⟩ => show r.val = 0 + r.val; rw [Nat.zero_add]
  | ⟨2, _⟩ => show k.val = 0 + k.val; rw [Nat.zero_add]

set_option maxHeartbeats 400000 in
/-- The pixel mean, at (b, k). -/
theorem pay194_apply (v1 : FVec Ideal S160x49x512 .f32) (b : Fin 160) (k : Fin 512) :
    k0_pay194 v1 (ix2 b k) = meanDiv (fun p k => v1 (ix3 b p k)) k := by
  unfold k0_pay194
  dsimp only
  exact mean_div_body v1 _ _ _ _ _ b k

set_option maxHeartbeats 400000 in
/-- The folded metric, at (b, j), from the mean array and the folded weights. -/
theorem pay195_apply (mean : FVec Ideal S160x512 .f32) (Wfe : Vec Ideal S512x128 .f32) (bfe : Vec Ideal S1x128 .f32)
    (b : Fin 160) (j : Fin 128) :
    k0_pay195 mean Wfe bfe (ix2 b j) = l2n (affine (fun k => mean (ix2 b k)) (mat Wfe) (row bfe)) j := by
  unfold k0_pay195
  dsimp only
  refine (l2n_body _ _ _ _ _ _ b j).trans ?_
  refine l2n_congr (funext fun j' => ?_) j
  refine (affine_body dot_S160x512_S512x128_S160x128_1_0_0_1_n_n rfl rfl rfl rfl rfl rfl none _ _ _ _ b j').trans ?_
  rw [shapeCast_self, shapeCast_self]

set_option maxHeartbeats 400000 in
/-- The folded cluster, at (b, n), over the folded metric. -/
theorem pay196_apply (mean : FVec Ideal S160x512 .f32) (Wfe : Vec Ideal S512x128 .f32) (bfe : Vec Ideal S1x128 .f32)
    (Wce : Vec Ideal S128x128 .f32) (bce : Vec Ideal S1x128 .f32) (b : Fin 160) (n : Fin 128) :
    k0_pay196 mean Wfe bfe Wce bce (ix2 b n)
      = l2n (affine (fun j => k0_pay195 mean Wfe bfe (ix2 b j)) (mat Wce) (row bce)) n := by
  unfold k0_pay196
  dsimp only
  refine (l2n_body _ _ _ _ _ _ b n).trans ?_
  refine l2n_congr (funext fun n' => ?_) n
  refine (affine_body dot_S160x128_S128x128_S160x128_1_0_0_1_n_n rfl rfl rfl rfl rfl rfl none _ _ _ _ b n').trans ?_
  rw [shapeCast_self, shapeCast_self]

/-- A 160×128 array given a unit leading axis reads its entry (b, q) at (0, b, q). -/
theorem lead_apply (v : FVec Ideal S160x128 .f32) (h : S160x128.ShapeCasts S1x160x128) (b : Fin 160) (q : Fin 128) :
    shapeCast S1x160x128 v h (ix3 (0 : Fin 1) b q) = v (ix2 b q) := by
  refine shapeCast_apply v h _ _ ?_
  rw [Shape.rowMajor_val_two, Shape.rowMajor_val_three]
  show b.val * 128 + q.val = (0 * 160 + b.val) * 128 + q.val
  rw [Nat.zero_mul, Nat.zero_add]

/-- The metric row of batch row b of the loaded input, from the folded weights. -/
theorem head_metric (x0 : Vec Ideal S160x49x512 .f32) (Wfe : Vec Ideal S512x128 .f32) (bfe : Vec Ideal S1x128 .f32)
    (b : Fin 160) (j : Fin 128) :
    k0_pay195 (k0_pay194 (k0_pay2 x0)) Wfe bfe (ix2 b j)
      = l2n (affine (meanDiv (fun p k => x0 (ix3 b p k))) (mat Wfe) (row bfe)) j := by
  refine (pay195_apply _ Wfe bfe b j).trans ?_
  refine l2n_congr (congrArg (fun a => affine a (mat Wfe) (row bfe)) (funext fun k => ?_)) j
  refine (pay194_apply _ b k).trans ?_
  unfold k0_pay2
  rw [shapeCast_self]

end Cert.DualHead.RefBody

end
-- ==== Proof.RefEntry.lean ====
/-
  The arrays the reference's kernel call finds, after the host lines before it: the batch-major view (160, 49, 512) of
  the flattened input; the folded weights Wb·Wf and bb·Wf + bf; the normalisation folded into the cluster weights,
  Wc ⊙ s by rows, and into its bias, bc + (β − μ ⊙ s)·Wc, with s = γ/√(var + ε'). Each read at an index in the form
  the folded heads of the specification use.
-/
import proofs.«141857_g2000002382505771_pallasbulk_556_21_alg».proof.Proof.Gen.ReferenceIdeal.Frame
import proofs.«141857_g2000002382505771_pallasbulk_556_21_alg».proof.Proof.BodyForms
import Idealize.ShloMosaic.Lib.Pipeline.Value
import Idealize.ShloMosaic.Lib.StableHlo.Run

set_option maxRecDepth 16384

noncomputable section

namespace Cert.DualHead.RefEntry

open Idealize.ShloMosaic Idealize.ShloMosaic.TcCoe Idealize.ShloMosaic.Tactic Idealize.SL.Sem Idealize.ShloMosaic.ValueIdx
open Cert.ReferenceIdeal Cert.ReferenceIdeal.Gen Cert.DualHead Cert.Lib.RowReductions

variable (m : (ℓ : Loc nD τ sig) → Buf (Elt Ideal) ℓ)

/-- The argument arrays, at their array types. -/
abbrev A1 (c : Dev nD) : FVec Ideal S512x1024 .f32 := m ((c : Thread nD τ).loc main_arg1)
abbrev A2 (c : Dev nD) : FVec Ideal S1x1024 .f32 := m ((c : Thread nD τ).loc main_arg2)
abbrev A3 (c : Dev nD) : FVec Ideal S1024x128 .f32 := m ((c : Thread nD τ).loc main_arg3)
abbrev A4 (c : Dev nD) : FVec Ideal S1x128 .f32 := m ((c : Thread nD τ).loc main_arg4)
abbrev A5 (c : Dev nD) : FVec Ideal S1x128 .f32 := m ((c : Thread nD τ).loc main_arg5)
abbrev A6 (c : Dev nD) : FVec Ideal S1x128 .f32 := m ((c : Thread nD τ).loc main_arg6)
abbrev A7 (c : Dev nD) : FVec Ideal S1x128 .f32 := m ((c : Thread nD τ).loc main_arg7)
abbrev A8 (c : Dev nD) : FVec Ideal S1x128 .f32 := m ((c : Thread nD τ).loc main_arg8)
abbrev A9 (c : Dev nD) : FVec Ideal S128x128 .f32 := m ((c : Thread nD τ).loc main_arg9)
abbrev A10 (c : Dev nD) : FVec Ideal S1x128 .f32 := m ((c : Thread nD τ).loc main_arg10)

/-- The input with its spatial axes flattened: (160, 512, 49). -/
def X3 (c : Dev nD) : S160x512x49.Idx → EReal :=
  shapeCast S160x512x49 (m ((c : Thread nD τ).loc main_arg0)) shapeCasts_S160x512x7x7_S160x512x49

/-- The per-column scale of the normalisation, as the host computes it (a 1×128 row). -/
def scaleRow (c : Dev nD) : FVec Ideal S1x128 .f32 :=
  mulf (A5 m c)
    (Host.rsqrt (addf (A8 m c)
      (broadcastInDim S1x128 ![] bcast_S_S1x128 (constant (F := Ideal) S_ .f32 0x3727C5AC#32))))

theorem V_v1 (c : Dev nD) : (V m c main_v1 : S160x49x512.Idx → EReal)
    = transpose S160x49x512 [0, 2, 1] (X3 m c) transposes_S160x512x49_S160x49x512_0_2_1 := by
  show StableHlo.after hostOps0 (fun b => m (c, b)) (Proc.devRef .tc main_v1) = _
  after_results
  all_goals rfl

theorem V_v2 (c : Dev nD) : @Eq (FVec Ideal S512x128 .f32) (V m c main_v2)
    <| Host.dotGeneral dot_S512x1024_S1024x128_S512x128_1_0_0_1_n_n (some .fp32)
        (A1 m c) (A3 m c) := by
  show StableHlo.after hostOps0 (fun b => m (c, b)) (Proc.devRef .tc main_v2) = _
  after_results
  all_goals rfl

theorem V_v4 (c : Dev nD) : @Eq (FVec Ideal S1x128 .f32) (V m c main_v4)
    <| addf (Host.dotGeneral dot_S1x1024_S1024x128_S1x128_1_0_0_1_n_n (some .fp32)
        (A2 m c) (A3 m c))
        (A4 m c) := by
  show StableHlo.after hostOps0 (fun b => m (c, b)) (Proc.devRef .tc main_v4) = _
  after_results
  all_goals rfl

set_option maxHeartbeats 1000000 in
theorem V_v11 (c : Dev nD) : @Eq (FVec Ideal S128x128 .f32) (V m c main_v11)
    <| mulf (A9 m c)
        (broadcastInDim S128x128 ![0, 1] bcast_S128x1_S128x128_0_1
          (shapeCast S128x1 (scaleRow m c) shapeCasts_S1x128_S128x1)) := by
  unfold scaleRow
  show StableHlo.after hostOps0 (fun b => m (c, b)) (Proc.devRef .tc main_v11) = _
  after_results
  all_goals rfl

set_option maxHeartbeats 1000000 in
theorem V_v15 (c : Dev nD) : @Eq (FVec Ideal S1x128 .f32) (V m c main_v15)
    <| addf (A10 m c)
        (Host.dotGeneral dot_S1x128_S128x128_S1x128_1_0_0_1_n_n (some .fp32)
          (subf (A6 m c) (mulf (A7 m c) (scaleRow m c)))
          (A9 m c)) := by
  unfold scaleRow
  show StableHlo.after hostOps0 (fun b => m (c, b)) (Proc.devRef .tc main_v15) = _
  after_results
  all_goals rfl

/-! ## Read at an index -/

theorem V_v1_apply (c : Dev nD) (b : Fin 160) (p : Fin 49) (k : Fin 512) :
    V m c main_v1 (ix3 b p k) = X3 m c (ix3 b k p) := by
  refine (congrFun (V_v1 m c) _).trans ?_
  exact transpose_apply _ _ _ _ (ix3 b k p) (fun a => by
    match a with
    | ⟨0, _⟩ => rfl
    | ⟨1, _⟩ => rfl
    | ⟨2, _⟩ => rfl)

/-- The scale row's entry j is γ(j)/√(var(j) + ε'). -/
theorem scaleRow_apply (c : Dev nD) (j : Fin 128) :
    scaleRow m c (ix2 0 j) = bnScale (row (A5 m c)) (row (A8 m c)) j := by
  show A5 m c (ix2 0 j)
      * Ideal.rsqrt (A8 m c (ix2 0 j)
        + broadcastInDim S1x128 ![] bcast_S_S1x128 (constant (F := Ideal) S_ .f32 0x3727C5AC#32) (ix2 0 j)) = _
  rw [bcastInDim_scalar_apply]
  rfl

theorem Wfe_apply (c : Dev nD) (k : Fin 512) (j : Fin 128) :
    V m c main_v2 (ix2 k j)
      = ∑ cc : Fin 1024, mat (A1 m c) k cc * mat (A3 m c) cc j := by
  refine (congrFun (V_v2 m c) _).trans ?_
  exact host_dot_apply _ rfl rfl rfl rfl rfl rfl _ _ _ k j

theorem bfe_apply (c : Dev nD) (j : Fin 128) :
    V m c main_v4 (ix2 0 j)
      = (∑ cc : Fin 1024, row (A2 m c) cc * mat (A3 m c) cc j)
        + row (A4 m c) j := by
  refine (congrFun (V_v4 m c) _).trans ?_
  show Host.dotGeneral _ _ _ _ (ix2 0 j) + _ = _
  rw [host_dot_apply _ rfl rfl rfl rfl rfl rfl]

theorem Wce_apply (c : Dev nD) (j n : Fin 128) :
    V m c main_v11 (ix2 j n)
      = mat (A9 m c) j n
        * bnScale (row (A5 m c)) (row (A8 m c)) j := by
  refine (congrFun (V_v11 m c) _).trans ?_
  show A9 m c (ix2 j n) * broadcastInDim S128x128 ![0, 1] bcast_S128x1_S128x128_0_1
      (shapeCast S128x1 (scaleRow m c) shapeCasts_S1x128_S128x1) (ix2 j n) = _
  rw [bcastInDim_cols_apply, ← scaleRow_apply m c j]
  refine congrArg _ (shapeCast_apply _ _ _ _ ?_)
  rw [Shape.rowMajor_val_two, Shape.rowMajor_val_two]
  show 0 * 128 + j.val = j.val * 1 + 0
  omega

theorem bce_apply (c : Dev nD) (n : Fin 128) :
    V m c main_v15 (ix2 0 n)
      = row (A10 m c) n
        + ∑ j : Fin 128, (row (A6 m c) j
            - row (A7 m c) j
              * bnScale (row (A5 m c)) (row (A8 m c)) j)
          * mat (A9 m c) j n := by
  refine (congrFun (V_v15 m c) _).trans ?_
  show _ + Host.dotGeneral _ _ _ _ (ix2 0 n) = _
  rw [host_dot_apply _ rfl rfl rfl rfl rfl rfl]
  refine congrArg _ (Finset.sum_congr rfl fun j _ => ?_)
  show (A6 m c (ix2 0 j) - A7 m c (ix2 0 j) * scaleRow m c (ix2 0 j)) * _ = _
  rw [scaleRow_apply]

end Cert.DualHead.RefEntry

end
-- ==== Proof.RefArrays.lean ====
/-
  The reference kernel's two output arrays after its run, as whole-array functions of the argument arrays.
  The grid has 4 points; point t handles embedding columns 256·t … 256·t + 255. The input window's block is the whole
  batch-major view (160, 49, 512) at every point; the weight and bias windows' blocks are columns 256·t … of Wb and
  bb; the folded head weights are whole. The embedding block (160, 49, 256) is written slab by slab, one store per
  batch row: all 160 stored pieces are restrictions of one function of the block index, so the block holds that
  function. The packed head block (1, 160, 256) is zeroed, then its columns 0 … 127 take the metric and 128 … 255 the
  cluster; every point writes the same head, into slab t of (4, 160, 256).
-/
import proofs.«141857_g2000002382505771_pallasbulk_556_21_alg».proof.Proof.Gen.ReferenceIdeal.Frame
import proofs.«141857_g2000002382505771_pallasbulk_556_21_alg».proof.Proof.RefBody
import proofs.«141857_g2000002382505771_pallasbulk_556_21_alg».proof.Proof.RefEntry
import proofs.«141857_g2000002382505771_pallasbulk_556_21_alg».proof.Proof.ArraySpec
import Idealize.ShloMosaic.Lib.Pipeline.Value
import Idealize.ShloMosaic.Lib.WritesUnit

set_option maxRecDepth 16384

noncomputable section

namespace Cert.DualHead.RefArrays

open Idealize.ShloMosaic Idealize.ShloMosaic.TcCoe Idealize.ShloMosaic.Tactic Idealize.SL.Sem Idealize.ShloMosaic.ValueIdx
open Cert.ReferenceIdeal Cert.ReferenceIdeal.Gen Cert.DualHead Cert.DualHead.RefBody Cert.DualHead.RefEntry

theorem hz2 : (![0, 0] : Fin 2 → Nat) = fun _ => 0 := funext fun a => by fin_cases a <;> rfl
theorem hz3 : (![0, 0, 0] : Fin 3 → Nat) = fun _ => 0 := funext fun a => by fin_cases a <;> rfl

/-! ## The embedding block: 160 stored slabs of one function -/

/-- The block's function: entry (b, r, q) is x(b, r, ·) · W + B at q. -/
def slabFun (X : FVec Ideal S160x49x512 .f32) (W : FVec Ideal S512x256 .f32) (B : FVec Ideal S1x256 .f32) :
    S160x49x256.Idx → EReal :=
  fun i => affine (fun k => X (ix3 (i 0) (i 1) k)) (mat W) (row B) (i 2)

set_option maxHeartbeats 1000000 in
/-- The slab stored at batch row b is the block's function under its rectangle. -/
theorem slab_piece (b : Nat) (X : FVec Ideal S160x49x512 .f32) (W : FVec Ideal S512x256 .f32) (B : FVec Ideal S1x256 .f32)
    (inb : ∀ a, (![b, 0, 0] : Fin 3 → Nat) a + (![1, 49, 256] : Fin 3 → Nat) a ≤ S160x49x256.size a)
    (hs : S160x49x512.Slices ![b, 0, 0] S1x49x512) (h2 : S1x49x512.ShapeCasts S49x512)
    (h3 : S1x256.Broadcasts S49x256) (h4 : S49x256.ShapeCasts S1x49x256) (y : S1x49x256.Idx) :
    shapeCast S1x49x256 (addf (matmul dot_S49x512_S512x256_S49x256_1_0_0_1_n_n none
        (shapeCast S49x512 (extractStridedSlice S1x49x512 ![b, 0, 0] X hs) h2) W (constant S49x256 .f32 0x00000000#32))
      (broadcastTo S49x256 B h3)) h4 y
      = slabFun X W B ((Rect.unit (s := S160x49x256) ![b, 0, 0] ![1, 49, 256] inb).emb y) := by
  have hb : b < 160 := by
    have h0 : b + 1 ≤ 160 := inb 0
    omega
  obtain ⟨z, r, q, rfl⟩ : ∃ (z : Fin 1) (r : Fin 49) (q : Fin 256), y = ix3 z r q := ⟨y 0, y 1, y 2, eq_ix3 y⟩
  obtain rfl : z = 0 := Subsingleton.elim _ _
  refine (slab_apply b hb X W B hs h2 h3 h4 r q).trans ?_
  unfold slabFun
  have e0 : (Rect.unit (s := S160x49x256) ![b, 0, 0] ![1, 49, 256] inb).emb (ix3 (0 : Fin 1) r q) 0 = (⟨b, hb⟩ : Fin 160) :=
    Fin.ext (show b + 1 * 0 = b by omega)
  have e1 : (Rect.unit (s := S160x49x256) ![b, 0, 0] ![1, 49, 256] inb).emb (ix3 (0 : Fin 1) r q) 1 = r :=
    Fin.ext (show 0 + 1 * r.val = r.val by omega)
  have e2 : (Rect.unit (s := S160x49x256) ![b, 0, 0] ![1, 49, 256] inb).emb (ix3 (0 : Fin 1) r q) 2 = q :=
    Fin.ext (show 0 + 1 * q.val = q.val by omega)
  rw [e0, e1, e2]

set_option maxHeartbeats 8000000 in
/-- Every piece the run stores into the embedding block is the block's function under its rectangle. -/
theorem pieces7 (c : Dev nD) (i : grid0.Coords) (arg1 : Memref sig .tc .vmem S160x49x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S512x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S160x49x256 .f32) (harg8 : arg8.IsWhole) (arg9 : Memref sig .tc .vmem S1x160x256 .f32) (harg9 : arg9.IsWhole)
    (x0 : Vec Ideal S160x49x512 .f32) (x1 : Vec Ideal S512x256 .f32) (x2 : Vec Ideal S1x256 .f32) (x3 : Vec Ideal S512x128 .f32) (x4 : Vec Ideal S1x128 .f32) (x5 : Vec Ideal S128x128 .f32) (x6 : Vec Ideal S1x128 .f32) :
    ∀ p ∈ (kernelRun0_A (F := Ideal) c i arg1 harg1 arg2 harg2 arg3 harg3 arg4 harg4 arg5 harg5 arg6 harg6 arg7 harg7 arg8 harg8 arg9 harg9 x0 x1 x2 x3 x4 x5 x6).1, ∀ x : p.1.shape.Idx, p.2 x = slabFun (k0_pay2 x0) x1 x2 (p.1.emb x) := by
  unfold kernelRun0_A
  dsimp only
  sl_unfold_words
  simp only [View.readAt_eq_ld, harg1.read_unread, harg2.read_unread, harg3.read_unread,
    View.ld_unit_zero (S := S160x49x512) hz3, View.ld_unit_zero (S := S512x256) hz2, View.ld_unit_zero (S := S1x256) hz2]
  repeat' (first | exact fun _ h => absurd h List.not_mem_nil | refine List.forall_mem_cons.2 ⟨?_, ?_⟩)
  all_goals (intro x; exact slab_piece _ _ _ _ (by decide) (by decide) shapeCasts_S1x49x512_S49x512 broadcasts_S1x256_S49x256 shapeCasts_S49x256_S1x49x256 x)

/-- The embedding block after the body, at an index. -/
theorem out7_apply (c : Dev nD) (i : grid0.Coords) (arg1 : Memref sig .tc .vmem S160x49x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S512x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S160x49x256 .f32) (harg8 : arg8.IsWhole) (arg9 : Memref sig .tc .vmem S1x160x256 .f32) (harg9 : arg9.IsWhole)
    (x0 : Vec Ideal S160x49x512 .f32) (x1 : Vec Ideal S512x256 .f32) (x2 : Vec Ideal S1x256 .f32) (x3 : Vec Ideal S512x128 .f32) (x4 : Vec Ideal S1x128 .f32) (x5 : Vec Ideal S128x128 .f32) (x6 : Vec Ideal S1x128 .f32) (y : S160x49x256.Idx) :
    out0_A_7 (F := Ideal) c i arg1 harg1 arg2 harg2 arg3 harg3 arg4 harg4 arg5 harg5 arg6 harg6 arg7 harg7 arg8 harg8 arg9 harg9 x0 x1 x2 x3 x4 x5 x6 y
      = slabFun x0 x1 x2 y := by
  unfold out0_A_7
  refine (View.read_writes_apply_of_pieces _ _ (slabFun (k0_pay2 x0) x1 x2) _
    (pieces7 c i arg1 harg1 arg2 harg2 arg3 harg3 arg4 harg4 arg5 harg5 arg6 harg6 arg7 harg7 arg8 harg8 arg9 harg9 x0 x1 x2 x3 x4 x5 x6) y
    (cover0_A_7 c i arg1 harg1 arg2 harg2 arg3 harg3 arg4 harg4 arg5 harg5 arg6 harg6 arg7 harg7 arg8 harg8 arg9 harg9 x0 x1 x2 x3 x4 x5 x6 y)).trans ?_
  unfold k0_pay2
  rw [shapeCast_self]

/-! ## The packed head block: zeros, then the metric in columns 0 … 127, then the cluster in columns 128 … 255 -/

set_option maxHeartbeats 4000000 in
/-- Columns 0 … 127 of the packed head block hold the metric. -/
theorem out8_metric (c : Dev nD) (i : grid0.Coords) (arg1 : Memref sig .tc .vmem S160x49x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S512x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S160x49x256 .f32) (harg8 : arg8.IsWhole) (arg9 : Memref sig .tc .vmem S1x160x256 .f32) (harg9 : arg9.IsWhole)
    (x0 : Vec Ideal S160x49x512 .f32) (x1 : Vec Ideal S512x256 .f32) (x2 : Vec Ideal S1x256 .f32) (x3 : Vec Ideal S512x128 .f32) (x4 : Vec Ideal S1x128 .f32) (x5 : Vec Ideal S128x128 .f32) (x6 : Vec Ideal S1x128 .f32) (b : Fin 160) (q : Fin 128) :
    out0_A_8 (F := Ideal) c i arg1 harg1 arg2 harg2 arg3 harg3 arg4 harg4 arg5 harg5 arg6 harg6 arg7 harg7 arg8 harg8 arg9 harg9 x0 x1 x2 x3 x4 x5 x6
        (ix3 (0 : Fin 1) b (⟨q.val, by have := q.isLt; omega⟩ : Fin 256))
      = k0_pay195 (k0_pay194 (k0_pay2 x0)) x3 x4 (ix2 b q) := by
  unfold out0_A_8 kernelRun0_A
  dsimp only
  sl_unfold_words
  simp only [View.readAt_eq_ld, harg1.read_unread, harg4.read_unread, harg5.read_unread, harg6.read_unread,
    harg7.read_unread, View.ld_unit_zero (S := S160x49x512) hz3, View.ld_unit_zero (S := S512x128) hz2,
    View.ld_unit_zero (S := S1x128) hz2, View.ld_unit_zero (S := S128x128) hz2]
  rw [View.read_writes_cons_unit_of_not_mem _ _ _ _ _ _ rfl (2 : Fin 3) (Or.inl (show q.val < 128 from q.isLt))]
  refine (View.read_writes_cons_unit_of_mem _ _ _ _ _ _ (ix3 (0 : Fin 1) b q) rfl (fun a => ?_)).trans ?_
  · match a with
    | ⟨0, _⟩ => show 0 = 0 + 0; rfl
    | ⟨1, _⟩ => show b.val = 0 + b.val; rw [Nat.zero_add]
    | ⟨2, _⟩ => show q.val = 0 + q.val; rw [Nat.zero_add]
  unfold k0_pay198
  exact lead_apply _ _ b q

set_option maxHeartbeats 4000000 in
/-- Columns 128 … 255 of the packed head block hold the cluster. -/
theorem out8_cluster (c : Dev nD) (i : grid0.Coords) (arg1 : Memref sig .tc .vmem S160x49x512 .f32) (harg1 : arg1.IsWhole) (arg2 : Memref sig .tc .vmem S512x256 .f32) (harg2 : arg2.IsWhole) (arg3 : Memref sig .tc .vmem S1x256 .f32) (harg3 : arg3.IsWhole) (arg4 : Memref sig .tc .vmem S512x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S160x49x256 .f32) (harg8 : arg8.IsWhole) (arg9 : Memref sig .tc .vmem S1x160x256 .f32) (harg9 : arg9.IsWhole)
    (x0 : Vec Ideal S160x49x512 .f32) (x1 : Vec Ideal S512x256 .f32) (x2 : Vec Ideal S1x256 .f32) (x3 : Vec Ideal S512x128 .f32) (x4 : Vec Ideal S1x128 .f32) (x5 : Vec Ideal S128x128 .f32) (x6 : Vec Ideal S1x128 .f32) (b : Fin 160) (n : Fin 128) :
    out0_A_8 (F := Ideal) c i arg1 harg1 arg2 harg2 arg3 harg3 arg4 harg4 arg5 harg5 arg6 harg6 arg7 harg7 arg8 harg8 arg9 harg9 x0 x1 x2 x3 x4 x5 x6
        (ix3 (0 : Fin 1) b (⟨128 + n.val, by have := n.isLt; omega⟩ : Fin 256))
      = k0_pay196 (k0_pay194 (k0_pay2 x0)) x3 x4 x5 x6 (ix2 b n) := by
  unfold out0_A_8 kernelRun0_A
  dsimp only
  sl_unfold_words
  simp only [View.readAt_eq_ld, harg1.read_unread, harg4.read_unread, harg5.read_unread, harg6.read_unread,
    harg7.read_unread, View.ld_unit_zero (S := S160x49x512) hz3, View.ld_unit_zero (S := S512x128) hz2,
    View.ld_unit_zero (S := S1x128) hz2, View.ld_unit_zero (S := S128x128) hz2]
  refine (View.read_writes_cons_unit_of_mem _ _ _ _ _ _ (ix3 (0 : Fin 1) b n) rfl (fun a => ?_)).trans ?_
  · match a with
    | ⟨0, _⟩ => show 0 = 0 + 0; rfl
    | ⟨1, _⟩ => show b.val = 0 + b.val; rw [Nat.zero_add]
    | ⟨2, _⟩ => show 128 + n.val = 128 + n.val; rfl
  unfold k0_pay1
  exact lead_apply _ _ b n

/-! ## Where the blocks sit -/

variable (m : (ℓ : Loc nD τ sig) → Buf (Elt Ideal) ℓ)

theorem idx0 : ∀ t : Fin cfg0.N, win0_0.index t (0 : Fin 3) = 0 ∧ win0_0.index t (1 : Fin 3) = 0 ∧ win0_0.index t (2 : Fin 3) = 0 :=
  (by decide +kernel : ∀ t : Fin grid0.N, _)

/-- Window 0's block is its whole array at every point. -/
theorem iblk0 (c : Dev nD) (t : Fin cfg0.N) : @Eq (FVec Ideal S160x49x512 .f32) (iblk m c 0 t) (V m c main_v1) := by
  obtain ⟨e0, e1, e2⟩ := idx0 t
  funext y
  show V m c main_v1 (((cfg0.win 0).blk t).view.emb y) = V m c main_v1 y
  refine congrArg _ ?_
  funext a; apply Fin.ext
  match a with
  | ⟨0, _⟩ => show win0_0.index t (0 : Fin 3) * 160 + 1 * (y 0).val = (y 0).val; omega
  | ⟨1, _⟩ => show win0_0.index t (1 : Fin 3) * 49 + 1 * (y 1).val = (y 1).val; omega
  | ⟨2, _⟩ => show win0_0.index t (2 : Fin 3) * 512 + 1 * (y 2).val = (y 2).val; omega

theorem idx3 : ∀ t : Fin cfg0.N, win0_3.index t (0 : Fin 2) = 0 ∧ win0_3.index t (1 : Fin 2) = 0 :=
  (by decide +kernel : ∀ t : Fin grid0.N, _)

/-- Window 3's block is its whole array at every point. -/
theorem iblk3 (c : Dev nD) (t : Fin cfg0.N) : @Eq (FVec Ideal S512x128 .f32) (iblk m c 3 t) (V m c main_v2) := by
  obtain ⟨e0, e1⟩ := idx3 t
  funext y
  show V m c main_v2 (((cfg0.win 3).blk t).view.emb y) = V m c main_v2 y
  refine congrArg _ ?_
  funext a; apply Fin.ext
  match a with
  | ⟨0, _⟩ => show win0_3.index t (0 : Fin 2) * 512 + 1 * (y 0).val = (y 0).val; omega
  | ⟨1, _⟩ => show win0_3.index t (1 : Fin 2) * 128 + 1 * (y 1).val = (y 1).val; omega

theorem idx4 : ∀ t : Fin cfg0.N, win0_4.index t (0 : Fin 2) = 0 ∧ win0_4.index t (1 : Fin 2) = 0 :=
  (by decide +kernel : ∀ t : Fin grid0.N, _)

/-- Window 4's block is its whole array at every point. -/
theorem iblk4 (c : Dev nD) (t : Fin cfg0.N) : @Eq (FVec Ideal S1x128 .f32) (iblk m c 4 t) (V m c main_v4) := by
  obtain ⟨e0, e1⟩ := idx4 t
  funext y
  show V m c main_v4 (((cfg0.win 4).blk t).view.emb y) = V m c main_v4 y
  refine congrArg _ ?_
  funext a; apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

theorem idx5 : ∀ t : Fin cfg0.N, win0_5.index t (0 : Fin 2) = 0 ∧ win0_5.index t (1 : Fin 2) = 0 :=
  (by decide +kernel : ∀ t : Fin grid0.N, _)

/-- Window 5's block is its whole array at every point. -/
theorem iblk5 (c : Dev nD) (t : Fin cfg0.N) : @Eq (FVec Ideal S128x128 .f32) (iblk m c 5 t) (V m c main_v11) := by
  obtain ⟨e0, e1⟩ := idx5 t
  funext y
  show V m c main_v11 (((cfg0.win 5).blk t).view.emb y) = V m c main_v11 y
  refine congrArg _ ?_
  funext a; apply Fin.ext
  match a with
  | ⟨0, _⟩ => show win0_5.index t (0 : Fin 2) * 128 + 1 * (y 0).val = (y 0).val; omega
  | ⟨1, _⟩ => show win0_5.index t (1 : Fin 2) * 128 + 1 * (y 1).val = (y 1).val; omega

theorem idx6 : ∀ t : Fin cfg0.N, win0_6.index t (0 : Fin 2) = 0 ∧ win0_6.index t (1 : Fin 2) = 0 :=
  (by decide +kernel : ∀ t : Fin grid0.N, _)

/-- Window 6's block is its whole array at every point. -/
theorem iblk6 (c : Dev nD) (t : Fin cfg0.N) : @Eq (FVec Ideal S1x128 .f32) (iblk m c 6 t) (V m c main_v15) := by
  obtain ⟨e0, e1⟩ := idx6 t
  funext y
  show V m c main_v15 (((cfg0.win 6).blk t).view.emb y) = V m c main_v15 y
  refine congrArg _ ?_
  funext a; apply Fin.ext
  match a with
  | ⟨0, _⟩ => show win0_6.index t (0 : Fin 2) * 1 + 1 * (y 0).val = (y 0).val; omega
  | ⟨1, _⟩ => show win0_6.index t (1 : Fin 2) * 128 + 1 * (y 1).val = (y 1).val; omega

theorem idx1 : ∀ t : Fin cfg0.N, win0_1.index t (0 : Fin 2) = 0 ∧ win0_1.index t (1 : Fin 2) = t.val :=
  (by decide +kernel : ∀ t : Fin grid0.N, _)

theorem idx2 : ∀ t : Fin cfg0.N, win0_2.index t (0 : Fin 2) = 0 ∧ win0_2.index t (1 : Fin 2) = t.val :=
  (by decide +kernel : ∀ t : Fin grid0.N, _)

theorem idx7 : ∀ t : Fin cfg0.N, win0_7.index t (0 : Fin 3) = 0 ∧ win0_7.index t (1 : Fin 3) = 0
    ∧ win0_7.index t (2 : Fin 3) = t.val :=
  (by decide +kernel : ∀ t : Fin grid0.N, _)

theorem idx8 : ∀ t : Fin cfg0.N, win0_8.index t (0 : Fin 3) = t.val ∧ win0_8.index t (1 : Fin 3) = 0
    ∧ win0_8.index t (2 : Fin 3) = 0 :=
  (by decide +kernel : ∀ t : Fin grid0.N, _)

theorem col_lt (t : Fin cfg0.N) (q : Fin 256) : t.val * 256 + q.val < 1024 := by
  have ht : t.val < 4 := t.isLt
  have := q.isLt
  omega

/-- Column q of the weight block at point t is column 256·t + q of the weights. -/
theorem iblk1_apply (c : Dev nD) (t : Fin cfg0.N) (k : Fin 512) (q : Fin 256) :
    iblk m c 1 t (ix2 k q) = A1 m c (ix2 k (⟨t.val * 256 + q.val, col_lt t q⟩ : Fin 1024)) := by
  obtain ⟨e0, e1⟩ := idx1 t
  refine Eq.trans ?_ (congrFun (V_main_arg1 m c) _)
  show V m c main_arg1 (((cfg0.win 1).blk t).view.emb (ix2 k q)) = V m c main_arg1 _
  refine congrArg _ ?_
  funext a; apply Fin.ext
  match a with
  | ⟨0, _⟩ => show win0_1.index t (0 : Fin 2) * 512 + 1 * k.val = k.val; omega
  | ⟨1, _⟩ => show win0_1.index t (1 : Fin 2) * 256 + 1 * q.val = t.val * 256 + q.val; omega

/-- Column q of the bias block at point t is column 256·t + q of the bias. -/
theorem iblk2_apply (c : Dev nD) (t : Fin cfg0.N) (q : Fin 256) :
    iblk m c 2 t (ix2 0 q) = A2 m c (ix2 0 (⟨t.val * 256 + q.val, col_lt t q⟩ : Fin 1024)) := by
  obtain ⟨e0, e1⟩ := idx2 t
  refine Eq.trans ?_ (congrFun (V_main_arg2 m c) _)
  show V m c main_arg2 (((cfg0.win 2).blk t).view.emb (ix2 0 q)) = V m c main_arg2 _
  refine congrArg _ ?_
  funext a; apply Fin.ext
  match a with
  | ⟨0, _⟩ => show win0_2.index t (0 : Fin 2) * 1 + 1 * 0 = 0; omega
  | ⟨1, _⟩ => show win0_2.index t (1 : Fin 2) * 256 + 1 * q.val = t.val * 256 + q.val; omega

/-! ## The whole-array functions -/

/-- The embedding in the reference's batch-major layout (160, 49, 1024). -/
def G7 (c : Dev nD) : S160x49x1024.Idx → EReal := fun i =>
  embArr (X3 m c) (A1 m c) (A2 m c) (ix3 (i 0) (i 2) (i 1))

/-- The folded metric head. -/
def MF (c : Dev nD) : S160x128.Idx → EReal := metricArrF (X3 m c) (A1 m c) (A2 m c) (A3 m c) (A4 m c)

/-- The folded cluster head. -/
def CF (c : Dev nD) : S160x128.Idx → EReal :=
  clusterArrF (X3 m c) (A1 m c) (A2 m c) (A3 m c) (A4 m c) (A5 m c) (A6 m c) (A7 m c) (A8 m c) (A9 m c) (A10 m c)

/-- The packed head array (4, 160, 256): every slab holds the metric in columns 0 … 127 and the cluster in 128 … 255. -/
def G8 (c : Dev nD) : S4x160x256.Idx → EReal := fun i =>
  if h : (i 2).val < 128 then MF m c (ix2 (i 1) (⟨(i 2).val, h⟩ : Fin 128))
  else CF m c (ix2 (i 1) (⟨(i 2).val - 128, by have h2 : (i 2).val < 256 := (i 2).isLt; omega⟩ : Fin 128))

/-! ## What a point computes, as entries of the whole-array functions -/

theorem pixRow_eq (c : Dev nD) (t : Fin cfg0.N) (b : Fin 160) :
    (fun (p : Fin 49) (k : Fin 512) => iblk m c 0 t (ix3 b p k)) = pixRow (X3 m c) b := by
  funext p k
  rw [iblk0 m c t]
  exact V_v1_apply m c b p k

theorem point_metric (c : Dev nD) (t : Fin cfg0.N) (b : Fin 160) (j : Fin 128) :
    k0_pay195 (k0_pay194 (k0_pay2 (iblk m c 0 t))) (iblk m c 3 t) (iblk m c 4 t) (ix2 b j) = MF m c (ix2 b j) := by
  refine (head_metric _ _ _ b j).trans ?_
  rw [pixRow_eq m c t b, iblk3 m c t, iblk4 m c t,
    show mat (V m c main_v2) = fun k j => ∑ cc : Fin 1024, mat (A1 m c) k cc * mat (A3 m c) cc j from
      funext fun k => funext fun j => Wfe_apply m c k j,
    show row (V m c main_v4) = fun j => (∑ cc : Fin 1024, row (A2 m c) cc * mat (A3 m c) cc j) + row (A4 m c) j from
      funext fun j => bfe_apply m c j]
  rfl

theorem point_cluster (c : Dev nD) (t : Fin cfg0.N) (b : Fin 160) (n : Fin 128) :
    k0_pay196 (k0_pay194 (k0_pay2 (iblk m c 0 t))) (iblk m c 3 t) (iblk m c 4 t) (iblk m c 5 t) (iblk m c 6 t) (ix2 b n)
      = CF m c (ix2 b n) := by
  refine (pay196_apply _ _ _ _ _ b n).trans ?_
  rw [show (fun j => k0_pay195 (k0_pay194 (k0_pay2 (iblk m c 0 t))) (iblk m c 3 t) (iblk m c 4 t) (ix2 b j))
      = fun j => MF m c (ix2 b j) from funext fun j => point_metric m c t b j,
    iblk5 m c t, iblk6 m c t,
    show mat (V m c main_v11) = fun j n => mat (A9 m c) j n * bnScale (row (A5 m c)) (row (A8 m c)) j from
      funext fun j => funext fun n => Wce_apply m c j n,
    show row (V m c main_v15) = fun n => row (A10 m c) n
        + ∑ j : Fin 128, (row (A6 m c) j - row (A7 m c) j * bnScale (row (A5 m c)) (row (A8 m c)) j) * mat (A9 m c) j n from
      funext fun n => bce_apply m c n]
  rfl

/-- `affine` at a column of a block of columns is `affine` at that column of the whole weights. -/
theorem affine_cols {K N N' : Nat} {a a' : Fin K → EReal} {W : Fin K → Fin N → EReal} {W' : Fin K → Fin N' → EReal}
    {bs : Fin N → EReal} {bs' : Fin N' → EReal} {n : Fin N} {n' : Fin N'} (ha : a = a')
    (hW : ∀ k, W k n = W' k n') (hb : bs n = bs' n') : affine a W bs n = affine a' W' bs' n' := by
  unfold affine
  rw [ha, hb]
  exact congrArg (· + _) (Finset.sum_congr rfl fun k _ => by rw [hW k])

theorem point_emb (c : Dev nD) (t : Fin cfg0.N) (b : Fin 160) (r : Fin 49) (q : Fin 256) :
    slabFun (iblk m c 0 t) (iblk m c 1 t) (iblk m c 2 t) (ix3 b r q)
      = G7 m c (ix3 b r (⟨t.val * 256 + q.val, col_lt t q⟩ : Fin 1024)) := by
  unfold slabFun G7 embArr
  refine affine_cols (funext fun k => ?_) (fun k => iblk1_apply m c t k q) (iblk2_apply m c t q)
  rw [iblk0 m c t]
  exact V_v1_apply m c b r k

/-! ## The write-backs are blocks of the whole-array functions -/

theorem flushed7 (c : Dev nD) (t : Fin cfg0.N) :
    (dats m 0 c).flushed 7 t = ((cfg0.win 7).blk t).view.read (Elt Ideal) (G7 m c) := by
  show (cfg0.win 7).cut (grid0.coords t) ((dats m 0 c).after 7 t) = _
  rw [after0_7]
  unfold outsAt0
  dsimp only
  obtain ⟨e0, e1, e2⟩ := idx7 t
  funext y
  obtain ⟨b, r, q, rfl⟩ : ∃ (b : Fin 160) (r : Fin 49) (q : Fin 256), y = ix3 b r q := ⟨y 0, y 1, y 2, eq_ix3 y⟩
  refine (out7_apply _ _ _ _ _ _ _ _ _ _ _ _ _ _ _ _ _ _ _ _ _ _ _ _ _ _ _ (ix3 b r q)).trans ?_
  refine (point_emb m c t b r q).trans ?_
  show G7 m c _ = G7 m c (((cfg0.win 7).blk t).view.emb (ix3 b r q))
  refine congrArg _ ?_
  funext a; apply Fin.ext
  match a with
  | ⟨0, _⟩ => show b.val = win0_7.index t (0 : Fin 3) * 160 + 1 * b.val; omega
  | ⟨1, _⟩ => show r.val = win0_7.index t (1 : Fin 3) * 49 + 1 * r.val; omega
  | ⟨2, _⟩ => show t.val * 256 + q.val = win0_7.index t (2 : Fin 3) * 256 + 1 * q.val; omega

theorem flushed8 (c : Dev nD) (t : Fin cfg0.N) :
    (dats m 0 c).flushed 8 t = ((cfg0.win 8).blk t).view.read (Elt Ideal) (G8 m c) := by
  show (cfg0.win 8).cut (grid0.coords t) ((dats m 0 c).after 8 t) = _
  rw [after0_8]
  unfold outsAt0
  dsimp only
  obtain ⟨e0, e1, e2⟩ := idx8 t
  have ht : t.val < 4 := t.isLt
  funext y
  obtain ⟨z, b, q, rfl⟩ : ∃ (z : Fin 1) (b : Fin 160) (q : Fin 256), y = ix3 z b q := ⟨y 0, y 1, y 2, eq_ix3 y⟩
  obtain rfl : z = 0 := Subsingleton.elim _ _
  have hemb : ((cfg0.win 8).blk t).view.emb (ix3 (0 : Fin 1) b q) = (ix3 (⟨t.val, ht⟩ : Fin 4) b q : S4x160x256.Idx) := by
    funext a; apply Fin.ext
    match a with
    | ⟨0, _⟩ => show win0_8.index t (0 : Fin 3) * 1 + 1 * 0 = t.val; omega
    | ⟨1, _⟩ => show win0_8.index t (1 : Fin 3) * 160 + 1 * b.val = b.val; omega
    | ⟨2, _⟩ => show win0_8.index t (2 : Fin 3) * 256 + 1 * q.val = q.val; omega
  show _ = G8 m c (((cfg0.win 8).blk t).view.emb (ix3 (0 : Fin 1) b q))
  rw [hemb]
  by_cases hq : q.val < 128
  · rw [show G8 m c (ix3 (⟨t.val, ht⟩ : Fin 4) b q) = MF m c (ix2 b (⟨q.val, hq⟩ : Fin 128)) from dif_pos hq]
    exact (out8_metric _ _ _ _ _ _ _ _ _ _ _ _ _ _ _ _ _ _ _ _ _ _ _ _ _ _ _ b ⟨q.val, hq⟩).trans
      (point_metric m c t b ⟨q.val, hq⟩)
  · obtain ⟨qv, hqv⟩ := q
    have hq' : ¬ qv < 128 := hq
    obtain ⟨n, rfl⟩ : ∃ n, qv = 128 + n := ⟨qv - 128, by omega⟩
    have hn : n < 128 := by omega
    rw [show G8 m c (ix3 (⟨t.val, ht⟩ : Fin 4) b (⟨128 + n, hqv⟩ : Fin 256)) = CF m c (ix2 b (⟨n, hn⟩ : Fin 128)) from
      (dif_neg hq).trans (congrArg (fun z => CF m c (ix2 b z)) (Fin.ext (show 128 + n - 128 = n by omega)))]
    exact (out8_cluster _ _ _ _ _ _ _ _ _ _ _ _ _ _ _ _ _ _ _ _ _ _ _ _ _ _ _ b ⟨n, hn⟩).trans
      (point_cluster m c t b ⟨n, hn⟩)

/-! ## The blocks cover the arrays -/

theorem mem_blk7 (t : Fin cfg0.N) (i : S160x49x1024.Idx) :
    i ∈ ((cfg0.win 7).blk t).view.set ↔ ∀ a : Fin 3, win0_7.index t a * S160x49x256.size a ≤ (i a).val
      ∧ (i a).val < win0_7.index t a * S160x49x256.size a + S160x49x256.size a := by
  show i ∈ ((View.whole main_v16_0).slice (win0_7.rect t)).set ↔ _
  rw [View.set_slice_whole, Rect.mem_set_unit]
  exact Iff.rfl

theorem mem_blk8 (t : Fin cfg0.N) (i : S4x160x256.Idx) :
    i ∈ ((cfg0.win 8).blk t).view.set ↔ ∀ a : Fin 3, win0_8.index t a * S1x160x256.size a ≤ (i a).val
      ∧ (i a).val < win0_8.index t a * S1x160x256.size a + S1x160x256.size a := by
  show i ∈ ((View.whole main_v16_1).slice (win0_8.rect t)).set ↔ _
  rw [View.set_slice_whole, Rect.mem_set_unit]
  exact Iff.rfl

theorem cover7 (i : S160x49x1024.Idx) :
    ∃ t : Fin cfg0.N, (cfg0.win 7).flush t = true ∧ i ∈ ((cfg0.win 7).blk t).view.set := by
  have hi0 : (i 0).val < 160 := (i 0).isLt
  have hi1 : (i 1).val < 49 := (i 1).isLt
  have hi2 : (i 2).val < 1024 := (i 2).isLt
  have ht : (i 2).val / 256 < 4 := by omega
  obtain ⟨e0, e1, e2⟩ := idx7 ⟨(i 2).val / 256, ht⟩
  refine ⟨⟨(i 2).val / 256, ht⟩, flush0_7 _, ?_⟩
  rw [mem_blk7]
  intro a
  match a with
  | ⟨0, _⟩ =>
    show win0_7.index ⟨(i 2).val / 256, ht⟩ (0 : Fin 3) * 160 ≤ (i 0).val
      ∧ (i 0).val < win0_7.index ⟨(i 2).val / 256, ht⟩ (0 : Fin 3) * 160 + 160
    rw [e0]; omega
  | ⟨1, _⟩ =>
    show win0_7.index ⟨(i 2).val / 256, ht⟩ (1 : Fin 3) * 49 ≤ (i 1).val
      ∧ (i 1).val < win0_7.index ⟨(i 2).val / 256, ht⟩ (1 : Fin 3) * 49 + 49
    rw [e1]; omega
  | ⟨2, _⟩ =>
    show win0_7.index ⟨(i 2).val / 256, ht⟩ (2 : Fin 3) * 256 ≤ (i 2).val
      ∧ (i 2).val < win0_7.index ⟨(i 2).val / 256, ht⟩ (2 : Fin 3) * 256 + 256
    rw [e2]; show (i 2).val / 256 * 256 ≤ (i 2).val ∧ (i 2).val < (i 2).val / 256 * 256 + 256; omega

theorem cover8 (i : S4x160x256.Idx) :
    ∃ t : Fin cfg0.N, (cfg0.win 8).flush t = true ∧ i ∈ ((cfg0.win 8).blk t).view.set := by
  have hi0 : (i 0).val < 4 := (i 0).isLt
  have hi1 : (i 1).val < 160 := (i 1).isLt
  have hi2 : (i 2).val < 256 := (i 2).isLt
  obtain ⟨e0, e1, e2⟩ := idx8 ⟨(i 0).val, hi0⟩
  refine ⟨⟨(i 0).val, hi0⟩, flush0_8 _, ?_⟩
  rw [mem_blk8]
  intro a
  match a with
  | ⟨0, _⟩ =>
    show win0_8.index ⟨(i 0).val, hi0⟩ (0 : Fin 3) * 1 ≤ (i 0).val
      ∧ (i 0).val < win0_8.index ⟨(i 0).val, hi0⟩ (0 : Fin 3) * 1 + 1
    rw [e0]; show (i 0).val * 1 ≤ (i 0).val ∧ (i 0).val < (i 0).val * 1 + 1; omega
  | ⟨1, _⟩ =>
    show win0_8.index ⟨(i 0).val, hi0⟩ (1 : Fin 3) * 160 ≤ (i 1).val
      ∧ (i 1).val < win0_8.index ⟨(i 0).val, hi0⟩ (1 : Fin 3) * 160 + 160
    rw [e1]; omega
  | ⟨2, _⟩ =>
    show win0_8.index ⟨(i 0).val, hi0⟩ (2 : Fin 3) * 256 ≤ (i 2).val
      ∧ (i 2).val < win0_8.index ⟨(i 0).val, hi0⟩ (2 : Fin 3) * 256 + 256
    rw [e2]; omega

/-! ## The arrays after the run -/

theorem final7 (c : Dev nD) : (dats m 0 c).arrAt 7 cfg0.N = G7 m c :=
  (dats m 0 c).arrAt_eq_of_cover 7 (G7 m c) (fun t _ => flushed7 m c t) cover7

theorem final8 (c : Dev nD) : (dats m 0 c).arrAt 8 cfg0.N = G8 m c :=
  (dats m 0 c).arrAt_eq_of_cover 8 (G8 m c) (fun t _ => flushed8 m c t) cover8

end Cert.DualHead.RefArrays

end
-- ==== Proof.RefRun.lean ====
/-
  The reference program, run: its three results as whole-array functions of the arguments, and the arguments
  unchanged. The lines after the call take slab 0 of the packed head array, its columns 0 … 127 as the metric and
  128 … 255 as the cluster, and permute the batch-major embedding (160, 49, 1024) to (160, 1024, 49) before splitting
  the pixel axis into 7 × 7.
-/
import proofs.«141857_g2000002382505771_pallasbulk_556_21_alg».proof.Proof.RefArrays

set_option maxRecDepth 16384

noncomputable section

namespace Cert.DualHead.RefRun

open Idealize.ShloMosaic Idealize.ShloMosaic.TcCoe Idealize.ShloMosaic.Tactic Idealize.SL.Sem Idealize.ShloMosaic.ValueIdx
open Cert.ReferenceIdeal Cert.ReferenceIdeal.Gen Cert.DualHead Cert.DualHead.RefEntry Cert.DualHead.RefArrays

variable (m : (ℓ : Loc nD τ sig) → Buf (Elt Ideal) ℓ) (ρ : Dev nD → PrngReg)

/-- The embedding (160, 1024, 49) of the specification, at this program's arguments. -/
def E3 (c : Dev nD) : S160x1024x49.Idx → EReal := embArr (X3 m c) (A1 m c) (A2 m c)

theorem transpose_G7 (c : Dev nD) :
    transpose S160x1024x49 [0, 2, 1] (G7 m c) transposes_S160x49x1024_S160x1024x49_0_2_1 = E3 m c := by
  funext i
  obtain ⟨b, cc, p, rfl⟩ : ∃ (b : Fin 160) (cc : Fin 1024) (p : Fin 49), i = ix3 b cc p := ⟨i 0, i 1, i 2, eq_ix3 i⟩
  refine (transpose_apply _ _ _ _ (ix3 b p cc) (fun a => by
    match a with
    | ⟨0, _⟩ => rfl
    | ⟨1, _⟩ => rfl
    | ⟨2, _⟩ => rfl)).trans ?_
  rfl

/-- Slab 0, columns 0 … 127 of the packed head array is the metric head. -/
theorem slice_metric (c : Dev nD) :
    shapeCast S160x128 (extractStridedSlice S1x160x128 ![0, 0, 0] (G8 m c) slices_S4x160x256_S1x160x128_0_0_0)
      shapeCasts_S1x160x128_S160x128 = MF m c := by
  funext i
  obtain ⟨b, j, rfl⟩ : ∃ (b : Fin 160) (j : Fin 128), i = ix2 b j := ⟨i 0, i 1, eq_ix2 i⟩
  refine (shapeCast_apply _ _ (ix2 b j) (ix3 (0 : Fin 1) b j) ?_).trans ?_
  · rw [Shape.rowMajor_val_two, Shape.rowMajor_val_three]
    show (0 * 160 + b.val) * 128 + j.val = b.val * 128 + j.val
    rw [Nat.zero_mul, Nat.zero_add]
  have hj : j.val < 256 := by have := j.isLt; omega
  refine (extractStridedSlice_apply _ _ _ (ix3 (0 : Fin 1) b j) (ix3 (0 : Fin 4) b (⟨j.val, hj⟩ : Fin 256)) (fun a => ?_)).trans ?_
  · match a with
    | ⟨0, _⟩ => show 0 = 0 + 0; rfl
    | ⟨1, _⟩ => show b.val = 0 + b.val; rw [Nat.zero_add]
    | ⟨2, _⟩ => show j.val = 0 + j.val; rw [Nat.zero_add]
  exact dif_pos j.isLt

/-- Slab 0, columns 128 … 255 of the packed head array is the cluster head. -/
theorem slice_cluster (c : Dev nD) :
    shapeCast S160x128 (extractStridedSlice S1x160x128 ![0, 0, 128] (G8 m c) slices_S4x160x256_S1x160x128_0_0_128)
      shapeCasts_S1x160x128_S160x128 = CF m c := by
  funext i
  obtain ⟨b, j, rfl⟩ : ∃ (b : Fin 160) (j : Fin 128), i = ix2 b j := ⟨i 0, i 1, eq_ix2 i⟩
  refine (shapeCast_apply _ _ (ix2 b j) (ix3 (0 : Fin 1) b j) ?_).trans ?_
  · rw [Shape.rowMajor_val_two, Shape.rowMajor_val_three]
    show (0 * 160 + b.val) * 128 + j.val = b.val * 128 + j.val
    rw [Nat.zero_mul, Nat.zero_add]
  have hj : 128 + j.val < 256 := by have := j.isLt; omega
  refine (extractStridedSlice_apply _ _ _ (ix3 (0 : Fin 1) b j) (ix3 (0 : Fin 4) b (⟨128 + j.val, hj⟩ : Fin 256)) (fun a => ?_)).trans ?_
  · match a with
    | ⟨0, _⟩ => show 0 = 0 + 0; rfl
    | ⟨1, _⟩ => show b.val = 0 + b.val; rw [Nat.zero_add]
    | ⟨2, _⟩ => show 128 + j.val = 128 + j.val; rfl
  have hn : ¬ (128 + j.val < 128) := by omega
  refine (dif_neg hn).trans ?_
  refine congrArg (fun q => CF m c (ix2 b q)) (Fin.ext ?_)
  show 128 + j.val - 128 = j.val
  omega

theorem arr7 (c : Dev nD) : Pipeline.withArrays (cfgs 0).spec c (V0 m c) (fun w => (dats m 0 c).arrAt w (cfgs 0).N)
    (Proc.tc.devRef main_v16_0) = G7 m c :=
  (Pipeline.withArrays_arr spec0 launch0.win.arr_inj c _ _ 7).trans (final7 m c)

theorem arr8 (c : Dev nD) : Pipeline.withArrays (cfgs 0).spec c (V0 m c) (fun w => (dats m 0 c).arrAt w (cfgs 0).N)
    (Proc.tc.devRef main_v16_1) = G8 m c :=
  (Pipeline.withArrays_arr spec0 launch0.win.arr_inj c _ _ 8).trans (final8 m c)

theorem tail_v18 (c : Dev nD) : Pipeline.afterTail₀ cfgs (dats m) 0 (V0 m) [hostOps1] c main_v18 = MF m c := by
  rw [← slice_metric m c]
  unfold Pipeline.afterTail₀
  show StableHlo.after hostOps1 _ (Proc.devRef .tc main_v18) = _
  after_results
  rw [arr8 m c]
  rfl

theorem tail_v20 (c : Dev nD) : Pipeline.afterTail₀ cfgs (dats m) 0 (V0 m) [hostOps1] c main_v20 = CF m c := by
  rw [← slice_cluster m c]
  unfold Pipeline.afterTail₀
  show StableHlo.after hostOps1 _ (Proc.devRef .tc main_v20) = _
  after_results
  rw [arr8 m c]
  rfl

theorem tail_v22 (c : Dev nD) : Pipeline.afterTail₀ cfgs (dats m) 0 (V0 m) [hostOps1] c main_v22
    = shapeCast S160x1024x7x7 (E3 m c) shapeCasts_S160x1024x49_S160x1024x7x7 := by
  rw [← transpose_G7 m c]
  unfold Pipeline.afterTail₀
  show StableHlo.after hostOps1 _ (Proc.devRef .tc main_v22) = _
  after_results
  rw [arr7 m c]
  rfl

/-- The run: the three results and the unchanged arguments. -/
theorem run : θ_run defs (onTc (τ := τ) (main (F := Ideal))) ⟨m, fun _ => 0, ρ⟩ fun r => ∀ c : Dev nD,
      r.2.mem ((c.tc : Thread nD τ).loc main_v18) = MF m c
      ∧ r.2.mem ((c.tc : Thread nD τ).loc main_v20) = CF m c
      ∧ r.2.mem ((c.tc : Thread nD τ).loc main_v22) = shapeCast S160x1024x7x7 (E3 m c) shapeCasts_S160x1024x49_S160x1024x7x7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨
      ((h c).2 main_v18 (Pipeline.mem_restRefs_of main_v18 (by decide) (by decide))).trans (tail_v18 m c),
      ((h c).2 main_v20 (Pipeline.mem_restRefs_of main_v20 (by decide) (by decide))).trans (tail_v20 m c),
      ((h c).2 main_v22 (Pipeline.mem_restRefs_of main_v22 (by decide) (by decide))).trans (tail_v22 m c),
      (((h c).2 main_arg0 (Pipeline.mem_restRefs_of main_arg0 (by decide) (by decide))).trans (W_main_arg0 m (dats m) c)),
      ((h c).1 1).trans ((((dats m) 0 c).arrAt_in 1 rfl _).trans ((A_eq m c 1).trans (V_main_arg1 m c))),
      ((h c).1 2).trans ((((dats m) 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c))⟩)
    (run_main m ρ)

end Cert.DualHead.RefRun

end
-- ==== Proof.LibFiniteInputs.lean ====
/-
  Reading a printed precondition "every entry is finite" / "every entry is ≥ 0" back on the extended reals.

  jnp.all(|x| < +inf) prints as a reduce by `and` (from the word 1) of the entrywise comparison of |x| with a
  broadcast of the word 0x7F800000 (+∞). If that reduce is 1 then every entry x i has |x i| = max (x i) (−x i) < ⊤,
  so x i is neither ⊤ nor ⊥: a real. jnp.all(x ≥ 0) prints the same way with the comparison x ≥ (the word 0); if it
  is 1 then every entry is ≥ 0. Nothing here mentions a program.
-/
import Idealize.ShloMosaic.PureOps.Ideal
import Idealize.ShloMosaic.PureOps.Ideal.Laws
import Idealize.ShloMosaic.Lib.ValueIdx
import Idealize.ShloMosaic.Lib.ReduceAll

noncomputable section

namespace Cert.Lib.FiniteInputs

open Idealize.ShloMosaic Idealize.ShloMosaic.ValueIdx

instance : Subsingleton (⟨0, ![]⟩ : Shape).Idx := ⟨fun a b => funext fun d => d.elim0⟩

/-- The single-precision word 7F800000 is +∞. -/
theorem ofBits_inf_f32 : Ideal.ofBits .f32 0x7F800000#32 = (⊤ : EReal) := by
  simp [Ideal.ofBits, Ideal.ieee]

/-- An extended real whose absolute value is below +∞ is a real. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- A comparison word that is 1 says the comparison holds: "less than". -/
theorem lt_of_cmp_olt (x y : EReal) (h : Ideal.cmp .olt x y = 1#1) : x < y := by
  unfold Ideal.cmp at h
  by_contra hn
  simp [hn] at h

/-- A comparison word that is 1 says the comparison holds: "at least". -/
theorem le_of_cmp_oge (x y : EReal) (h : Ideal.cmp .oge x y = 1#1) : y ≤ x := by
  unfold Ideal.cmp at h
  by_contra hn
  simp [hn] at h

variable {s u : Shape} {axes : List (Fin s.rank)}

/-- jnp.all(|x| < +inf) = true: every entry of x is a real. -/
theorem real_of_all_finite (x : s.Idx → EReal) (hb : (⟨0, ![]⟩ : Shape).BroadcastsInDim s ![])
    (init : u.Idx → BitVec 1) (hr : s.ReducesTo axes ⟨0, ![]⟩) (hu : 0 < u.numel)
    (e : Host.reduce IntOp.andi
        (cmpf .olt (Host.absf (F := Ideal) (φ := .f32) x)
          (broadcastInDim s ![] hb (constant (F := Ideal) ⟨0, ![]⟩ .f32 0x7F800000#32))) init hr hu ix0 = 1#1)
    (i : s.Idx) : ∃ r : ℝ, x i = (r : EReal) := by
  have hi := Host.reduce_andi_all _ init hr hu ix0 e i
  refine real_of_abs_lt_top (x i) ?_
  have := lt_of_cmp_olt _ _ hi
  rw [← ofBits_inf_f32]
  exact this

/-- jnp.all(x ≥ 0) = true: every entry of x is at least 0. -/
theorem nonneg_of_all_ge (x : s.Idx → EReal) (hb : (⟨0, ![]⟩ : Shape).BroadcastsInDim s ![])
    (init : u.Idx → BitVec 1) (hr : s.ReducesTo axes ⟨0, ![]⟩) (hu : 0 < u.numel)
    (e : Host.reduce IntOp.andi
        (cmpf .oge x (broadcastInDim s ![] hb (constant (F := Ideal) ⟨0, ![]⟩ .f32 0x00000000#32))) init hr hu ix0 = 1#1)
    (i : s.Idx) : 0 ≤ x i := by
  have hi := Host.reduce_andi_all _ init hr hu ix0 e i
  have := le_of_cmp_oge _ _ hi
  rw [← Ideal.ofBits_zero_f32]
  exact this

end Cert.Lib.FiniteInputs

end
-- ==== Proof.Finite.lean ====
/-
  What the precondition says of the argument arrays: every entry of every argument is a real number, and every entry
  of the running variance is ≥ 0. The precondition is the conjunction of twelve "all entries satisfy" tests — eleven
  of |x| < +∞ and one of x ≥ 0 — each a reduction by "and" into a single truth value.
-/
import proofs.«141857_g2000002382505771_pallasbulk_556_21_alg».proof.Pre_finite_inputs
import proofs.«141857_g2000002382505771_pallasbulk_556_21_alg».proof.Proof.Gen.Pre_finite_inputs
import proofs.«141857_g2000002382505771_pallasbulk_556_21_alg».proof.Proof.LibFiniteInputs
import proofs.«141857_g2000002382505771_pallasbulk_556_21_alg».proof.Proof.HeadAlgebra
import Idealize.ShloMosaic.Lib.Affine

noncomputable section

namespace Cert.DualHead.Finite

open Idealize.ShloMosaic Idealize.ShloMosaic.ValueIdx Cert.Pre_finite_inputs Cert.Lib.FiniteInputs Cert.DualHead

/-- The conjunction of two truth values is true exactly when both are. -/
theorem andi_ix0 (a b : IVec S_ 1) : andi a b ix0 = 1#1 ↔ a ix0 = 1#1 ∧ b ix0 = 1#1 := by
  show IntOp.andi (a ix0) (b ix0) = 1#1 ↔ _
  exact IntOp.andi_eq_one

set_option maxHeartbeats 1000000 in
theorem decode (a0 : FVec Ideal S160x512x7x7 .f32) (a1 : FVec Ideal S512x1024 .f32) (a2 : FVec Ideal S1x1024 .f32)
    (a3 : FVec Ideal S1024x128 .f32) (a4 a5 a6 a7 a8 : FVec Ideal S1x128 .f32) (a9 : FVec Ideal S128x128 .f32)
    (a10 : FVec Ideal S1x128 .f32) (h : fn (F := Ideal) a0 a1 a2 a3 a4 a5 a6 a7 a8 a9 a10 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) ∧ (∀ i, IsReal (a8 i))
      ∧ (∀ i, IsReal (a9 i)) ∧ (∀ i, IsReal (a10 i)) ∧ (∀ i, 0 ≤ a8 i) := by
  have h0 := congrFun h ix0
  dsimp only [fn, fn_part1, fn_part2, fn_part3] at h0
  obtain ⟨h0, r11⟩ := (andi_ix0 _ _).1 h0
  obtain ⟨h0, r10⟩ := (andi_ix0 _ _).1 h0
  obtain ⟨h0, r9⟩ := (andi_ix0 _ _).1 h0
  obtain ⟨h0, r8⟩ := (andi_ix0 _ _).1 h0
  obtain ⟨h0, r7⟩ := (andi_ix0 _ _).1 h0
  obtain ⟨h0, r6⟩ := (andi_ix0 _ _).1 h0
  obtain ⟨h0, r5⟩ := (andi_ix0 _ _).1 h0
  obtain ⟨h0, r4⟩ := (andi_ix0 _ _).1 h0
  obtain ⟨h0, r3⟩ := (andi_ix0 _ _).1 h0
  obtain ⟨h0, r2⟩ := (andi_ix0 _ _).1 h0
  obtain ⟨r0, r1⟩ := (andi_ix0 _ _).1 h0
  exact ⟨real_of_all_finite a0 _ _ _ _ r0, real_of_all_finite a1 _ _ _ _ r1, real_of_all_finite a2 _ _ _ _ r2,
    real_of_all_finite a3 _ _ _ _ r3, real_of_all_finite a4 _ _ _ _ r4, real_of_all_finite a5 _ _ _ _ r5,
    real_of_all_finite a6 _ _ _ _ r6, real_of_all_finite a7 _ _ _ _ r7, real_of_all_finite a8 _ _ _ _ r8,
    real_of_all_finite a9 _ _ _ _ r9, real_of_all_finite a10 _ _ _ _ r10, nonneg_of_all_ge a8 _ _ _ _ r11⟩

end Cert.DualHead.Finite

end
-- ==== Proof.Bridge.lean ====
/-
  The two programs' results are the same arrays: from memories that agree on the eleven arguments, with every argument
  entry a real and the running variance ≥ 0, the reference's folded heads equal the kernel's layered heads (the two
  folding laws), and the two embeddings are the same function of the same flattened input.
-/
import proofs.«141857_g2000002382505771_pallasbulk_556_21_alg».proof.Defs
import proofs.«141857_g2000002382505771_pallasbulk_556_21_alg».proof.Proof.KernelRun
import proofs.«141857_g2000002382505771_pallasbulk_556_21_alg».proof.Proof.RefRun
import proofs.«141857_g2000002382505771_pallasbulk_556_21_alg».proof.Proof.Finite

set_option maxRecDepth 16384

noncomputable section

namespace Cert.DualHead.Bridge

open Idealize.ShloMosaic Idealize.ShloMosaic.TcCoe Idealize.SL.Sem Cert.DualHead

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

set_option maxHeartbeats 2000000 in
theorem results_eq (hpre : Cert.Pre_KernelIdeal m) (c : Dev Cert.KernelIdeal.nD)
    (e0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0)))
    (e1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1)))
    (e2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2)))
    (e3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3)))
    (e4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4)))
    (e5 : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5)))
    (e6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6)))
    (e7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7)))
    (e8 : (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8)))
    (e9 : (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9)))
    (e10 : (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))) :
    RefArrays.MF m' c = KernelArrays.G12 m c ∧ RefArrays.CF m' c = KernelArrays.G13 m c
      ∧ shapeCast Cert.ReferenceIdeal.S160x1024x7x7 (RefRun.E3 m' c) Cert.ReferenceIdeal.Facts₀.shapeCasts_S160x1024x49_S160x1024x7x7
        = shapeCast Cert.KernelIdeal.S160x1024x7x7 (KernelRun.E3 m c) Cert.KernelIdeal.Facts₀.shapeCasts_S160x1024x49_S160x1024x7x7 := by
  obtain ⟨h0, h1, h2, h3, h4, h5, h6, h7, h8, h9, h10, hpos⟩ := Finite.decode _ _ _ _ _ _ _ _ _ _ _ (hpre c)
  have hX : ∀ i, IsReal (KernelArrays.X3 m c i) := fun i => by
    unfold KernelArrays.X3 shapeCast
    exact h0 _
  have eX : RefEntry.X3 m' c = KernelArrays.X3 m c := by
    unfold RefEntry.X3 KernelArrays.X3
    rw [e0]
  refine ⟨?_, ?_, ?_⟩
  · show metricArrF (RefEntry.X3 m' c) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) = _
    rw [eX, e1, e2, e3, e4]
    exact metricArrF_eq hX h1 h2 h3 h4
  · show clusterArrF (RefEntry.X3 m' c) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) = _
    rw [eX, e1, e2, e3, e4, e5, e6, e7, e8, e9, e10]
    exact clusterArrF_eq hX h1 h2 h3 h4 h5 h6 h7 h8 hpos h9 h10
  · show shapeCast _ (embArr (RefEntry.X3 m' c) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))) _ = _
    rw [eX, e1, e2]
    rfl

end Cert.DualHead.Bridge

end
-- ==== Proof.lean ====
/-
  The certificate: a tiled fused kernel for a 1×1 convolution over a 7×7 map with two normalised heads, against a
  reference that is itself a kernel with the head's weights folded beforehand.

  Both programs flatten the input's spatial axes to 49 pixels. Per batch row b:
    embedding(b, c, p) = x(b, ·, p) · Wb + bb at c;
    mean = (Σ_p x(b, ·, p))/49,  feats = (mean·Wb + bb)·Wf + bf,  metric = feats/√max(Σ feats², ε);
    s = γ/√(var + ε'),  cluster₀ = (metric ⊙ s + (β − μ ⊙ s))·Wc + bc,  cluster = cluster₀/√max(Σ cluster₀², ε).
  The kernel tiles the batch by 16 rows and computes the heads layer by layer, multiplying the pixel sum by a constant
  named 1/49; the reference tiles the embedding's columns by 256, divides the pixel sum by 49, and uses
  Wb·Wf, bb·Wf + bf, Wc ⊙ s and bc + (β − μ ⊙ s)·Wc computed on the host. Over the reals these agree by associativity
  and distributivity (Proof/HeadAlgebra.lean); distributivity needs every entry finite, and s real needs var + ε' > 0:
  the precondition gives every argument entry finite and var ≥ 0.
  Each program's arrays after its run are read off its frame run: Proof/KernelArrays.lean, Proof/RefArrays.lean; the
  lines after each call: Proof/KernelRun.lean, Proof/RefRun.lean; the comparison: Proof/Bridge.lean.
-/
import proofs.«141857_g2000002382505771_pallasbulk_556_21_alg».proof.Defs
import proofs.«141857_g2000002382505771_pallasbulk_556_21_alg».proof.Proof.Gen.Kernel
import proofs.«141857_g2000002382505771_pallasbulk_556_21_alg».proof.Proof.Gen.Kernel.Frame
import proofs.«141857_g2000002382505771_pallasbulk_556_21_alg».proof.Proof.Gen.KernelIdeal
import proofs.«141857_g2000002382505771_pallasbulk_556_21_alg».proof.Proof.Gen.KernelIdeal.Frame
import proofs.«141857_g2000002382505771_pallasbulk_556_21_alg».proof.Proof.Gen.ReferenceIdeal
import proofs.«141857_g2000002382505771_pallasbulk_556_21_alg».proof.Proof.Gen.ReferenceIdeal.Frame
import proofs.«141857_g2000002382505771_pallasbulk_556_21_alg».proof.Proof.Gen.Pre_finite_inputs
import proofs.«141857_g2000002382505771_pallasbulk_556_21_alg».proof.Proof.Bridge
import Idealize.ShloMosaic.Adequacy
import Idealize.ShloMosaic.Init

set_option maxRecDepth 16384

noncomputable section

namespace Cert.Proof

open Idealize.ShloMosaic Idealize.SL.Sem Cert.DualHead

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ => Cert.ReferenceIdeal.Gen.frame m ρ

/-- The one named constant: the table gives "inv_49" the value 1/49. -/
theorem preserves : Cert.preserves_Kernel_KernelIdeal :=
  IdealRules.named_const.statement Cert.KernelIdeal.κ "inv_49" .f32 0x3CA72F05#32 ((1 / 49 : ℝ) : EReal) rfl

set_option maxHeartbeats 2000000 in
/-- Both programs end with the same three arrays. -/
theorem algebraic : Cert.algebraic_KernelIdeal_ReferenceIdeal := by
  intro m ρ m' ρ' hpre hagree
  refine ⟨fun c => KernelArrays.G12 m c, fun c => KernelArrays.G13 m c,
    fun c => shapeCast Cert.KernelIdeal.S160x1024x7x7 (KernelRun.E3 m c) Cert.KernelIdeal.Facts₀.shapeCasts_S160x1024x49_S160x1024x7x7,
    KernelRun.run m ρ, ?_⟩
  refine (θ_run Cert.ReferenceIdeal.defs _ _).mono (fun r h c => ?_) (RefRun.run m' ρ')
  obtain ⟨h18, h20, h22, hargs⟩ := h c
  obtain ⟨e0, e1, e2, e3, e4, e5, e6, e7, e8, e9, e10⟩ := hagree c
  obtain ⟨b1, b2, b3⟩ := Bridge.results_eq m m' hpre c e0 e1 e2 e3 e4 e5 e6 e7 e8 e9 e10
  exact ⟨h18.trans b1, h20.trans b2, h22.trans b3, hargs⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
